-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S25x32 : Shape := ⟨2, ![25, 32]⟩
abbrev S1x32 : Shape := ⟨2, ![1, 32]⟩
abbrev S800x64 : Shape := ⟨2, ![800, 64]⟩
abbrev S1x64 : Shape := ⟨2, ![1, 64]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bcast_S_S25x32 : S_.BroadcastsInDim S25x32 (![] : Fin 0 → Fin S25x32.rank)
  reducesTo_S25x32_S_d0_1 : S25x32.ReducesTo [0, 1] S_
  bcast_S_S1x32 : S_.BroadcastsInDim S1x32 (![] : Fin 0 → Fin S1x32.rank)
  reducesTo_S1x32_S_d0_1 : S1x32.ReducesTo [0, 1] S_
  bcast_S_S800x64 : S_.BroadcastsInDim S800x64 (![] : Fin 0 → Fin S800x64.rank)
  reducesTo_S800x64_S_d0_1 : S800x64.ReducesTo [0, 1] S_
  bcast_S_S1x64 : S_.BroadcastsInDim S1x64 (![] : Fin 0 → Fin S1x64.rank)
  reducesTo_S1x64_S_d0_1 : S1x64.ReducesTo [0, 1] S_
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S512x128 .f32) (main_arg8 : FVec F S1x128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  main_v43

def fn_part1 {F : FTy → Type} [FloatOps F] (main_arg4 : FVec F S1x64 .f32) (main_arg5 : FVec F S1024x512 .f32) (main_arg6 : FVec F S1x512 .f32) (main_arg7 : FVec F S512x128 .f32) (main_arg8 : FVec F S1x128 .f32) (main_v13 : IVec S_ 1) (main_v16 : IVec S800x64 1) : IVec S_ 1 :=
  let main_c_5 : IVec S_ 1 := constantI S_ 1 1#1
  let main_v17 : IVec S_ 1 := (fun x v => Host.reduce IntOp.andi x v reducesTo_S800x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_v33

def fn {F : FTy → Type} [FloatOps F] (main_arg0 : FVec F S8192x1x28x28 .f32) (main_arg1 : FVec F S25x32 .f32) (main_arg2 : FVec F S1x32 .f32) (main_arg3 : FVec F S800x64 .f32) (main_arg4 : FVec F S1x64 .f32) (main_arg5 : FVec F S1024x512 .f32) (main_arg6 : FVec F S1x512 .f32) (main_arg7 : FVec F S512x128 .f32) (main_arg8 : FVec F S1x128 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S25x32 .f32 := Host.absf main_arg1
  let main_cst_0 : FVec F S_ .f32 := constant S_ .f32 0x7F800000#32
  let main_v5 : FVec F S25x32 .f32 := broadcastInDim S25x32 ![] bcast_S_S25x32 main_cst_0
  let main_v6 : IVec S25x32 1 := cmpf .olt main_v4 main_v5
  let main_c_1 : IVec S_ 1 := constantI S_ 1 1#1
  let main_v7 : IVec S_ 1 := (fun x v => Host.reduce IntOp.andi x v reducesTo_S25x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S800x64 .f32 := Host.absf main_arg3
  let main_cst_4 : FVec F S_ .f32 := constant S_ .f32 0x7F800000#32
  let main_v15 : FVec F S800x64 .f32 := broadcastInDim S800x64 ![] bcast_S_S800x64 main_cst_4
  let main_v16 : IVec S800x64 1 := cmpf .olt main_v14 main_v15
  fn_part1 (F := F) main_arg4 main_arg5 main_arg6 main_arg7 main_arg8 main_v13 main_v16
-- ==== Kernel.lean ====
abbrev S8192x1x28x28 : Shape := ⟨4, ![8192, 1, 28, 28]⟩
abbrev S25x32 : Shape := ⟨2, ![25, 32]⟩
abbrev S1x32 : Shape := ⟨2, ![1, 32]⟩
abbrev S800x64 : Shape := ⟨2, ![800, 64]⟩
abbrev S1x64 : Shape := ⟨2, ![1, 64]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S4 : Shape := ⟨1, ![4]⟩
abbrev S8192x7x4x28 : Shape := ⟨4, ![8192, 7, 4, 28]⟩
abbrev S4x7x8192x28 : Shape := ⟨4, ![4, 7, 8192, 28]⟩
abbrev S5x5x32 : Shape := ⟨3, ![5, 5, 32]⟩
abbrev S_ : Shape := ⟨0, ![]⟩
abbrev S5x6x32 : Shape := ⟨3, ![5, 6, 32]⟩
abbrev S12 : Shape := ⟨1, ![12]⟩
abbrev S24 : Shape := ⟨1, ![24]⟩
abbrev S28 : Shape := ⟨1, ![28]⟩
abbrev S28x1 : Shape := ⟨2, ![28, 1]⟩
abbrev S1x24 : Shape := ⟨2, ![1, 24]⟩
abbrev S28x24 : Shape := ⟨2, ![28, 24]⟩
abbrev S28x24x1 : Shape := ⟨3, ![28, 24, 1]⟩
abbrev S5x28x24x32 : Shape := ⟨4, ![5, 28, 24, 32]⟩
abbrev S140x768 : Shape := ⟨2, ![140, 768]⟩
abbrev S1x1x1x32 : Shape := ⟨4, ![1, 1, 1, 32]⟩
abbrev S1x1x12x32 : Shape := ⟨4, ![1, 1, 12, 32]⟩
abbrev S1x384 : Shape := ⟨2, ![1, 384]⟩
abbrev S5x5x32x64 : Shape := ⟨4, ![5, 5, 32, 64]⟩
abbrev S5x6x32x64 : Shape := ⟨4, ![5, 6, 32, 64]⟩
abbrev S8 : Shape := ⟨1, ![8]⟩
abbrev S8x1 : Shape := ⟨2, ![8, 1]⟩
abbrev S1x4 : Shape := ⟨2, ![1, 4]⟩
abbrev S8x4 : Shape := ⟨2, ![8, 4]⟩
abbrev S8x4x1 : Shape := ⟨3, ![8, 4, 1]⟩
abbrev S5x8x4x32x64 : Shape := ⟨5, ![5, 8, 4, 32, 64]⟩
abbrev S5x8x32x4x64 : Shape := ⟨5, ![5, 8, 32, 4, 64]⟩
abbrev S1280x256 : Shape := ⟨2, ![1280, 256]⟩
abbrev S1x1x1x64 : Shape := ⟨4, ![1, 1, 1, 64]⟩
abbrev S1x1x4x64 : Shape := ⟨4, ![1, 1, 4, 64]⟩
abbrev S1x256 : Shape := ⟨2, ![1, 256]⟩
abbrev S8192x1x128 : Shape := ⟨3, ![8192, 1, 128]⟩
abbrev S8192x1x10 : Shape := ⟨3, ![8192, 1, 10]⟩
abbrev S8192x10 : Shape := ⟨2, ![8192, 10]⟩
abbrev S4x7x256x28 : Shape := ⟨4, ![4, 7, 256, 28]⟩
abbrev S256x1x128 : Shape := ⟨3, ![256, 1, 128]⟩
abbrev S1x6x256x28 : Shape := ⟨4, ![1, 6, 256, 28]⟩
abbrev S6x256x28 : Shape := ⟨3, ![6, 256, 28]⟩
abbrev S1536x28 : Shape := ⟨2, ![1536, 28]⟩
abbrev S1536x140 : Shape := ⟨2, ![1536, 140]⟩
abbrev S1536x768 : Shape := ⟨2, ![1536, 768]⟩
abbrev S1536x384 : Shape := ⟨2, ![1536, 384]⟩
abbrev S1024x256 : Shape := ⟨2, ![1024, 256]⟩
abbrev S1024x1280 : Shape := ⟨2, ![1024, 1280]⟩
abbrev S1024x128 : Shape := ⟨2, ![1024, 128]⟩
abbrev S256x256 : Shape := ⟨2, ![256, 256]⟩
abbrev S256x512 : Shape := ⟨2, ![256, 512]⟩
abbrev S256x128 : Shape := ⟨2, ![256, 128]⟩

abbrev nBuf : Space → Nat
  | .hbm => 104
  | .vmem => 12
  | .smem => 0
  | _ => 0

abbrev bufTy : (tb : Table) → Fin (tcTables nBuf tb) → BufTy
  | .hbm, ⟨0, _⟩ => ⟨S8192x1x28x28, .f32⟩
  | .hbm, ⟨1, _⟩ => ⟨S25x32, .f32⟩
  | .hbm, ⟨2, _⟩ => ⟨S1x32, .f32⟩
  | .hbm, ⟨3, _⟩ => ⟨S800x64, .f32⟩
  | .hbm, ⟨4, _⟩ => ⟨S1x64, .f32⟩
  | .hbm, ⟨5, _⟩ => ⟨S1024x512, .f32⟩
  | .hbm, ⟨6, _⟩ => ⟨S1x512, .f32⟩
  | .hbm, ⟨7, _⟩ => ⟨S512x128, .f32⟩
  | .hbm, ⟨8, _⟩ => ⟨S1x128, .f32⟩
  | .hbm, ⟨9, _⟩ => ⟨S4, .i32⟩
  | .hbm, ⟨10, _⟩ => ⟨S8192x1x28x28, .bf16⟩
  | .hbm, ⟨11, _⟩ => ⟨S8192x7x4x28, .bf16⟩
  | .hbm, ⟨12, _⟩ => ⟨S4x7x8192x28, .bf16⟩
  | .hbm, ⟨13, _⟩ => ⟨S5x5x32, .f32⟩
  | .hbm, ⟨14, _⟩ => ⟨S_, .i32⟩
  | .hbm, ⟨15, _⟩ => ⟨S_, .f32⟩
  | .hbm, ⟨16, _⟩ => ⟨S5x6x32, .f32⟩
  | .hbm, ⟨17, _⟩ => ⟨S12, .i32⟩
  | .hbm, ⟨18, _⟩ => ⟨S_, .i32⟩
  | .hbm, ⟨19, _⟩ => ⟨S12, .i32⟩
  | .hbm, ⟨20, _⟩ => ⟨S12, .i32⟩
  | .hbm, ⟨21, _⟩ => ⟨S_, .i32⟩
  | .hbm, ⟨22, _⟩ => ⟨S12, .i32⟩
  | .hbm, ⟨23, _⟩ => ⟨S12, .i32⟩
  | .hbm, ⟨24, _⟩ => ⟨S12, .i32⟩
  | .hbm, ⟨25, _⟩ => ⟨S_, .i32⟩
  | .hbm, ⟨26, _⟩ => ⟨S12, .i32⟩
  | .hbm, ⟨27, _⟩ => ⟨S12, .i32⟩
  | .hbm, ⟨28, _⟩ => ⟨S_, .i32⟩
  | .hbm, ⟨29, _⟩ => ⟨S12, .i32⟩
  | .hbm, ⟨30, _⟩ => ⟨S12, .i32⟩
  | .hbm, ⟨31, _⟩ => ⟨S24, .i32⟩
  | .hbm, ⟨32, _⟩ => ⟨S28, .i32⟩
  | .hbm, ⟨33, _⟩ => ⟨S28x1, .i32⟩
  | .hbm, ⟨34, _⟩ => ⟨S1x24, .i32⟩
  | .hbm, ⟨35, _⟩ => ⟨S28x24, .i32⟩
  | .hbm, ⟨36, _⟩ => ⟨S28x24, .i32⟩
  | .hbm, ⟨37, _⟩ => ⟨S28x24, .i32⟩
  | .hbm, ⟨38, _⟩ => ⟨S_, .i32⟩
  | .hbm, ⟨39, _⟩ => ⟨S28x24, .i32⟩
  | .hbm, ⟨40, _⟩ => ⟨S28x24, .i1⟩
  | .hbm, ⟨41, _⟩ => ⟨S_, .i32⟩
  | .hbm, ⟨42, _⟩ => ⟨S28x24, .i32⟩
  | .hbm, ⟨43, _⟩ => ⟨S28x24, .i1⟩
  | .hbm, ⟨44, _⟩ => ⟨S28x24, .i1⟩
  | .hbm, ⟨45, _⟩ => ⟨S_, .i32⟩
  | .hbm, ⟨46, _⟩ => ⟨S_, .i32⟩
  | .hbm, ⟨47, _⟩ => ⟨S28x24, .i32⟩
  | .hbm, ⟨48, _⟩ => ⟨S28x24, .i32⟩
  | .hbm, ⟨49, _⟩ => ⟨S_, .i32⟩
  | .hbm, ⟨50, _⟩ => ⟨S28x24, .i32⟩
  | .hbm, ⟨51, _⟩ => ⟨S28x24, .i1⟩
  | .hbm, ⟨52, _⟩ => ⟨S_, .i32⟩
  | .hbm, ⟨53, _⟩ => ⟨S28x24, .i32⟩
  | .hbm, ⟨54, _⟩ => ⟨S28x24, .i32⟩
  | .hbm, ⟨55, _⟩ => ⟨S28x24, .i32⟩
  | .hbm, ⟨56, _⟩ => ⟨S28x24x1, .i32⟩
  | .hbm, ⟨57, _⟩ => ⟨S5x28x24x32, .f32⟩
  | .hbm, ⟨58, _⟩ => ⟨S140x768, .f32⟩
  | .hbm, ⟨59, _⟩ => ⟨S140x768, .bf16⟩
  | .hbm, ⟨60, _⟩ => ⟨S1x1x1x32, .f32⟩
  | .hbm, ⟨61, _⟩ => ⟨S1x1x12x32, .f32⟩
  | .hbm, ⟨62, _⟩ => ⟨S1x384, .f32⟩
  | .hbm, ⟨63, _⟩ => ⟨S5x5x32x64, .f32⟩
  | .hbm, ⟨64, _⟩ => ⟨S_, .i32⟩
  | .hbm, ⟨65, _⟩ => ⟨S_, .f32⟩
  | .hbm, ⟨66, _⟩ => ⟨S5x6x32x64, .f32⟩
  | .hbm, ⟨67, _⟩ => ⟨S8, .i32⟩
  | .hbm, ⟨68, _⟩ => ⟨S8x1, .i32⟩
  | .hbm, ⟨69, _⟩ => ⟨S1x4, .i32⟩
  | .hbm, ⟨70, _⟩ => ⟨S8x4, .i32⟩
  | .hbm, ⟨71, _⟩ => ⟨S8x4, .i32⟩
  | .hbm, ⟨72, _⟩ => ⟨S8x4, .i32⟩
  | .hbm, ⟨73, _⟩ => ⟨S_, .i32⟩
  | .hbm, ⟨74, _⟩ => ⟨S8x4, .i32⟩
  | .hbm, ⟨75, _⟩ => ⟨S8x4, .i1⟩
  | .hbm, ⟨76, _⟩ => ⟨S_, .i32⟩
  | .hbm, ⟨77, _⟩ => ⟨S8x4, .i32⟩
  | .hbm, ⟨78, _⟩ => ⟨S8x4, .i1⟩
  | .hbm, ⟨79, _⟩ => ⟨S8x4, .i1⟩
  | .hbm, ⟨80, _⟩ => ⟨S_, .i32⟩
  | .hbm, ⟨81, _⟩ => ⟨S_, .i32⟩
  | .hbm, ⟨82, _⟩ => ⟨S8x4, .i32⟩
  | .hbm, ⟨83, _⟩ => ⟨S8x4, .i32⟩
  | .hbm, ⟨84, _⟩ => ⟨S_, .i32⟩
  | .hbm, ⟨85, _⟩ => ⟨S8x4, .i32⟩
  | .hbm, ⟨86, _⟩ => ⟨S8x4, .i1⟩
  | .hbm, ⟨87, _⟩ => ⟨S_, .i32⟩
  | .hbm, ⟨88, _⟩ => ⟨S8x4, .i32⟩
  | .hbm, ⟨89, _⟩ => ⟨S8x4, .i32⟩
  | .hbm, ⟨90, _⟩ => ⟨S8x4, .i32⟩
  | .hbm, ⟨91, _⟩ => ⟨S8x4x1, .i32⟩
  | .hbm, ⟨92, _⟩ => ⟨S5x8x4x32x64, .f32⟩
  | .hbm, ⟨93, _⟩ => ⟨S5x8x32x4x64, .f32⟩
  | .hbm, ⟨94, _⟩ => ⟨S1280x256, .f32⟩
  | .hbm, ⟨95, _⟩ => ⟨S1280x256, .bf16⟩
  | .hbm, ⟨96, _⟩ => ⟨S1x1x1x64, .f32⟩
  | .hbm, ⟨97, _⟩ => ⟨S1x1x4x64, .f32⟩
  | .hbm, ⟨98, _⟩ => ⟨S1x256, .f32⟩
  | .hbm, ⟨99, _⟩ => ⟨S1024x512, .bf16⟩
  | .hbm, ⟨100, _⟩ => ⟨S512x128, .bf16⟩
  | .hbm, ⟨101, _⟩ => ⟨S8192x1x128, .f32⟩
  | .hbm, ⟨102, _⟩ => ⟨S8192x1x10, .f32⟩
  | .hbm, ⟨103, _⟩ => ⟨S8192x10, .f32⟩
  | .local _ .vmem, ⟨0, _⟩ => ⟨S4x7x256x28, .bf16⟩
  | .local _ .vmem, ⟨1, _⟩ => ⟨S4x7x256x28, .bf16⟩
  | .local _ .vmem, ⟨2, _⟩ => ⟨S140x768, .bf16⟩
  | .local _ .vmem, ⟨3, _⟩ => ⟨S1x384, .f32⟩
  | .local _ .vmem, ⟨4, _⟩ => ⟨S1280x256, .bf16⟩
  | .local _ .vmem, ⟨5, _⟩ => ⟨S1x256, .f32⟩
  | .local _ .vmem, ⟨6, _⟩ => ⟨S1024x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S256x1x128, .f32⟩
  | .local _ .vmem, ⟨11, _⟩ => ⟨S256x1x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c_0 : Ref sig .tc := ⟨.hbm, 14, rfl⟩
abbrev main_call0_call0_v0 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_v6 : Ref sig .tc := ⟨.hbm, 19, rfl⟩
abbrev main_call0_v7 : Ref sig .tc := ⟨.hbm, 20, rfl⟩
abbrev main_call0_c_2 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c_3 : Ref sig .tc := ⟨.hbm, 25, rfl⟩
abbrev main_call0_v11 : Ref sig .tc := ⟨.hbm, 26, rfl⟩
abbrev main_call0_v12 : Ref sig .tc := ⟨.hbm, 27, rfl⟩
abbrev main_call0_c_4 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_c_5 : Ref sig .tc := ⟨.hbm, 38, rfl⟩
abbrev main_call0_v22 : Ref sig .tc := ⟨.hbm, 39, rfl⟩
abbrev main_call0_v23 : Ref sig .tc := ⟨.hbm, 40, rfl⟩
abbrev main_call0_c_6 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_c_7 : Ref sig .tc := ⟨.hbm, 45, rfl⟩
abbrev main_call0_call1_v0 : Ref sig .tc := ⟨.hbm, 46, rfl⟩
abbrev main_call0_call1_v1 : Ref sig .tc := ⟨.hbm, 47, rfl⟩
abbrev main_call0_v27 : Ref sig .tc := ⟨.hbm, 48, rfl⟩
abbrev main_call0_c_8 : Ref sig .tc := ⟨.hbm, 49, rfl⟩
abbrev main_call0_v28 : Ref sig .tc := ⟨.hbm, 50, rfl⟩
abbrev main_call0_v29 : Ref sig .tc := ⟨.hbm, 51, rfl⟩
abbrev main_call0_c_9 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_c_10 : Ref sig .tc := ⟨.hbm, 64, rfl⟩
abbrev main_call0_call2_v0 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_c_11 : Ref sig .tc := ⟨.hbm, 73, rfl⟩
abbrev main_call0_v48 : Ref sig .tc := ⟨.hbm, 74, rfl⟩
abbrev main_call0_v49 : Ref sig .tc := ⟨.hbm, 75, rfl⟩
abbrev main_call0_c_12 : Ref sig .tc := ⟨.hbm, 76, rfl⟩
abbrev main_call0_v50 : Ref sig .tc := ⟨.hbm, 77, rfl⟩
abbrev main_call0_v51 : Ref sig .tc := ⟨.hbm, 78, rfl⟩
abbrev main_call0_v52 : Ref sig .tc := ⟨.hbm, 79, rfl⟩
abbrev main_call0_c_13 : Ref sig .tc := ⟨.hbm, 80, rfl⟩
abbrev main_call0_call3_v0 : Ref sig .tc := ⟨.hbm, 81, rfl⟩
abbrev main_call0_call3_v1 : Ref sig .tc := ⟨.hbm, 82, rfl⟩
abbrev main_call0_v53 : Ref sig .tc := ⟨.hbm, 83, rfl⟩
abbrev main_call0_c_14 : Ref sig .tc := ⟨.hbm, 84, rfl⟩
abbrev main_call0_v54 : Ref sig .tc := ⟨.hbm, 85, rfl⟩
abbrev main_call0_v55 : Ref sig .tc := ⟨.hbm, 86, rfl⟩
abbrev main_call0_c_15 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_v59 : Ref sig .tc := ⟨.hbm, 91, rfl⟩
abbrev main_call0_v60 : Ref sig .tc := ⟨.hbm, 92, rfl⟩
abbrev main_call0_v61 : Ref sig .tc := ⟨.hbm, 93, rfl⟩
abbrev main_call0_v62 : Ref sig .tc := ⟨.hbm, 94, rfl⟩
abbrev main_call0_v63 : Ref sig .tc := ⟨.hbm, 95, rfl⟩
abbrev main_call0_v64 : Ref sig .tc := ⟨.hbm, 96, rfl⟩
abbrev main_call0_v65 : Ref sig .tc := ⟨.hbm, 97, rfl⟩
abbrev main_call0_v66 : Ref sig .tc := ⟨.hbm, 98, rfl⟩
abbrev main_call0_v67 : Ref sig .tc := ⟨.hbm, 99, rfl⟩
abbrev main_call0_v68 : Ref sig .tc := ⟨.hbm, 100, rfl⟩
abbrev main_call0_v69 : Ref sig .tc := ⟨.hbm, 101, rfl⟩
abbrev main_call0_v70 : Ref sig .tc := ⟨.hbm, 102, rfl⟩
abbrev main_v0 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x7x256x28 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S140x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S8192x1x28x28_S8192x7x4x28 : S8192x1x28x28.ShapeCasts S8192x7x4x28
  transposes_S8192x7x4x28_S4x7x8192x28_2_1_0_3 : S8192x7x4x28.Transposes [2, 1, 0, 3] S4x7x8192x28
  shapeCasts_S25x32_S5x5x32 : S25x32.ShapeCasts S5x5x32
  pads_S5x5x32_S5x6x32_000_010_000 : S5x5x32.Pads (![0, 0, 0] : Fin 3 → Nat) ![0, 1, 0] ![0, 0, 0] S5x6x32
  h_S_ : 0 < S_.numel
  bcast_S_S12 : S_.BroadcastsInDim S12 (![] : Fin 0 → Fin S12.rank)
  concatenates_S12_S12_S24_d0 : Shape.Concatenates [S12, S12] S24 0
  bcast_S28_S28x1_0 : S28.BroadcastsInDim S28x1 (![0] : Fin 1 → Fin S28x1.rank)
  bcast_S24_S1x24_1 : S24.BroadcastsInDim S1x24 (![1] : Fin 1 → Fin S1x24.rank)
  bcast_S28x1_S28x24_0_1 : S28x1.BroadcastsInDim S28x24 (![0, 1] : Fin 2 → Fin S28x24.rank)
  bcast_S1x24_S28x24_0_1 : S1x24.BroadcastsInDim S28x24 (![0, 1] : Fin 2 → Fin S28x24.rank)
  bcast_S_S28x24 : S_.BroadcastsInDim S28x24 (![] : Fin 0 → Fin S28x24.rank)
  bcast_S28x24_S28x24x1_0_1 : S28x24.BroadcastsInDim S28x24x1 (![0, 1] : Fin 2 → Fin S28x24x1.rank)
  shapeCasts_S5x28x24x32_S140x768 : S5x28x24x32.ShapeCasts S140x768
  shapeCasts_S1x32_S1x1x1x32 : S1x32.ShapeCasts S1x1x1x32
  bcast_S1x1x1x32_S1x1x12x32_0_1_2_3 : S1x1x1x32.BroadcastsInDim S1x1x12x32 (![0, 1, 2, 3] : Fin 4 → Fin S1x1x12x32.rank)
  shapeCasts_S1x1x12x32_S1x384 : S1x1x12x32.ShapeCasts S1x384
  shapeCasts_S800x64_S5x5x32x64 : S800x64.ShapeCasts S5x5x32x64
  pads_S5x5x32x64_S5x6x32x64_000_010_000_000 : S5x5x32x64.Pads (![0, 0, 0, 0] : Fin 4 → Nat) ![0, 1, 0, 0] ![0, 0, 0, 0] S5x6x32x64
  bcast_S8_S8x1_0 : S8.BroadcastsInDim S8x1 (![0] : Fin 1 → Fin S8x1.rank)
  bcast_S4_S1x4_1 : S4.BroadcastsInDim S1x4 (![1] : Fin 1 → Fin S1x4.rank)
  bcast_S8x1_S8x4_0_1 : S8x1.BroadcastsInDim S8x4 (![0, 1] : Fin 2 → Fin S8x4.rank)
  bcast_S1x4_S8x4_0_1 : S1x4.BroadcastsInDim S8x4 (![0, 1] : Fin 2 → Fin S8x4.rank)
  bcast_S_S8x4 : S_.BroadcastsInDim S8x4 (![] : Fin 0 → Fin S8x4.rank)
  bcast_S8x4_S8x4x1_0_1 : S8x4.BroadcastsInDim S8x4x1 (![0, 1] : Fin 2 → Fin S8x4x1.rank)
  transposes_S5x8x4x32x64_S5x8x32x4x64_0_1_3_2_4 : S5x8x4x32x64.Transposes [0, 1, 3, 2, 4] S5x8x32x4x64
  shapeCasts_S5x8x32x4x64_S1280x256 : S5x8x32x4x64.ShapeCasts S1280x256
  shapeCasts_S1x64_S1x1x1x64 : S1x64.ShapeCasts S1x1x1x64
  bcast_S1x1x1x64_S1x1x4x64_0_1_2_3 : S1x1x1x64.BroadcastsInDim S1x1x4x64 (![0, 1, 2, 3] : Fin 4 → Fin S1x1x4x64.rank)
  shapeCasts_S1x1x4x64_S1x256 : S1x1x4x64.ShapeCasts S1x256
  slices_S8192x1x128_S8192x1x10_0_0_0 : S8192x1x128.Slices ![0, 0, 0] S8192x1x10
  shapeCasts_S8192x1x10_S8192x10 : S8192x1x10.ShapeCasts S8192x10
  inb_S140x768_S140x768_0_0 : ∀ a, (![0, 0] : Fin 2 → Nat) a + S140x768.size a ≤ S140x768.size a
  h_S140x768 : 0 < S140x768.numel
  shapeCasts_S140x768_S140x768 : S140x768.ShapeCasts S140x768
  inb_S4x7x256x28_S1x6x256x28_0_0_0_0 : ∀ a, (![0, 0, 0, 0] : Fin 4 → Nat) a + S1x6x256x28.size a ≤ S4x7x256x28.size a
  h_S1x6x256x28 : 0 < S1x6x256x28.numel
  shapeCasts_S1x6x256x28_S6x256x28 : S1x6x256x28.ShapeCasts S6x256x28
  shapeCasts_S6x256x28_S1536x28 : S6x256x28.ShapeCasts S1536x28
  inb_S4x7x256x28_S1x6x256x28_1_0_0_0 : ∀ a, (![1, 0, 0, 0] : Fin 4 → Nat) a + S1x6x256x28.size a ≤ S4x7x256x28.size a
  inb_S4x7x256x28_S1x6x256x28_2_0_0_0 : ∀ a, (![2, 0, 0, 0] : Fin 4 → Nat) a + S1x6x256x28.size a ≤ S4x7x256x28.size a
  inb_S4x7x256x28_S1x6x256x28_3_0_0_0 : ∀ a, (![3, 0, 0, 0] : Fin 4 → Nat) a + S1x6x256x28.size a ≤ S4x7x256x28.size a
  inb_S4x7x256x28_S1x6x256x28_0_1_0_0 : ∀ a, (![0, 1, 0, 0] : Fin 4 → Nat) a + S1x6x256x28.size a ≤ S4x7x256x28.size a
  concatenates_S1536x28_S1536x28_S1536x28_S1536x28_S1536x28_S1536x140_d1 : Shape.Concatenates [S1536x28, S1536x28, S1536x28, S1536x28, S1536x28] S1536x140 1
  inb_S4x7x256x28_S1x6x256x28_1_1_0_0 : ∀ a, (![1, 1, 0, 0] : Fin 4 → Nat) a + S1x6x256x28.size a ≤ S4x7x256x28.size a
  inb_S4x7x256x28_S1x6x256x28_2_1_0_0 : ∀ a, (![2, 1, 0, 0] : Fin 4 → Nat) a + S1x6x256x28.size a ≤ S4x7x256x28.size a
  inb_S4x7x256x28_S1x6x256x28_3_1_0_0 : ∀ a, (![3, 1, 0, 0] : Fin 4 → Nat) a + S1x6x256x28.size a ≤ S4x7x256x28.size a
  slices_S1536x768_o0_0_S1536x384 : S1536x768.Slices ![0, 0] S1536x384
  slices_S1536x768_o0_384_S1536x384 : S1536x768.Slices ![0, 384] S1536x384
  inb_S1x384_S1x384_0_0 : ∀ a, (![0, 0] : Fin 2 → Nat) a + S1x384.size a ≤ S1x384.size a
  h_S1x384 : 0 < S1x384.numel
  broadcasts_S1x384_S1536x384 : S1x384.Broadcasts S1536x384
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  slices_S1536x384_o0_0_S1024x256 : S1536x384.Slices ![0, 0] S1024x256
  slices_S1536x384_o256_0_S1024x256 : S1536x384.Slices ![256, 0] S1024x256
  slices_S1536x384_o512_0_S1024x256 : S1536x384.Slices ![512, 0] S1024x256
  concatenates_S1024x256_S1024x256_S1024x256_S1024x256_S1024x256_S1024x1280_d1 : Shape.Concatenates [S1024x256, S1024x256, S1024x256, S1024x256, S1024x256] S1024x1280 1
  slices_S1536x384_o0_128_S1024x256 : S1536x384.Slices ![0, 128] S1024x256
  slices_S1536x384_o256_128_S1024x256 : S1536x384.Slices ![256, 128] S1024x256
  slices_S1536x384_o512_128_S1024x256 : S1536x384.Slices ![512, 128] S1024x256
  slices_S1024x256_o0_0_S1024x128 : S1024x256.Slices ![0, 0] S1024x128
  slices_S1024x256_o0_128_S1024x128 : S1024x256.Slices ![0, 128] S1024x128
  concatenates_S1024x128_S1024x128_S1024x256_d1 : Shape.Concatenates [S1024x128, S1024x128] S1024x256 1
  inb_S1x256_S1x256_0_0 : ∀ a, (![0, 0] : Fin 2 → Nat) a + S1x256.size a ≤ S1x256.size a
  h_S1x256 : 0 < S1x256.numel
  broadcasts_S1x256_S1024x256 : S1x256.Broadcasts S1024x256
  slices_S1024x256_o0_0_S256x256 : S1024x256.Slices ![0, 0] S256x256
  inb_S1024x512_S256x512_0_0 : ∀ a, (![0, 0] : Fin 2 → Nat) a + S256x512.size a ≤ S1024x512.size a
  h_S256x512 : 0 < S256x512.numel
  shapeCasts_S256x512_S256x512 : S256x512.ShapeCasts S256x512
  slices_S1024x256_o256_0_S256x256 : S1024x256.Slices ![256, 0] S256x256
  inb_S1024x512_S256x512_256_0 : ∀ a, (![256, 0] : Fin 2 → Nat) a + S256x512.size a ≤ S1024x512.size a
  slices_S1024x256_o512_0_S256x256 : S1024x256.Slices ![512, 0] S256x256
  inb_S1024x512_S256x512_512_0 : ∀ a, (![512, 0] : Fin 2 → Nat) a + S256x512.size a ≤ S1024x512.size a
  slices_S1024x256_o768_0_S256x256 : S1024x256.Slices ![768, 0] S256x256
  inb_S1024x512_S256x512_768_0 : ∀ a, (![768, 0] : Fin 2 → Nat) a + S256x512.size a ≤ S1024x512.size a
  inb_S1x512_S1x512_0_0 : ∀ a, (![0, 0] : Fin 2 → Nat) a + S1x512.size a ≤ S1x512.size a
  h_S1x512 : 0 < S1x512.numel
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  broadcasts_S1x128_S256x128 : S1x128.Broadcasts S256x128
  shapeCasts_S256x128_S256x1x128 : S256x128.ShapeCasts S256x1x128
  inb_S256x1x128_S256x1x128_0_0_0 : ∀ a, (![0, 0, 0] : Fin 3 → Nat) a + S256x1x128.size a ≤ S256x1x128.size a
  h_S256x1x128 : 0 < S256x1x128.numel
  gather_S5x6x32_S28x24x1_S5x28x24x32_03_1_n_n_1_2_5132_wf : GatherDims.WF S5x6x32 S28x24x1 S5x28x24x32 [0, 3] [1] [] [1] [] 2 ![5, 1, 32]
  gather_S5x6x32x64_S8x4x1_S5x8x4x32x64_034_1_n_n_1_2_513264_wf : GatherDims.WF S5x6x32x64 S8x4x1 S5x8x4x32x64 [0, 3, 4] [1] [] [1] [] 2 ![5, 1, 32, 64]
  dot_S1536x140_S140x768_S1536x768_1_0_0_1_n_n_wf : DotDims.WF S1536x140 S140x768 S1536x768 [1] [0] [0] [1] [] []
  dot_S1024x1280_S1280x256_S1024x256_1_0_0_1_n_n_wf : DotDims.WF S1024x1280 S1280x256 S1024x256 [1] [0] [0] [1] [] []
  dot_S256x256_S256x512_S256x512_1_0_0_1_n_n_wf : DotDims.WF S256x256 S256x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x7x256x28.size a ≤ S4x7x8192x28.size a
  hwx0_0 : ∀ i : grid0.Coords, EltTy.bits .bf16 = 32 ∨ (Rect.block (s := S4x7x8192x28) S4x7x256x28.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S140x768.size a ≤ S140x768.size a
  hwx0_1 : ∀ i : grid0.Coords, EltTy.bits .bf16 = 32 ∨ (Rect.block (s := S140x768) S140x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S1280x256.size a
  hwx0_3 : ∀ i : grid0.Coords, EltTy.bits .bf16 = 32 ∨ (Rect.block (s := S1280x256) S1280x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1x128.size a ≤ S8192x1x128.size a
  hwx0_9 : ∀ i : grid0.Coords, EltTy.bits .f32 = 32 ∨ (Rect.block (s := S8192x1x128) S256x1x128.size (cc0_transform_9 i) (hinb0_9 i)).WholeWords (EltTy.packing .f32)

variable [Facts₀]

def gather_S5x6x32_S28x24x1_S5x28x24x32_03_1_n_n_1_2_5132 : GatherDims S5x6x32 S28x24x1 S5x28x24x32 where
  offsetDims := [0, 3]
  collapsedSliceDims := [1]
  operandBatchingDims := []
  startIndicesBatchingDims := []
  startIndexMap := [1]
  indexVectorDim := 2
  sliceSizes := ![5, 1, 32]
  wf := gather_S5x6x32_S28x24x1_S5x28x24x32_03_1_n_n_1_2_5132_wf
def gather_S5x6x32x64_S8x4x1_S5x8x4x32x64_034_1_n_n_1_2_513264 : GatherDims S5x6x32x64 S8x4x1 S5x8x4x32x64 where
  offsetDims := [0, 3, 4]
  collapsedSliceDims := [1]
  operandBatchingDims := []
  startIndicesBatchingDims := []
  startIndexMap := [1]
  indexVectorDim := 2
  sliceSizes := ![5, 1, 32, 64]
  wf := gather_S5x6x32x64_S8x4x1_S5x8x4x32x64_034_1_n_n_1_2_513264_wf
def dot_S1536x140_S140x768_S1536x768_1_0_0_1_n_n : DotDims S1536x140 S140x768 S1536x768 where
  lhsContracting := [1]
  rhsContracting := [0]
  lhsNonContracting := [0]
  rhsNonContracting := [1]
  lhsBatch := []
  rhsBatch := []
  wf := dot_S1536x140_S140x768_S1536x768_1_0_0_1_n_n_wf
def dot_S1024x1280_S1280x256_S1024x256_1_0_0_1_n_n : DotDims S1024x1280 S1280x256 S1024x256 where
  lhsContracting := [1]
  rhsContracting := [0]
  lhsNonContracting := [0]
  rhsNonContracting := [1]
  lhsBatch := []
  rhsBatch := []
  wf := dot_S1024x1280_S1280x256_S1024x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_call0_v2) S4x7x256x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v36) S140x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v39) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v63) S1280x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v66) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v67) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v68) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v69) S256x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1x28x28 : Shape := ⟨4, ![8192, 1, 28, 28]⟩
abbrev S25x32 : Shape := ⟨2, ![25, 32]⟩
abbrev S1x32 : Shape := ⟨2, ![1, 32]⟩
abbrev S800x64 : Shape := ⟨2, ![800, 64]⟩
abbrev S1x64 : Shape := ⟨2, ![1, 64]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S8192x28x28 : Shape := ⟨3, ![8192, 28, 28]⟩
abbrev S8192x1x128 : Shape := ⟨3, ![8192, 1, 128]⟩
abbrev S8192x1x10 : Shape := ⟨3, ![8192, 1, 10]⟩
abbrev S8192x10 : Shape := ⟨2, ![8192, 10]⟩
abbrev S8x28x28 : Shape := ⟨3, ![8, 28, 28]⟩
abbrev S8x1x128 : Shape := ⟨3, ![8, 1, 128]⟩
abbrev S8x24x24 : Shape := ⟨3, ![8, 24, 24]⟩
abbrev S8x24x24x1 : Shape := ⟨4, ![8, 24, 24, 1]⟩
abbrev S8x24x24x25 : Shape := ⟨4, ![8, 24, 24, 25]⟩
abbrev S4608x25 : Shape := ⟨2, ![4608, 25]⟩
abbrev S4608x32 : Shape := ⟨2, ![4608, 32]⟩
abbrev S8x24x24x32 : Shape := ⟨4, ![8, 24, 24, 32]⟩
abbrev S8x12x2x24x32 : Shape := ⟨5, ![8, 12, 2, 24, 32]⟩
abbrev S8x12x1x24x32 : Shape := ⟨5, ![8, 12, 1, 24, 32]⟩
abbrev S8x12x24x32 : Shape := ⟨4, ![8, 12, 24, 32]⟩
abbrev S8x12x12x2x32 : Shape := ⟨5, ![8, 12, 12, 2, 32]⟩
abbrev S8x12x12x1x32 : Shape := ⟨5, ![8, 12, 12, 1, 32]⟩
abbrev S8x12x12x32 : Shape := ⟨4, ![8, 12, 12, 32]⟩
abbrev S8x8x8x32 : Shape := ⟨4, ![8, 8, 8, 32]⟩
abbrev S8x8x8x800 : Shape := ⟨4, ![8, 8, 8, 800]⟩
abbrev S512x800 : Shape := ⟨2, ![512, 800]⟩
abbrev S512x64 : Shape := ⟨2, ![512, 64]⟩
abbrev S8x8x8x64 : Shape := ⟨4, ![8, 8, 8, 64]⟩
abbrev S8x4x2x8x64 : Shape := ⟨5, ![8, 4, 2, 8, 64]⟩
abbrev S8x4x1x8x64 : Shape := ⟨5, ![8, 4, 1, 8, 64]⟩
abbrev S8x4x8x64 : Shape := ⟨4, ![8, 4, 8, 64]⟩
abbrev S8x4x4x2x64 : Shape := ⟨5, ![8, 4, 4, 2, 64]⟩
abbrev S8x4x4x1x64 : Shape := ⟨5, ![8, 4, 4, 1, 64]⟩
abbrev S8x4x4x64 : Shape := ⟨4, ![8, 4, 4, 64]⟩
abbrev S8x1024 : Shape := ⟨2, ![8, 1024]⟩
abbrev S8x512 : Shape := ⟨2, ![8, 512]⟩
abbrev S8x128 : Shape := ⟨2, ![8, 128]⟩

abbrev nBuf : Space → Nat
  | .hbm => 13
  | .vmem => 12
  | .smem => 0
  | _ => 0

abbrev bufTy : (tb : Table) → Fin (tcTables nBuf tb) → BufTy
  | .hbm, ⟨0, _⟩ => ⟨S8192x1x28x28, .f32⟩
  | .hbm, ⟨1, _⟩ => ⟨S25x32, .f32⟩
  | .hbm, ⟨2, _⟩ => ⟨S1x32, .f32⟩
  | .hbm, ⟨3, _⟩ => ⟨S800x64, .f32⟩
  | .hbm, ⟨4, _⟩ => ⟨S1x64, .f32⟩
  | .hbm, ⟨5, _⟩ => ⟨S1024x512, .f32⟩
  | .hbm, ⟨6, _⟩ => ⟨S1x512, .f32⟩
  | .hbm, ⟨7, _⟩ => ⟨S512x128, .f32⟩
  | .hbm, ⟨8, _⟩ => ⟨S1x128, .f32⟩
  | .hbm, ⟨9, _⟩ => ⟨S8192x28x28, .f32⟩
  | .hbm, ⟨10, _⟩ => ⟨S8192x1x128, .f32⟩
  | .hbm, ⟨11, _⟩ => ⟨S8192x1x10, .f32⟩
  | .hbm, ⟨12, _⟩ => ⟨S8192x10, .f32⟩
  | .local _ .vmem, ⟨0, _⟩ => ⟨S8x28x28, .f32⟩
  | .local _ .vmem, ⟨1, _⟩ => ⟨S8x28x28, .f32⟩
  | .local _ .vmem, ⟨2, _⟩ => ⟨S25x32, .f32⟩
  | .local _ .vmem, ⟨3, _⟩ => ⟨S1x32, .f32⟩
  | .local _ .vmem, ⟨4, _⟩ => ⟨S800x64, .f32⟩
  | .local _ .vmem, ⟨5, _⟩ => ⟨S1x64, .f32⟩
  | .local _ .vmem, ⟨6, _⟩ => ⟨S1024x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S8x1x128, .f32⟩
  | .local _ .vmem, ⟨11, _⟩ => ⟨S8x1x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S800x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8192x1x28x28_S8192x28x28 : S8192x1x28x28.ShapeCasts S8192x28x28
  slices_S8192x1x128_S8192x1x10_0_0_0 : S8192x1x128.Slices ![0, 0, 0] S8192x1x10
  shapeCasts_S8192x1x10_S8192x10 : S8192x1x10.ShapeCasts S8192x10
  inb_S8x28x28_S8x28x28_0_0_0 : ∀ a, (![0, 0, 0] : Fin 3 → Nat) a + S8x28x28.size a ≤ S8x28x28.size a
  h_S8x28x28 : 0 < S8x28x28.numel
  shapeCasts_S8x28x28_S8x28x28 : S8x28x28.ShapeCasts S8x28x28
  slices_S8x28x28_o0_0_0_S8x24x24 : S8x28x28.Slices ![0, 0, 0] S8x24x24
  shapeCasts_S8x24x24_S8x24x24x1 : S8x24x24.ShapeCasts S8x24x24x1
  slices_S8x28x28_o0_0_1_S8x24x24 : S8x28x28.Slices ![0, 0, 1] S8x24x24
  slices_S8x28x28_o0_0_2_S8x24x24 : S8x28x28.Slices ![0, 0, 2] S8x24x24
  slices_S8x28x28_o0_0_3_S8x24x24 : S8x28x28.Slices ![0, 0, 3] S8x24x24
  slices_S8x28x28_o0_0_4_S8x24x24 : S8x28x28.Slices ![0, 0, 4] S8x24x24
  slices_S8x28x28_o0_1_0_S8x24x24 : S8x28x28.Slices ![0, 1, 0] S8x24x24
  slices_S8x28x28_o0_1_1_S8x24x24 : S8x28x28.Slices ![0, 1, 1] S8x24x24
  slices_S8x28x28_o0_1_2_S8x24x24 : S8x28x28.Slices ![0, 1, 2] S8x24x24
  slices_S8x28x28_o0_1_3_S8x24x24 : S8x28x28.Slices ![0, 1, 3] S8x24x24
  slices_S8x28x28_o0_1_4_S8x24x24 : S8x28x28.Slices ![0, 1, 4] S8x24x24
  slices_S8x28x28_o0_2_0_S8x24x24 : S8x28x28.Slices ![0, 2, 0] S8x24x24
  slices_S8x28x28_o0_2_1_S8x24x24 : S8x28x28.Slices ![0, 2, 1] S8x24x24
  slices_S8x28x28_o0_2_2_S8x24x24 : S8x28x28.Slices ![0, 2, 2] S8x24x24
  slices_S8x28x28_o0_2_3_S8x24x24 : S8x28x28.Slices ![0, 2, 3] S8x24x24
  slices_S8x28x28_o0_2_4_S8x24x24 : S8x28x28.Slices ![0, 2, 4] S8x24x24
  slices_S8x28x28_o0_3_0_S8x24x24 : S8x28x28.Slices ![0, 3, 0] S8x24x24
  slices_S8x28x28_o0_3_1_S8x24x24 : S8x28x28.Slices ![0, 3, 1] S8x24x24
  slices_S8x28x28_o0_3_2_S8x24x24 : S8x28x28.Slices ![0, 3, 2] S8x24x24
  slices_S8x28x28_o0_3_3_S8x24x24 : S8x28x28.Slices ![0, 3, 3] S8x24x24
  slices_S8x28x28_o0_3_4_S8x24x24 : S8x28x28.Slices ![0, 3, 4] S8x24x24
  slices_S8x28x28_o0_4_0_S8x24x24 : S8x28x28.Slices ![0, 4, 0] S8x24x24
  slices_S8x28x28_o0_4_1_S8x24x24 : S8x28x28.Slices ![0, 4, 1] S8x24x24
  slices_S8x28x28_o0_4_2_S8x24x24 : S8x28x28.Slices ![0, 4, 2] S8x24x24
  slices_S8x28x28_o0_4_3_S8x24x24 : S8x28x28.Slices ![0, 4, 3] S8x24x24
  slices_S8x28x28_o0_4_4_S8x24x24 : S8x28x28.Slices ![0, 4, 4] S8x24x24
  concatenates_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x25_d3 : Shape.Concatenates [S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1, S8x24x24x1] S8x24x24x25 3
  shapeCasts_S8x24x24x25_S4608x25 : S8x24x24x25.ShapeCasts S4608x25
  inb_S25x32_S25x32_0_0 : ∀ a, (![0, 0] : Fin 2 → Nat) a + S25x32.size a ≤ S25x32.size a
  h_S25x32 : 0 < S25x32.numel
  inb_S1x32_S1x32_0_0 : ∀ a, (![0, 0] : Fin 2 → Nat) a + S1x32.size a ≤ S1x32.size a
  h_S1x32 : 0 < S1x32.numel
  broadcasts_S1x32_S4608x32 : S1x32.Broadcasts S4608x32
  shapeCasts_S4608x32_S8x24x24x32 : S4608x32.ShapeCasts S8x24x24x32
  shapeCasts_S8x24x24x32_S8x12x2x24x32 : S8x24x24x32.ShapeCasts S8x12x2x24x32
  slices_S8x12x2x24x32_o0_0_0_0_0_S8x12x1x24x32 : S8x12x2x24x32.Slices ![0, 0, 0, 0, 0] S8x12x1x24x32
  shapeCasts_S8x12x1x24x32_S8x12x24x32 : S8x12x1x24x32.ShapeCasts S8x12x24x32
  slices_S8x12x2x24x32_o0_0_1_0_0_S8x12x1x24x32 : S8x12x2x24x32.Slices ![0, 0, 1, 0, 0] S8x12x1x24x32
  shapeCasts_S8x12x24x32_S8x12x12x2x32 : S8x12x24x32.ShapeCasts S8x12x12x2x32
  slices_S8x12x12x2x32_o0_0_0_0_0_S8x12x12x1x32 : S8x12x12x2x32.Slices ![0, 0, 0, 0, 0] S8x12x12x1x32
  shapeCasts_S8x12x12x1x32_S8x12x12x32 : S8x12x12x1x32.ShapeCasts S8x12x12x32
  slices_S8x12x12x2x32_o0_0_0_1_0_S8x12x12x1x32 : S8x12x12x2x32.Slices ![0, 0, 0, 1, 0] S8x12x12x1x32
  slices_S8x12x12x32_o0_0_0_0_S8x8x8x32 : S8x12x12x32.Slices ![0, 0, 0, 0] S8x8x8x32
  slices_S8x12x12x32_o0_0_1_0_S8x8x8x32 : S8x12x12x32.Slices ![0, 0, 1, 0] S8x8x8x32
  slices_S8x12x12x32_o0_0_2_0_S8x8x8x32 : S8x12x12x32.Slices ![0, 0, 2, 0] S8x8x8x32
  slices_S8x12x12x32_o0_0_3_0_S8x8x8x32 : S8x12x12x32.Slices ![0, 0, 3, 0] S8x8x8x32
  slices_S8x12x12x32_o0_0_4_0_S8x8x8x32 : S8x12x12x32.Slices ![0, 0, 4, 0] S8x8x8x32
  slices_S8x12x12x32_o0_1_0_0_S8x8x8x32 : S8x12x12x32.Slices ![0, 1, 0, 0] S8x8x8x32
  slices_S8x12x12x32_o0_1_1_0_S8x8x8x32 : S8x12x12x32.Slices ![0, 1, 1, 0] S8x8x8x32
  slices_S8x12x12x32_o0_1_2_0_S8x8x8x32 : S8x12x12x32.Slices ![0, 1, 2, 0] S8x8x8x32
  slices_S8x12x12x32_o0_1_3_0_S8x8x8x32 : S8x12x12x32.Slices ![0, 1, 3, 0] S8x8x8x32
  slices_S8x12x12x32_o0_1_4_0_S8x8x8x32 : S8x12x12x32.Slices ![0, 1, 4, 0] S8x8x8x32
  slices_S8x12x12x32_o0_2_0_0_S8x8x8x32 : S8x12x12x32.Slices ![0, 2, 0, 0] S8x8x8x32
  slices_S8x12x12x32_o0_2_1_0_S8x8x8x32 : S8x12x12x32.Slices ![0, 2, 1, 0] S8x8x8x32
  slices_S8x12x12x32_o0_2_2_0_S8x8x8x32 : S8x12x12x32.Slices ![0, 2, 2, 0] S8x8x8x32
  slices_S8x12x12x32_o0_2_3_0_S8x8x8x32 : S8x12x12x32.Slices ![0, 2, 3, 0] S8x8x8x32
  slices_S8x12x12x32_o0_2_4_0_S8x8x8x32 : S8x12x12x32.Slices ![0, 2, 4, 0] S8x8x8x32
  slices_S8x12x12x32_o0_3_0_0_S8x8x8x32 : S8x12x12x32.Slices ![0, 3, 0, 0] S8x8x8x32
  slices_S8x12x12x32_o0_3_1_0_S8x8x8x32 : S8x12x12x32.Slices ![0, 3, 1, 0] S8x8x8x32
  slices_S8x12x12x32_o0_3_2_0_S8x8x8x32 : S8x12x12x32.Slices ![0, 3, 2, 0] S8x8x8x32
  slices_S8x12x12x32_o0_3_3_0_S8x8x8x32 : S8x12x12x32.Slices ![0, 3, 3, 0] S8x8x8x32
  slices_S8x12x12x32_o0_3_4_0_S8x8x8x32 : S8x12x12x32.Slices ![0, 3, 4, 0] S8x8x8x32
  slices_S8x12x12x32_o0_4_0_0_S8x8x8x32 : S8x12x12x32.Slices ![0, 4, 0, 0] S8x8x8x32
  slices_S8x12x12x32_o0_4_1_0_S8x8x8x32 : S8x12x12x32.Slices ![0, 4, 1, 0] S8x8x8x32
  slices_S8x12x12x32_o0_4_2_0_S8x8x8x32 : S8x12x12x32.Slices ![0, 4, 2, 0] S8x8x8x32
  slices_S8x12x12x32_o0_4_3_0_S8x8x8x32 : S8x12x12x32.Slices ![0, 4, 3, 0] S8x8x8x32
  slices_S8x12x12x32_o0_4_4_0_S8x8x8x32 : S8x12x12x32.Slices ![0, 4, 4, 0] S8x8x8x32
  concatenates_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x800_d3 : Shape.Concatenates [S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32, S8x8x8x32] S8x8x8x800 3
  shapeCasts_S8x8x8x800_S512x800 : S8x8x8x800.ShapeCasts S512x800
  inb_S800x64_S800x64_0_0 : ∀ a, (![0, 0] : Fin 2 → Nat) a + S800x64.size a ≤ S800x64.size a
  h_S800x64 : 0 < S800x64.numel
  inb_S1x64_S1x64_0_0 : ∀ a, (![0, 0] : Fin 2 → Nat) a + S1x64.size a ≤ S1x64.size a
  h_S1x64 : 0 < S1x64.numel
  broadcasts_S1x64_S512x64 : S1x64.Broadcasts S512x64
  shapeCasts_S512x64_S8x8x8x64 : S512x64.ShapeCasts S8x8x8x64
  shapeCasts_S8x8x8x64_S8x4x2x8x64 : S8x8x8x64.ShapeCasts S8x4x2x8x64
  slices_S8x4x2x8x64_o0_0_0_0_0_S8x4x1x8x64 : S8x4x2x8x64.Slices ![0, 0, 0, 0, 0] S8x4x1x8x64
  shapeCasts_S8x4x1x8x64_S8x4x8x64 : S8x4x1x8x64.ShapeCasts S8x4x8x64
  slices_S8x4x2x8x64_o0_0_1_0_0_S8x4x1x8x64 : S8x4x2x8x64.Slices ![0, 0, 1, 0, 0] S8x4x1x8x64
  shapeCasts_S8x4x8x64_S8x4x4x2x64 : S8x4x8x64.ShapeCasts S8x4x4x2x64
  slices_S8x4x4x2x64_o0_0_0_0_0_S8x4x4x1x64 : S8x4x4x2x64.Slices ![0, 0, 0, 0, 0] S8x4x4x1x64
  shapeCasts_S8x4x4x1x64_S8x4x4x64 : S8x4x4x1x64.ShapeCasts S8x4x4x64
  slices_S8x4x4x2x64_o0_0_0_1_0_S8x4x4x1x64 : S8x4x4x2x64.Slices ![0, 0, 0, 1, 0] S8x4x4x1x64
  shapeCasts_S8x4x4x64_S8x1024 : S8x4x4x64.ShapeCasts S8x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S8x512 : S1x512.Broadcasts S8x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S8x128 : S1x128.Broadcasts S8x128
  shapeCasts_S8x128_S8x1x128 : S8x128.ShapeCasts S8x1x128
  inb_S8x1x128_S8x1x128_0_0_0 : ∀ a, (![0, 0, 0] : Fin 3 → Nat) a + S8x1x128.size a ≤ S8x1x128.size a
  h_S8x1x128 : 0 < S8x1x128.numel
  dot_S4608x25_S25x32_S4608x32_1_0_0_1_n_n_wf : DotDims.WF S4608x25 S25x32 S4608x32 [1] [0] [0] [1] [] []
  dot_S512x800_S800x64_S512x64_1_0_0_1_n_n_wf : DotDims.WF S512x800 S800x64 S512x64 [1] [0] [0] [1] [] []
  dot_S8x1024_S1024x512_S8x512_1_0_0_1_n_n_wf : DotDims.WF S8x1024 S1024x512 S8x512 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x28x28.size a ≤ S8192x28x28.size a
  hwx0_0 : ∀ i : grid0.Coords, EltTy.bits .f32 = 32 ∨ (Rect.block (s := S8192x28x28) S8x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x32.size a ≤ S25x32.size a
  hwx0_1 : ∀ i : grid0.Coords, EltTy.bits .f32 = 32 ∨ (Rect.block (s := S25x32) S25x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S800x64.size a ≤ S800x64.size a
  hwx0_3 : ∀ i : grid0.Coords, EltTy.bits .f32 = 32 ∨ (Rect.block (s := S800x64) S800x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1x128.size a ≤ S8192x1x128.size a
  hwx0_9 : ∀ i : grid0.Coords, EltTy.bits .f32 = 32 ∨ (Rect.block (s := S8192x1x128) S8x1x128.size (cc0_transform_9 i) (hinb0_9 i)).WholeWords (EltTy.packing .f32)

variable [Facts₀]

def dot_S4608x25_S25x32_S4608x32_1_0_0_1_n_n : DotDims S4608x25 S25x32 S4608x32 where
  lhsContracting := [1]
  rhsContracting := [0]
  lhsNonContracting := [0]
  rhsNonContracting := [1]
  lhsBatch := []
  rhsBatch := []
  wf := dot_S4608x25_S25x32_S4608x32_1_0_0_1_n_n_wf
def dot_S512x800_S800x64_S512x64_1_0_0_1_n_n : DotDims S512x800 S800x64 S512x64 where
  lhsContracting := [1]
  rhsContracting := [0]
  lhsNonContracting := [0]
  rhsNonContracting := [1]
  lhsBatch := []
  rhsBatch := []
  wf := dot_S512x800_S800x64_S512x64_1_0_0_1_n_n_wf
def dot_S8x1024_S1024x512_S8x512_1_0_0_1_n_n : DotDims S8x1024 S1024x512 S8x512 where
  lhsContracting := [1]
  rhsContracting := [0]
  lhsNonContracting := [0]
  rhsNonContracting := [1]
  lhsBatch := []
  rhsBatch := []
  wf := dot_S8x1024_S1024x512_S8x512_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_call0_v0) S8x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S800x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v1) S8x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.Spec.lean ====
/-
  The network both programs compute, as functions of natural-number coordinates on the extended reals.

  A 28x28 one-channel image goes through: a 5x5 valid convolution to 32 channels, bias, relu, a 2x2 max pool
  (24x24 -> 12x12); a 5x5 valid convolution 32 -> 64 channels, bias, relu, a 2x2 max pool (8x8 -> 4x4); a dense
  layer 1024 -> 512 with relu over the (row, column, channel) flattening; a dense layer 512 -> 128.

  Three spellings of the same network are defined here over arbitrary coordinate functions:
  * the plain one (`conv1` ... `out`), convolutions as sums over (kh, kw[, ci]);
  * `R.*`: every convolution one flat sum over the im2col column index (k = 5 kh + kw, or 32 (5 kh + kw) + ci);
  * `K.*`: the convolutions as products with banded (Toeplitz) matrices `T1`, `T2`, rows ordered (spatial, batch),
    output rows split by residue (mod 4, mod 2) and output columns by parity so that both pools are maxima of
    aligned blocks, the bias and relu applied after the pool, and the first dense layer as four partial sums.
-/
import Idealize.ShloMosaic.PureOps.Ideal
import Idealize.ShloMosaic.Lib.ValueIdx

noncomputable section

namespace Cert.LeNet

open Idealize.ShloMosaic Finset

/-- max with zero -/
def relu (v : EReal) : EReal := max v 0

/-- 2x2 max pool of `a b · · c`: rows first, then columns. -/
def pool (a : ℕ → ℕ → ℕ → ℕ → EReal) (b i j c : ℕ) : EReal :=
  max (max (a b (2 * i) (2 * j) c) (a b (2 * i + 1) (2 * j) c)) (max (a b (2 * i) (2 * j + 1) c) (a b (2 * i + 1) (2 * j + 1) c))

section Plain
variable (x : ℕ → ℕ → ℕ → EReal) (w1 : ℕ → ℕ → EReal) (b1 : ℕ → EReal) (w2 : ℕ → ℕ → EReal) (b2 : ℕ → EReal)
  (f1w : ℕ → ℕ → EReal) (f1b : ℕ → EReal) (f2w : ℕ → ℕ → EReal) (f2b : ℕ → EReal)

def conv1 (b oh ow c : ℕ) : EReal := ∑ kh ∈ range 5, ∑ kw ∈ range 5, x b (oh + kh) (ow + kw) * w1 (5 * kh + kw) c
def act1 (b oh ow c : ℕ) : EReal := relu (conv1 x w1 b oh ow c + b1 c)
def q1 (b i j c : ℕ) : EReal := pool (act1 x w1 b1) b i j c
def conv2 (b oh ow co : ℕ) : EReal :=
  ∑ kh ∈ range 5, ∑ kw ∈ range 5, ∑ ci ∈ range 32, q1 x w1 b1 b (oh + kh) (ow + kw) ci * w2 (32 * (5 * kh + kw) + ci) co
def act2 (b oh ow co : ℕ) : EReal := relu (conv2 x w1 b1 w2 b oh ow co + b2 co)
def q2 (b i j co : ℕ) : EReal := pool (act2 x w1 b1 w2 b2) b i j co
def hid (b h : ℕ) : EReal :=
  relu ((∑ i ∈ range 4, ∑ j ∈ range 4, ∑ co ∈ range 64, q2 x w1 b1 w2 b2 b i j co * f1w (64 * (4 * i + j) + co) h) + f1b h)
def out (b n : ℕ) : EReal := (∑ h ∈ range 512, hid x w1 b1 w2 b2 f1w f1b b h * f2w h n) + f2b n
end Plain

/-! ## The im2col spelling -/
namespace R
def conv1 (x : ℕ → ℕ → ℕ → EReal) (w1 : ℕ → ℕ → EReal) (b oh ow c : ℕ) : EReal :=
  ∑ k ∈ range 25, x b (oh + k / 5) (ow + k % 5) * w1 k c
def q1 (x : ℕ → ℕ → ℕ → EReal) (w1 : ℕ → ℕ → EReal) (b1 : ℕ → EReal) (b i j c : ℕ) : EReal :=
  pool (fun b oh ow c => relu (conv1 x w1 b oh ow c + b1 c)) b i j c
def conv2 (p1 : ℕ → ℕ → ℕ → ℕ → EReal) (w2 : ℕ → ℕ → EReal) (b oh ow co : ℕ) : EReal :=
  ∑ k ∈ range 800, p1 b (oh + k / 32 / 5) (ow + k / 32 % 5) (k % 32) * w2 k co
def q2 (c2 : ℕ → ℕ → ℕ → ℕ → EReal) (b2 : ℕ → EReal) (b i j co : ℕ) : EReal :=
  pool (fun b oh ow co => relu (c2 b oh ow co + b2 co)) b i j co
def hid (p2 : ℕ → ℕ → ℕ → ℕ → EReal) (f1w : ℕ → ℕ → EReal) (f1b : ℕ → EReal) (b h : ℕ) : EReal :=
  relu ((∑ k ∈ range 1024, p2 b (k / 64 / 4) (k / 64 % 4) (k % 64) * f1w k h) + f1b h)
def out (hd : ℕ → ℕ → EReal) (f2w : ℕ → ℕ → EReal) (f2b : ℕ → EReal) (b n : ℕ) : EReal :=
  (∑ k ∈ range 512, hd b k * f2w k n) + f2b n
end R

/-! ## The banded-matrix spelling -/

/-- output column of the first convolution held by column group `g` (< 24) of its banded matrix: evens, then odds -/
def ow1 (g : ℕ) : ℕ := if g < 12 then 2 * g else 2 * (g - 12) + 1
/-- output column (inside a width-8 window) of the second convolution held by column group `g` (< 4): 0, 2, 1, 3 -/
def ow2 (g : ℕ) : ℕ := if g = 0 then 0 else if g = 1 then 2 else if g = 2 then 1 else 3

/-- the first banded matrix, 140 x 768: row (kh, w) = 28 kh + w, column (g, c) = 32 g + c holds w1[(kh, w - ow1 g), c]
    when 0 ≤ w - ow1 g < 5, else zero -/
def T1 (w1 : ℕ → ℕ → EReal) (k q : ℕ) : EReal :=
  if ow1 (q / 32) ≤ k % 28 ∧ k % 28 < ow1 (q / 32) + 5 then w1 (5 * (k / 28) + (k % 28 - ow1 (q / 32))) (q % 32) else 0
/-- the second banded matrix, 1280 x 256: row (kh, wc, ci) = 256 kh + 32 wc + ci, column (g, co) = 64 g + co holds
    w2[(kh, wc - ow2 g, ci), co] when 0 ≤ wc - ow2 g < 5, else zero -/
def T2 (w2 : ℕ → ℕ → EReal) (k q : ℕ) : EReal :=
  if ow2 (q / 64) ≤ k / 32 % 8 ∧ k / 32 % 8 < ow2 (q / 64) + 5
  then w2 (32 * (5 * (k / 256) + (k / 32 % 8 - ow2 (q / 64))) + k % 32) (q % 64) else 0

namespace K
/-- product of the row-Toeplitz operand for residue `s` with the banded matrix: rows r = 256 ohq + b -/
def h1 (xt : ℕ → ℕ → ℕ → ℕ → EReal) (t1 : ℕ → ℕ → EReal) (s r q : ℕ) : EReal :=
  ∑ k ∈ range 140, xt ((s + k / 28) % 4) ((s + k / 28) / 4 + r / 256) (r % 256) (k % 28) * t1 k q
/-- pooled, biased, rectified: e = row parity of the pooled row, columns q < 384 -/
def q1 (xt : ℕ → ℕ → ℕ → ℕ → EReal) (t1 : ℕ → ℕ → EReal) (b1r : ℕ → EReal) (e r q : ℕ) : EReal :=
  relu (max (max (h1 xt t1 (2 * e) r q) (h1 xt t1 (2 * e + 1) r q))
            (max (h1 xt t1 (2 * e) r (q + 384)) (h1 xt t1 (2 * e + 1) r (q + 384))) + b1r q)
def h2 (p1 : ℕ → ℕ → ℕ → EReal) (t2 : ℕ → ℕ → EReal) (u g r q : ℕ) : EReal :=
  ∑ k ∈ range 1280, p1 ((u + k / 256) % 2) ((u + k / 256) / 2 * 256 + r) (128 * g + k % 256) * t2 k q
def q2 (p1 : ℕ → ℕ → ℕ → EReal) (t2 : ℕ → ℕ → EReal) (b2r : ℕ → EReal) (r q : ℕ) : EReal :=
  relu (max (max (h2 p1 t2 0 (q / 128) r (q % 128)) (h2 p1 t2 1 (q / 128) r (q % 128)))
            (max (h2 p1 t2 0 (q / 128) r (q % 128 + 128)) (h2 p1 t2 1 (q / 128) r (q % 128 + 128))) + b2r q)
def hid (p2 : ℕ → ℕ → EReal) (f1w : ℕ → ℕ → EReal) (f1b : ℕ → EReal) (b h : ℕ) : EReal :=
  relu (((((0 + ∑ k ∈ range 256, p2 b k * f1w k h) + ∑ k ∈ range 256, p2 (256 + b) k * f1w (256 + k) h)
          + ∑ k ∈ range 256, p2 (512 + b) k * f1w (512 + k) h) + ∑ k ∈ range 256, p2 (768 + b) k * f1w (768 + k) h) + f1b h)
def out (hd : ℕ → ℕ → EReal) (f2w : ℕ → ℕ → EReal) (f2b : ℕ → EReal) (b n : ℕ) : EReal :=
  (∑ k ∈ range 512, hd b k * f2w k n) + f2b n
end K

/-! ## Arrays read at natural-number coordinates (zero outside) -/

def rd2 {a b : ℕ} (X : (⟨2, ![a, b]⟩ : Shape).Idx → EReal) (i j : ℕ) : EReal :=
  if h : i < a ∧ j < b then X (ValueIdx.ix2 ⟨i, h.1⟩ ⟨j, h.2⟩) else 0
def rd4 {a b c d : ℕ} (X : (⟨4, ![a, b, c, d]⟩ : Shape).Idx → EReal) (i j k l : ℕ) : EReal :=
  if h : i < a ∧ j < b ∧ k < c ∧ l < d then X (ValueIdx.ix4 ⟨i, h.1⟩ ⟨j, h.2.1⟩ ⟨k, h.2.2.1⟩ ⟨l, h.2.2.2⟩) else 0

theorem rd2_ix {a b : ℕ} (X : (⟨2, ![a, b]⟩ : Shape).Idx → EReal) (p : Fin a) (q : Fin b) :
    rd2 X p q = X (ValueIdx.ix2 p q) := by
  unfold rd2; rw [dif_pos ⟨p.isLt, q.isLt⟩]
theorem rd4_ix {a b c d : ℕ} (X : (⟨4, ![a, b, c, d]⟩ : Shape).Idx → EReal) (p : Fin a) (q : Fin b) (r : Fin c) (s : Fin d) :
    rd4 X p q r s = X (ValueIdx.ix4 p q r s) := by
  unfold rd4; rw [dif_pos ⟨p.isLt, q.isLt, r.isLt, s.isLt⟩]

end Cert.LeNet

end
-- ==== Proof.Net.lean ====
/-
  The network as a function of the nine argument arrays: the arrays read at natural coordinates, the result at (image, class).
-/
import proofs.«175274_g2000709357908425_pallasbulk_852_30_alg».proof.Proof.Spec

noncomputable section

namespace Cert.LeNet

open Idealize.ShloMosaic

/-- the one-channel image batch [8192, 1, 28, 28] as (image, row, column) -/
def xN (A0 : (⟨4, ![8192, 1, 28, 28]⟩ : Shape).Idx → EReal) (b h w : ℕ) : EReal := rd4 A0 b 0 h w
/-- a one-row matrix as a function of the column -/
def rowN {n : ℕ} (A : (⟨2, ![1, n]⟩ : Shape).Idx → EReal) (j : ℕ) : EReal := rd2 A 0 j

/-- the network's value for image `b`, class column `n`, from the nine argument arrays -/
def net (A0 : (⟨4, ![8192, 1, 28, 28]⟩ : Shape).Idx → EReal) (A1 : (⟨2, ![25, 32]⟩ : Shape).Idx → EReal)
    (A2 : (⟨2, ![1, 32]⟩ : Shape).Idx → EReal) (A3 : (⟨2, ![800, 64]⟩ : Shape).Idx → EReal)
    (A4 : (⟨2, ![1, 64]⟩ : Shape).Idx → EReal) (A5 : (⟨2, ![1024, 512]⟩ : Shape).Idx → EReal)
    (A6 : (⟨2, ![1, 512]⟩ : Shape).Idx → EReal) (A7 : (⟨2, ![512, 128]⟩ : Shape).Idx → EReal)
    (A8 : (⟨2, ![1, 128]⟩ : Shape).Idx → EReal) (b n : ℕ) : EReal :=
  out (xN A0) (rd2 A1) (rowN A2) (rd2 A3) (rowN A4) (rd2 A5) (rowN A6) (rd2 A7) (rowN A8) b n

theorem rowN_ix {n : ℕ} (A : (⟨2, ![1, n]⟩ : Shape).Idx → EReal) (j : Fin n) : rowN A j = A (ValueIdx.ix2 0 j) :=
  rd2_ix A 0 j

theorem xN_ix (A0 : (⟨4, ![8192, 1, 28, 28]⟩ : Shape).Idx → EReal) (b : Fin 8192) (h w : Fin 28) :
    xN A0 b h w = A0 (ValueIdx.ix4 b 0 h w) := rd4_ix A0 b 0 h w

end Cert.LeNet

end
-- ==== Proof.KBody1.lean ====
import proofs.«175274_g2000709357908425_pallasbulk_852_30_alg».proof.Proof.Gen.KernelIdeal.Frame
import proofs.«175274_g2000709357908425_pallasbulk_852_30_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.KBody1

open Idealize.ShloMosaic Idealize.ShloMosaic.ValueIdx Cert.KernelIdeal Cert.KernelIdeal.Gen Cert.LeNet

/-- One 1536x28 piece: the load of the image block through the unit-stride rectangle at offsets (m0, j0, 0, 0) of
    sizes (1, 6, 256, 28), flattened to rows r = 256 * ohq + b, read at (r, w). -/
theorem piece_apply (x0 : Vec Ideal S4x7x256x28 .bf16) (m0 j0 : ℕ)
    (inb : ∀ a, (![m0, j0, 0, 0] : Fin 4 → Nat) a + S1x6x256x28.size a ≤ S4x7x256x28.size a)
    (hm : m0 < 4) (hj : j0 + 6 ≤ 7) (r : Fin 1536) (w : Fin 28) :
    shapeCast S1536x28 (shapeCast S6x256x28 (View.ld x0 (Rect.unit (s := S4x7x256x28) ![m0, j0, 0, 0] S1x6x256x28.size inb))
        shapeCasts_S1x6x256x28_S6x256x28) shapeCasts_S6x256x28_S1536x28 (ix2 r w)
      = x0 (ix4 (⟨m0, hm⟩ : Fin 4) (⟨j0 + r.val / 256, by have := r.isLt; omega⟩ : Fin 7)
          (⟨r.val % 256, Nat.mod_lt _ (by norm_num)⟩ : Fin 256) w) := by
  have hr := r.isLt
  refine (shapeCast_apply _ shapeCasts_S6x256x28_S1536x28 (ix2 r w)
    (ix3 (⟨r.val / 256, by omega⟩ : Fin 6) (⟨r.val % 256, Nat.mod_lt _ (by norm_num)⟩ : Fin 256) w) ?_).trans ?_
  · rw [Shape.rowMajor_val_three, Shape.rowMajor_val_two]
    show (r.val / 256 * 256 + r.val % 256) * 28 + w.val = r.val * 28 + w.val
    omega
  refine (shapeCast_apply _ shapeCasts_S1x6x256x28_S6x256x28 _
    (ix4 (0 : Fin 1) (⟨r.val / 256, by omega⟩ : Fin 6) (⟨r.val % 256, Nat.mod_lt _ (by norm_num)⟩ : Fin 256) w) ?_).trans ?_
  · rw [Shape.rowMajor_val_four, Shape.rowMajor_val_three]
    show ((0 * 6 + r.val / 256) * 256 + r.val % 256) * 28 + w.val = (r.val / 256 * 256 + r.val % 256) * 28 + w.val
    omega
  refine congrArg x0 (funext fun a => Fin.ext ?_)
  match a with
  | ⟨0, _⟩ => show m0 + 1 * 0 = m0; omega
  | ⟨1, _⟩ => show j0 + 1 * (r.val / 256) = j0 + r.val / 256; omega
  | ⟨2, _⟩ => show 0 + 1 * (r.val % 256) = r.val % 256; omega
  | ⟨3, _⟩ => show 0 + 1 * w.val = w.val; omega

/-- Five 1536x28 pieces laid side by side along the columns, read at (r, k): piece k / 28 at column k % 28. -/
theorem cat_apply (P0 P1 P2 P3 P4 : FVec Ideal S1536x28 .bf16) (r : Fin 1536) (f : ℕ → ℕ → EReal)
    (h0 : ∀ w : Fin 28, P0 (ix2 r w) = f 0 w) (h1 : ∀ w : Fin 28, P1 (ix2 r w) = f 1 w)
    (h2 : ∀ w : Fin 28, P2 (ix2 r w) = f 2 w) (h3 : ∀ w : Fin 28, P3 (ix2 r w) = f 3 w)
    (h4 : ∀ w : Fin 28, P4 (ix2 r w) = f 4 w) (k : Fin 140) :
    concatenate S1536x140 1 [⟨S1536x28, P0⟩, ⟨S1536x28, P1⟩, ⟨S1536x28, P2⟩, ⟨S1536x28, P3⟩, ⟨S1536x28, P4⟩]
        concatenates_S1536x28_S1536x28_S1536x28_S1536x28_S1536x28_S1536x140_d1 (ix2 r k)
      = f (k.val / 28) (k.val % 28) := by
  have hk := k.isLt
  have hw : k.val % 28 < 28 := Nat.mod_lt _ (by norm_num)
  obtain ⟨c, hc, hcv⟩ : ∃ c, c < 5 ∧ k.val / 28 = c := ⟨_, by omega, rfl⟩
  rw [hcv]
  have hb : ∀ b : Fin S1536x28.rank, b.cast (rfl : S1536x28.rank = S1536x140.rank) ≠ (1 : Fin 2) →
      ((ix2 r (⟨k.val % 28, hw⟩ : Fin 28) : S1536x28.Idx) b).val = ((ix2 r k : S1536x140.Idx) (b.cast rfl)).val := by
    intro b hb
    match b with
    | ⟨0, _⟩ => rfl
    | ⟨1, _⟩ => exact absurd rfl hb
  interval_cases c
  · refine (concatenate_apply_piece (1 : Fin 2) _ _ (ix2 r k) 0 ?_ S1536x28 P0 rfl rfl 0 rfl
      (ix2 r ⟨k.val % 28, hw⟩) hb ?_).trans (h0 ⟨_, hw⟩)
    · show _ < 5; omega
    · show 0 + k.val % 28 = k.val; omega
  · refine (concatenate_apply_piece (1 : Fin 2) _ _ (ix2 r k) 1 ?_ S1536x28 P1 rfl rfl 28 rfl
      (ix2 r ⟨k.val % 28, hw⟩) hb ?_).trans (h1 ⟨_, hw⟩)
    · show _ < 5; omega
    · show 28 + k.val % 28 = k.val; omega
  · refine (concatenate_apply_piece (1 : Fin 2) _ _ (ix2 r k) 2 ?_ S1536x28 P2 rfl rfl 56 rfl
      (ix2 r ⟨k.val % 28, hw⟩) hb ?_).trans (h2 ⟨_, hw⟩)
    · show _ < 5; omega
    · show 56 + k.val % 28 = k.val; omega
  · refine (concatenate_apply_piece (1 : Fin 2) _ _ (ix2 r k) 3 ?_ S1536x28 P3 rfl rfl 84 rfl
      (ix2 r ⟨k.val % 28, hw⟩) hb ?_).trans (h3 ⟨_, hw⟩)
    · show _ < 5; omega
    · show 84 + k.val % 28 = k.val; omega
  · refine (concatenate_apply_piece (1 : Fin 2) _ _ (ix2 r k) 4 ?_ S1536x28 P4 rfl rfl 112 rfl
      (ix2 r ⟨k.val % 28, hw⟩) hb ?_).trans (h4 ⟨_, hw⟩)
    · show _ < 5; omega
    · show 112 + k.val % 28 = k.val; omega

/-- The product of a 1536x140 by a 140x768 matrix into the zero accumulator, read at (r, q): the sum over the
    contracted coordinate of the products of the entries. -/
theorem mm_apply (A : FVec Ideal S1536x140 .bf16) (B : FVec Ideal S140x768 .bf16) (r : Fin 1536) (q : Fin 768) :
    matmul (F := Ideal) dot_S1536x140_S140x768_S1536x768_1_0_0_1_n_n none A B
        (constant (F := Ideal) S1536x768 .f32 0x00000000#32) (ix2 r q)
      = ∑ k : Fin 140, A (ix2 r k) * B (ix2 k q) := by
  show FloatOps.matmul dot_S1536x140_S140x768_S1536x768_1_0_0_1_n_n none A B _ (ix2 r q) = _
  rw [Ideal.matmul_constant_zero_apply,
    ← Equiv.sum_comp (contrEquiv1 dot_S1536x140_S140x768_S1536x768_1_0_0_1_n_n 140 rfl rfl).symm]
  refine Finset.sum_congr rfl fun c _ => ?_
  have c2 := contrEquiv1_symm_val dot_S1536x140_S140x768_S1536x768_1_0_0_1_n_n 140 rfl rfl c
  have l2 : dot_S1536x140_S140x768_S1536x768_1_0_0_1_n_n.lhsIdx (ix2 r q)
      ((contrEquiv1 dot_S1536x140_S140x768_S1536x768_1_0_0_1_n_n 140 rfl rfl).symm c) = ix2 r c := by
    funext ax; apply Fin.ext
    match ax with
    | ⟨0, _⟩ => simp [DotDims.lhsIdx, dot_S1536x140_S140x768_S1536x768_1_0_0_1_n_n]; rfl
    | ⟨1, _⟩ => simp [DotDims.lhsIdx, dot_S1536x140_S140x768_S1536x768_1_0_0_1_n_n]; exact c2
  have r2 : dot_S1536x140_S140x768_S1536x768_1_0_0_1_n_n.rhsIdx (ix2 r q)
      ((contrEquiv1 dot_S1536x140_S140x768_S1536x768_1_0_0_1_n_n 140 rfl rfl).symm c) = ix2 c q := by
    funext ax; apply Fin.ext
    match ax with
    | ⟨0, _⟩ => simp [DotDims.rhsIdx, dot_S1536x140_S140x768_S1536x768_1_0_0_1_n_n]; exact c2
    | ⟨1, _⟩ => simp [DotDims.rhsIdx, dot_S1536x140_S140x768_S1536x768_1_0_0_1_n_n]; rfl
  rw [l2, r2]

/-- The same piece against the coordinate function of the image block. -/
theorem piece_xt (x0 : Vec Ideal S4x7x256x28 .bf16) (xt : ℕ → ℕ → ℕ → ℕ → EReal)
    (hx0 : ∀ (a : Fin 4) (j : Fin 7) (b : Fin 256) (w : Fin 28), x0 (ix4 a j b w) = xt a j b w) (m0 j0 : ℕ)
    (inb : ∀ a, (![m0, j0, 0, 0] : Fin 4 → Nat) a + S1x6x256x28.size a ≤ S4x7x256x28.size a)
    (hm : m0 < 4) (hj : j0 + 6 ≤ 7) (r : Fin 1536) (w : Fin 28) :
    shapeCast S1536x28 (shapeCast S6x256x28 (View.ld x0 (Rect.unit (s := S4x7x256x28) ![m0, j0, 0, 0] S1x6x256x28.size inb))
        shapeCasts_S1x6x256x28_S6x256x28) shapeCasts_S6x256x28_S1536x28 (ix2 r w)
      = xt m0 (j0 + r.val / 256) (r.val % 256) w.val :=
  (piece_apply x0 m0 j0 inb hm hj r w).trans (hx0 _ _ _ _)

/-- The banded matrix as loaded (a whole-array load and a cast to its own shape) is the array. -/
theorem w_apply (x1 : Vec Ideal S140x768 .bf16) (t1 : ℕ → ℕ → EReal)
    (hx1 : ∀ (k : Fin 140) (q : Fin 768), x1 (ix2 k q) = t1 k q) (k : Fin 140) (q : Fin 768) :
    k0_pay1 (F := Ideal) (View.ld x1 r0_0) (ix2 k q) = t1 k q := by
  unfold k0_pay1
  rw [shapeCast_self]
  have hz : (![0, 0] : Fin S140x768.rank → Nat) = fun _ => 0 := by
    funext a
    match a with
    | ⟨0, _⟩ => rfl
    | ⟨1, _⟩ => rfl
  rw [View.ld_unit_zero (S := S140x768) hz]
  exact hx1 k q

/-- The product of the row-Toeplitz operand for residue s (five pieces side by side) with the banded matrix. -/
theorem h1_core (P0 P1 P2 P3 P4 : FVec Ideal S1536x28 .bf16) (B : FVec Ideal S140x768 .bf16)
    (xt : ℕ → ℕ → ℕ → ℕ → EReal) (t1 : ℕ → ℕ → EReal) (s : ℕ) (r : Fin 1536) (q : Fin 768)
    (h0 : ∀ w : Fin 28, P0 (ix2 r w) = xt ((s + 0) % 4) ((s + 0) / 4 + r.val / 256) (r.val % 256) w.val)
    (h1 : ∀ w : Fin 28, P1 (ix2 r w) = xt ((s + 1) % 4) ((s + 1) / 4 + r.val / 256) (r.val % 256) w.val)
    (h2 : ∀ w : Fin 28, P2 (ix2 r w) = xt ((s + 2) % 4) ((s + 2) / 4 + r.val / 256) (r.val % 256) w.val)
    (h3 : ∀ w : Fin 28, P3 (ix2 r w) = xt ((s + 3) % 4) ((s + 3) / 4 + r.val / 256) (r.val % 256) w.val)
    (h4 : ∀ w : Fin 28, P4 (ix2 r w) = xt ((s + 4) % 4) ((s + 4) / 4 + r.val / 256) (r.val % 256) w.val)
    (hB : ∀ (k : Fin 140) (q : Fin 768), B (ix2 k q) = t1 k q) :
    matmul (F := Ideal) dot_S1536x140_S140x768_S1536x768_1_0_0_1_n_n none
        (concatenate S1536x140 1 [⟨S1536x28, P0⟩, ⟨S1536x28, P1⟩, ⟨S1536x28, P2⟩, ⟨S1536x28, P3⟩, ⟨S1536x28, P4⟩]
          concatenates_S1536x28_S1536x28_S1536x28_S1536x28_S1536x28_S1536x140_d1)
        B (constant (F := Ideal) S1536x768 .f32 0x00000000#32) (ix2 r q)
      = K.h1 xt t1 s r.val q.val := by
  rw [mm_apply]
  unfold K.h1
  rw [← Fin.sum_univ_eq_sum_range
    (fun k => xt ((s + k / 28) % 4) ((s + k / 28) / 4 + r.val / 256) (r.val % 256) (k % 28) * t1 k q.val) 140]
  refine Finset.sum_congr rfl fun k _ => ?_
  rw [cat_apply P0 P1 P2 P3 P4 r (fun i w => xt ((s + i) % 4) ((s + i) / 4 + r.val / 256) (r.val % 256) w)
    h0 h1 h2 h3 h4 k, hB k q]

section Payloads
variable (x0 : Vec Ideal S4x7x256x28 .bf16) (x1 : Vec Ideal S140x768 .bf16)
  (xt : ℕ → ℕ → ℕ → ℕ → EReal) (t1 : ℕ → ℕ → EReal)
  (hx0 : ∀ (a : Fin 4) (j : Fin 7) (b : Fin 256) (w : Fin 28), x0 (ix4 a j b w) = xt a j b w)
  (hx1 : ∀ (k : Fin 140) (q : Fin 768), x1 (ix2 k q) = t1 k q)
include hx0 hx1

/-- Residue 0. -/
theorem pay2_apply (r : Fin 1536) (q : Fin 768) :
    k0_pay2 (F := Ideal) (View.ld x1 r0_0) (View.ld x0 r0_1) (View.ld x0 r0_2) (View.ld x0 r0_3) (View.ld x0 r0_4)
      (View.ld x0 r0_5) (ix2 r q) = K.h1 xt t1 0 r.val q.val := by
  unfold k0_pay2
  exact h1_core _ _ _ _ _ _ xt t1 0 r q
    (fun w => piece_xt x0 xt hx0 0 0 _ (by norm_num) (by norm_num) r w)
    (fun w => piece_xt x0 xt hx0 1 0 _ (by norm_num) (by norm_num) r w)
    (fun w => piece_xt x0 xt hx0 2 0 _ (by norm_num) (by norm_num) r w)
    (fun w => piece_xt x0 xt hx0 3 0 _ (by norm_num) (by norm_num) r w)
    (fun w => piece_xt x0 xt hx0 0 1 _ (by norm_num) (by norm_num) r w)
    (w_apply x1 t1 hx1)

/-- Residue 1. -/
theorem pay5_apply (r : Fin 1536) (q : Fin 768) :
    k0_pay5 (F := Ideal) (k0_pay1 (View.ld x1 r0_0)) (k0_pay3 (View.ld x0 r0_2)) (k0_pay4 (View.ld x0 r0_3))
      (View.ld x0 r0_4) (View.ld x0 r0_5) (View.ld x0 r0_6) (ix2 r q) = K.h1 xt t1 1 r.val q.val := by
  unfold k0_pay5 k0_pay3 k0_pay4
  exact h1_core _ _ _ _ _ _ xt t1 1 r q
    (fun w => piece_xt x0 xt hx0 1 0 _ (by norm_num) (by norm_num) r w)
    (fun w => piece_xt x0 xt hx0 2 0 _ (by norm_num) (by norm_num) r w)
    (fun w => piece_xt x0 xt hx0 3 0 _ (by norm_num) (by norm_num) r w)
    (fun w => piece_xt x0 xt hx0 0 1 _ (by norm_num) (by norm_num) r w)
    (fun w => piece_xt x0 xt hx0 1 1 _ (by norm_num) (by norm_num) r w)
    (w_apply x1 t1 hx1)

/-- Residue 2. -/
theorem pay6_apply (r : Fin 1536) (q : Fin 768) :
    k0_pay6 (F := Ideal) (k0_pay1 (View.ld x1 r0_0)) (View.ld x0 r0_3) (View.ld x0 r0_4) (View.ld x0 r0_5)
      (View.ld x0 r0_6) (View.ld x0 r0_7) (ix2 r q) = K.h1 xt t1 2 r.val q.val := by
  unfold k0_pay6
  exact h1_core _ _ _ _ _ _ xt t1 2 r q
    (fun w => piece_xt x0 xt hx0 2 0 _ (by norm_num) (by norm_num) r w)
    (fun w => piece_xt x0 xt hx0 3 0 _ (by norm_num) (by norm_num) r w)
    (fun w => piece_xt x0 xt hx0 0 1 _ (by norm_num) (by norm_num) r w)
    (fun w => piece_xt x0 xt hx0 1 1 _ (by norm_num) (by norm_num) r w)
    (fun w => piece_xt x0 xt hx0 2 1 _ (by norm_num) (by norm_num) r w)
    (w_apply x1 t1 hx1)

end Payloads

/-- The pooling and bias stage read at (r, q): the maximum of the two operands, then of the column halves
    [0, 384) and [384, 768), plus the bias row laid along every row. -/
theorem pool_apply (U V : FVec Ideal S1536x768 .f32) (b : Vec Ideal S1x384 .f32) (r : Fin 1536) (q : Fin 384) :
    addf (F := Ideal) (maximumf (extractStridedSlice S1536x384 ![0, 0] (maximumf U V) slices_S1536x768_o0_0_S1536x384)
        (extractStridedSlice S1536x384 ![0, 384] (maximumf U V) slices_S1536x768_o0_384_S1536x384))
      (broadcastTo S1536x384 b broadcasts_S1x384_S1536x384) (ix2 r q)
      = max (max (U (ix2 r (⟨q.val, by have := q.isLt; omega⟩ : Fin 768))) (V (ix2 r (⟨q.val, by have := q.isLt; omega⟩ : Fin 768))))
          (max (U (ix2 r (⟨q.val + 384, by have := q.isLt; omega⟩ : Fin 768)))
            (V (ix2 r (⟨q.val + 384, by have := q.isLt; omega⟩ : Fin 768)))) + b (ix2 (0 : Fin 1) q) := by
  have hq := q.isLt
  rw [addf_apply, maximumf_apply]
  have e0 := extractStridedSlice_apply ![0, 0] (maximumf U V) slices_S1536x768_o0_0_S1536x384 (ix2 r q)
    (ix2 r (⟨q.val, by omega⟩ : Fin 768)) (fun a => by
      match a with
      | ⟨0, _⟩ => show r.val = 0 + r.val; omega
      | ⟨1, _⟩ => show q.val = 0 + q.val; omega)
  have e1 := extractStridedSlice_apply ![0, 384] (maximumf U V) slices_S1536x768_o0_384_S1536x384 (ix2 r q)
    (ix2 r (⟨q.val + 384, by omega⟩ : Fin 768)) (fun a => by
      match a with
      | ⟨0, _⟩ => show r.val = 0 + r.val; omega
      | ⟨1, _⟩ => show q.val + 384 = 384 + q.val; omega)
  have e2 := broadcastTo_1b_ab_apply b broadcasts_S1x384_S1536x384 r q
  rw [e0, e1, e2, maximumf_apply, maximumf_apply]

/-- The bias row as loaded (a whole-array load) is the array. -/
theorem bias_apply (x2 : Vec Ideal S1x384 .f32) (b1r : ℕ → EReal) (hx2 : ∀ q : Fin 384, x2 (ix2 0 q) = b1r q) (q : Fin 384) :
    (View.ld x2 r0_9 : Vec Ideal S1x384 .f32) (ix2 (0 : Fin 1) q) = b1r q := by
  have hz : (![0, 0] : Fin S1x384.rank → Nat) = fun _ => 0 := by
    funext a
    match a with
    | ⟨0, _⟩ => rfl
    | ⟨1, _⟩ => rfl
  rw [View.ld_unit_zero (S := S1x384) hz]
  exact hx2 q

theorem kq1_even (x0 : Vec Ideal S4x7x256x28 .bf16) (x1 : Vec Ideal S140x768 .bf16) (x2 : Vec Ideal S1x384 .f32)
    (xt : ℕ → ℕ → ℕ → ℕ → EReal) (t1 : ℕ → ℕ → EReal) (b1r : ℕ → EReal)
    (hx0 : ∀ (a : Fin 4) (j : Fin 7) (b : Fin 256) (w : Fin 28), x0 (ix4 a j b w) = xt a j b w)
    (hx1 : ∀ (k : Fin 140) (q : Fin 768), x1 (ix2 k q) = t1 k q)
    (hx2 : ∀ q : Fin 384, x2 (ix2 0 q) = b1r q)
    (r : Fin 1536) (q : Fin 384) :
    k0_pay7 (F := Ideal) (k0_pay2 (View.ld x1 r0_0) (View.ld x0 r0_1) (View.ld x0 r0_2) (View.ld x0 r0_3) (View.ld x0 r0_4) (View.ld x0 r0_5))
      (k0_pay5 (k0_pay1 (View.ld x1 r0_0)) (k0_pay3 (View.ld x0 r0_2)) (k0_pay4 (View.ld x0 r0_3)) (View.ld x0 r0_4) (View.ld x0 r0_5) (View.ld x0 r0_6))
      (View.ld x2 r0_9) (ix2 r q) = K.q1 xt t1 b1r 0 r q := by
  unfold k0_pay7
  rw [truncf_apply, maximumf_apply, broadcast_apply, pool_apply,
    pay2_apply x0 x1 xt t1 hx0 hx1, pay2_apply x0 x1 xt t1 hx0 hx1,
    pay5_apply x0 x1 xt t1 hx0 hx1, pay5_apply x0 x1 xt t1 hx0 hx1, bias_apply x2 b1r hx2 q]
  show max _ (Ideal.ofBits .f32 0x00000000#32) = _
  rw [Ideal.ofBits_zero_f32]
  rfl

theorem kq1_odd (x0 : Vec Ideal S4x7x256x28 .bf16) (x1 : Vec Ideal S140x768 .bf16) (x2 : Vec Ideal S1x384 .f32)
    (xt : ℕ → ℕ → ℕ → ℕ → EReal) (t1 : ℕ → ℕ → EReal) (b1r : ℕ → EReal)
    (hx0 : ∀ (a : Fin 4) (j : Fin 7) (b : Fin 256) (w : Fin 28), x0 (ix4 a j b w) = xt a j b w)
    (hx1 : ∀ (k : Fin 140) (q : Fin 768), x1 (ix2 k q) = t1 k q)
    (hx2 : ∀ q : Fin 384, x2 (ix2 0 q) = b1r q)
    (r : Fin 1536) (q : Fin 384) :
    relu (k0_pay8 (F := Ideal) (k0_pay1 (View.ld x1 r0_0))
      (k0_pay6 (k0_pay1 (View.ld x1 r0_0)) (View.ld x0 r0_3) (View.ld x0 r0_4) (View.ld x0 r0_5) (View.ld x0 r0_6) (View.ld x0 r0_7))
      (View.ld x0 r0_4) (View.ld x0 r0_5) (View.ld x0 r0_6) (View.ld x0 r0_7) (View.ld x0 r0_8) (View.ld x2 r0_9) (ix2 r q))
      = K.q1 xt t1 b1r 1 r q := by
  have h3 : ∀ q' : Fin 768,
      matmul (F := Ideal) dot_S1536x140_S140x768_S1536x768_1_0_0_1_n_n none
        (concatenate S1536x140 1
          [⟨S1536x28, shapeCast S1536x28 (shapeCast S6x256x28 (View.ld x0 r0_4) shapeCasts_S1x6x256x28_S6x256x28) shapeCasts_S6x256x28_S1536x28⟩,
           ⟨S1536x28, shapeCast S1536x28 (shapeCast S6x256x28 (View.ld x0 r0_5) shapeCasts_S1x6x256x28_S6x256x28) shapeCasts_S6x256x28_S1536x28⟩,
           ⟨S1536x28, shapeCast S1536x28 (shapeCast S6x256x28 (View.ld x0 r0_6) shapeCasts_S1x6x256x28_S6x256x28) shapeCasts_S6x256x28_S1536x28⟩,
           ⟨S1536x28, shapeCast S1536x28 (shapeCast S6x256x28 (View.ld x0 r0_7) shapeCasts_S1x6x256x28_S6x256x28) shapeCasts_S6x256x28_S1536x28⟩,
           ⟨S1536x28, shapeCast S1536x28 (shapeCast S6x256x28 (View.ld x0 r0_8) shapeCasts_S1x6x256x28_S6x256x28) shapeCasts_S6x256x28_S1536x28⟩]
          concatenates_S1536x28_S1536x28_S1536x28_S1536x28_S1536x28_S1536x140_d1)
        (k0_pay1 (View.ld x1 r0_0)) (constant (F := Ideal) S1536x768 .f32 0x00000000#32) (ix2 r q')
      = K.h1 xt t1 3 r.val q'.val := fun q' =>
    h1_core _ _ _ _ _ _ xt t1 3 r q'
      (fun w => piece_xt x0 xt hx0 3 0 _ (by norm_num) (by norm_num) r w)
      (fun w => piece_xt x0 xt hx0 0 1 _ (by norm_num) (by norm_num) r w)
      (fun w => piece_xt x0 xt hx0 1 1 _ (by norm_num) (by norm_num) r w)
      (fun w => piece_xt x0 xt hx0 2 1 _ (by norm_num) (by norm_num) r w)
      (fun w => piece_xt x0 xt hx0 3 1 _ (by norm_num) (by norm_num) r w)
      (w_apply x1 t1 hx1)
  unfold k0_pay8
  rw [pool_apply, pay6_apply x0 x1 xt t1 hx0 hx1, pay6_apply x0 x1 xt t1 hx0 hx1, h3, h3, bias_apply x2 b1r hx2 q]
  rfl

end Cert.LeNet.KBody1

end
-- ==== Proof.KBody2.lean ====
import proofs.«175274_g2000709357908425_pallasbulk_852_30_alg».proof.Proof.Gen.KernelIdeal.Frame
import proofs.«175274_g2000709357908425_pallasbulk_852_30_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.KBody2

open Idealize.ShloMosaic Idealize.ShloMosaic.ValueIdx Cert.KernelIdeal Cert.KernelIdeal.Gen Cert.LeNet

/-! ## Small facts -/

/-- the bit pattern of +0 is the real 0 -/
theorem zero_f32 : (FloatOps.ofBits (F := Ideal) FTy.f32 0x00000000#32) = (0 : EReal) := Ideal.ofBits_zero_f32
/-- the zero offsets of a rank-2 rectangle -/
theorem hz2 : (![0, 0] : Fin 2 → ℕ) = fun _ => 0 := by
  funext a; match a with | ⟨0, _⟩ => rfl | ⟨1, _⟩ => rfl

/-! ## Layout operations at an index -/
/-- a matrix cut from (o0, o1) reads, at (j0, j1), the source at (o0 + j0, o1 + j1) -/
theorem slice2_apply {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩) (j0 : Fin m0) (j1 : Fin m1) (k0 : Fin n0) (k1 : Fin n1)
    (h0 : k0.val = o0 + j0.val) (h1 : k1.val = o1 + j1.val) :
    extractStridedSlice ⟨2, ![m0, m1]⟩ ![o0, o1] X h (ix2 j0 j1) = X (ix2 k0 k1) :=
  extractStridedSlice_apply _ _ _ _ _ (fun ax => by
    match ax with
    | ⟨0, _⟩ => exact h0
    | ⟨1, _⟩ => exact h1)

/-- the same for a source given by a function of its coordinates -/
theorem slice2_fn {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩) (f : ℕ → ℕ → α)
    (hX : ∀ (r : Fin n0) (q : Fin n1), X (ix2 r q) = f r q) (j0 : Fin m0) (j1 : Fin m1) :
    extractStridedSlice ⟨2, ![m0, m1]⟩ ![o0, o1] X h (ix2 j0 j1) = f (o0 + j0) (o1 + j1) :=
  (slice2_apply o0 o1 X h j0 j1 ⟨o0 + j0.val, Nat.lt_of_lt_of_le (Nat.add_lt_add_left j0.isLt o0) (h.2 0)⟩
    ⟨o1 + j1.val, Nat.lt_of_lt_of_le (Nat.add_lt_add_left j1.isLt o1) (h.2 1)⟩ rfl rfl).trans (hX _ _)

/-- a load of 256 rows from row o reads row o + k -/
theorem ld_rows (x5 : Vec Ideal S1024x512 .bf16) (o : ℕ) (inb : ∀ a, (![o, 0] : Fin 2 → Nat) a + S256x512.size a ≤ S1024x512.size a)
    (k : Fin 256) (h : Fin 512) (ho : o + k.val < 1024) :
    View.ld x5 (Rect.unit (s := S1024x512) ![o, 0] S256x512.size inb) (ix2 k h) = x5 (ix2 ⟨o + k.val, ho⟩ h) := by
  show x5 _ = x5 _
  refine congrArg x5 (funext fun a => Fin.ext ?_)
  match a with
  | ⟨0, _⟩ => show o + 1 * k.val = o + k.val; omega
  | ⟨1, _⟩ => show 0 + 1 * h.val = h.val; omega

/-! ## The three matrix products at an index: sums over the contracted coordinate -/

/-- [1024,1280] x [1280,256] -/
theorem mm1 (A : FVec Ideal S1024x1280 .bf16) (B : FVec Ideal S1280x256 .bf16) (a : Fin 1024) (b : Fin 256) :
    matmul (F := Ideal) dot_S1024x1280_S1280x256_S1024x256_1_0_0_1_n_n none A B (constant (F := Ideal) S1024x256 .f32 0x00000000#32) (ix2 a b)
      = ∑ c : Fin 1280, A (ix2 a c) * B (ix2 c b) := by
  show FloatOps.matmul _ none A B _ (ix2 a b) = _
  rw [Ideal.matmul_constant_zero_apply, ← Equiv.sum_comp (contrEquiv1 dot_S1024x1280_S1280x256_S1024x256_1_0_0_1_n_n 1280 rfl rfl).symm]
  refine Finset.sum_congr rfl fun c _ => ?_
  have c2 := contrEquiv1_symm_val dot_S1024x1280_S1280x256_S1024x256_1_0_0_1_n_n 1280 rfl rfl c
  have l2 : dot_S1024x1280_S1280x256_S1024x256_1_0_0_1_n_n.lhsIdx (ix2 a b) ((contrEquiv1 _ 1280 rfl rfl).symm c) = ix2 a c := by
    funext ax; apply Fin.ext
    match ax with
    | ⟨0, _⟩ => simp [DotDims.lhsIdx, dot_S1024x1280_S1280x256_S1024x256_1_0_0_1_n_n]; rfl
    | ⟨1, _⟩ => simp [DotDims.lhsIdx, dot_S1024x1280_S1280x256_S1024x256_1_0_0_1_n_n]; exact c2
  have r2 : dot_S1024x1280_S1280x256_S1024x256_1_0_0_1_n_n.rhsIdx (ix2 a b) ((contrEquiv1 _ 1280 rfl rfl).symm c) = ix2 c b := by
    funext ax; apply Fin.ext
    match ax with
    | ⟨0, _⟩ => simp [DotDims.rhsIdx, dot_S1024x1280_S1280x256_S1024x256_1_0_0_1_n_n]; exact c2
    | ⟨1, _⟩ => simp [DotDims.rhsIdx, dot_S1024x1280_S1280x256_S1024x256_1_0_0_1_n_n]; rfl
  rw [l2, r2]

/-- [256,256] x [256,512] -/
theorem mm2 (A : FVec Ideal S256x256 .bf16) (B : FVec Ideal S256x512 .bf16) (a : Fin 256) (b : Fin 512) :
    matmul (F := Ideal) dot_S256x256_S256x512_S256x512_1_0_0_1_n_n none A B (constant (F := Ideal) S256x512 .f32 0x00000000#32) (ix2 a b)
      = ∑ c : Fin 256, A (ix2 a c) * B (ix2 c b) := by
  show FloatOps.matmul _ none A B _ (ix2 a b) = _
  rw [Ideal.matmul_constant_zero_apply, ← Equiv.sum_comp (contrEquiv1 dot_S256x256_S256x512_S256x512_1_0_0_1_n_n 256 rfl rfl).symm]
  refine Finset.sum_congr rfl fun c _ => ?_
  have c2 := contrEquiv1_symm_val dot_S256x256_S256x512_S256x512_1_0_0_1_n_n 256 rfl rfl c
  have l2 : dot_S256x256_S256x512_S256x512_1_0_0_1_n_n.lhsIdx (ix2 a b) ((contrEquiv1 _ 256 rfl rfl).symm c) = ix2 a c := by
    funext ax; apply Fin.ext
    match ax with
    | ⟨0, _⟩ => simp [DotDims.lhsIdx, dot_S256x256_S256x512_S256x512_1_0_0_1_n_n]; rfl
    | ⟨1, _⟩ => simp [DotDims.lhsIdx, dot_S256x256_S256x512_S256x512_1_0_0_1_n_n]; exact c2
  have r2 : dot_S256x256_S256x512_S256x512_1_0_0_1_n_n.rhsIdx (ix2 a b) ((contrEquiv1 _ 256 rfl rfl).symm c) = ix2 c b := by
    funext ax; apply Fin.ext
    match ax with
    | ⟨0, _⟩ => simp [DotDims.rhsIdx, dot_S256x256_S256x512_S256x512_1_0_0_1_n_n]; exact c2
    | ⟨1, _⟩ => simp [DotDims.rhsIdx, dot_S256x256_S256x512_S256x512_1_0_0_1_n_n]; rfl
  rw [l2, r2]

/-- [256,512] x [512,128] -/
theorem mm3 (A : FVec Ideal S256x512 .bf16) (B : FVec Ideal S512x128 .bf16) (a : Fin 256) (b : Fin 128) :
    matmul (F := Ideal) dot_S256x512_S512x128_S256x128_1_0_0_1_n_n none A B (constant (F := Ideal) S256x128 .f32 0x00000000#32) (ix2 a b)
      = ∑ c : Fin 512, A (ix2 a c) * B (ix2 c b) := by
  show FloatOps.matmul _ none A B _ (ix2 a b) = _
  rw [Ideal.matmul_constant_zero_apply, ← Equiv.sum_comp (contrEquiv1 dot_S256x512_S512x128_S256x128_1_0_0_1_n_n 512 rfl rfl).symm]
  refine Finset.sum_congr rfl fun c _ => ?_
  have c2 := contrEquiv1_symm_val dot_S256x512_S512x128_S256x128_1_0_0_1_n_n 512 rfl rfl c
  have l2 : dot_S256x512_S512x128_S256x128_1_0_0_1_n_n.lhsIdx (ix2 a b) ((contrEquiv1 _ 512 rfl rfl).symm c) = ix2 a c := by
    funext ax; apply Fin.ext
    match ax with
    | ⟨0, _⟩ => simp [DotDims.lhsIdx, dot_S256x512_S512x128_S256x128_1_0_0_1_n_n]; rfl
    | ⟨1, _⟩ => simp [DotDims.lhsIdx, dot_S256x512_S512x128_S256x128_1_0_0_1_n_n]; exact c2
  have r2 : dot_S256x512_S512x128_S256x128_1_0_0_1_n_n.rhsIdx (ix2 a b) ((contrEquiv1 _ 512 rfl rfl).symm c) = ix2 c b := by
    funext ax; apply Fin.ext
    match ax with
    | ⟨0, _⟩ => simp [DotDims.rhsIdx, dot_S256x512_S512x128_S256x128_1_0_0_1_n_n]; exact c2
    | ⟨1, _⟩ => simp [DotDims.rhsIdx, dot_S256x512_S512x128_S256x128_1_0_0_1_n_n]; rfl
  rw [l2, r2]

/-! ## Concatenations along the columns: piece (column / width) at (column % width) -/

/-- five [1024,256] pieces side by side: column k lies in piece k / 256 at k % 256 -/
theorem cat5_fn {α : Type} (P0 P1 P2 P3 P4 : S1024x256.Idx → α) (G : ℕ → ℕ → ℕ → α)
    (h0 : ∀ (r : Fin 1024) (c : Fin 256), P0 (ix2 r c) = G 0 r c)
    (h1 : ∀ (r : Fin 1024) (c : Fin 256), P1 (ix2 r c) = G 1 r c)
    (h2 : ∀ (r : Fin 1024) (c : Fin 256), P2 (ix2 r c) = G 2 r c)
    (h3 : ∀ (r : Fin 1024) (c : Fin 256), P3 (ix2 r c) = G 3 r c)
    (h4 : ∀ (r : Fin 1024) (c : Fin 256), P4 (ix2 r c) = G 4 r c)
    (r : Fin 1024) (k : Fin 1280) :
    concatenate S1024x1280 1 [⟨S1024x256, P0⟩, ⟨S1024x256, P1⟩, ⟨S1024x256, P2⟩, ⟨S1024x256, P3⟩, ⟨S1024x256, P4⟩]
      concatenates_S1024x256_S1024x256_S1024x256_S1024x256_S1024x256_S1024x1280_d1 (ix2 r k) = G (k.val / 256) r (k.val % 256) := by
  have hk := k.isLt
  have hc : k.val / 256 = 0 ∨ k.val / 256 = 1 ∨ k.val / 256 = 2 ∨ k.val / 256 = 3 ∨ k.val / 256 = 4 := by omega
  have hm : k.val % 256 < 256 := Nat.mod_lt _ (by norm_num)
  have hi : ∀ b : Fin S1024x256.rank, b.cast (rfl : S1024x256.rank = S1024x1280.rank) ≠ (1 : Fin S1024x1280.rank) →
      ((ix2 r (⟨k.val % 256, hm⟩ : Fin 256) : S1024x256.Idx) b).val = ((ix2 r k : S1024x1280.Idx) (b.cast rfl)).val := by
    intro b hb
    match b with
    | ⟨0, _⟩ => rfl
    | ⟨1, _⟩ => exact absurd rfl hb
  rcases hc with e | e | e | e | e
  · rw [e]
    exact (concatenate_apply_piece 1 _ _ (ix2 r k) 0 (by simp) S1024x256 P0 rfl rfl 0 rfl (ix2 r ⟨k.val % 256, hm⟩) hi
      (by show 0 + k.val % 256 = k.val; omega)).trans (h0 _ _)
  · rw [e]
    exact (concatenate_apply_piece 1 _ _ (ix2 r k) 1 (by simp) S1024x256 P1 rfl rfl 256 rfl (ix2 r ⟨k.val % 256, hm⟩) hi
      (by show 256 + k.val % 256 = k.val; omega)).trans (h1 _ _)
  · rw [e]
    exact (concatenate_apply_piece 1 _ _ (ix2 r k) 2 (by simp) S1024x256 P2 rfl rfl 512 rfl (ix2 r ⟨k.val % 256, hm⟩) hi
      (by show 512 + k.val % 256 = k.val; omega)).trans (h2 _ _)
  · rw [e]
    exact (concatenate_apply_piece 1 _ _ (ix2 r k) 3 (by simp) S1024x256 P3 rfl rfl 768 rfl (ix2 r ⟨k.val % 256, hm⟩) hi
      (by show 768 + k.val % 256 = k.val; omega)).trans (h3 _ _)
  · rw [e]
    exact (concatenate_apply_piece 1 _ _ (ix2 r k) 4 (by simp) S1024x256 P4 rfl rfl 1024 rfl (ix2 r ⟨k.val % 256, hm⟩) hi
      (by show 1024 + k.val % 256 = k.val; omega)).trans (h4 _ _)

/-- two [1024,128] pieces side by side: column q lies in piece q / 128 at q % 128 -/
theorem cat2_fn {α : Type} (P0 P1 : S1024x128.Idx → α) (G : ℕ → ℕ → ℕ → α)
    (h0 : ∀ (r : Fin 1024) (c : Fin 128), P0 (ix2 r c) = G 0 r c)
    (h1 : ∀ (r : Fin 1024) (c : Fin 128), P1 (ix2 r c) = G 1 r c)
    (r : Fin 1024) (q : Fin 256) :
    concatenate S1024x256 1 [⟨S1024x128, P0⟩, ⟨S1024x128, P1⟩] concatenates_S1024x128_S1024x128_S1024x256_d1 (ix2 r q)
      = G (q.val / 128) r (q.val % 128) := by
  have hq := q.isLt
  have hc : q.val / 128 = 0 ∨ q.val / 128 = 1 := by omega
  have hm : q.val % 128 < 128 := Nat.mod_lt _ (by norm_num)
  have hi : ∀ b : Fin S1024x128.rank, b.cast (rfl : S1024x128.rank = S1024x256.rank) ≠ (1 : Fin S1024x256.rank) →
      ((ix2 r (⟨q.val % 128, hm⟩ : Fin 128) : S1024x128.Idx) b).val = ((ix2 r q : S1024x256.Idx) (b.cast rfl)).val := by
    intro b hb
    match b with
    | ⟨0, _⟩ => rfl
    | ⟨1, _⟩ => exact absurd rfl hb
  rcases hc with e | e
  · rw [e]
    exact (concatenate_apply_piece 1 _ _ (ix2 r q) 0 (by simp) S1024x128 P0 rfl rfl 0 rfl (ix2 r ⟨q.val % 128, hm⟩) hi
      (by show 0 + q.val % 128 = q.val; omega)).trans (h0 _ _)
  · rw [e]
    exact (concatenate_apply_piece 1 _ _ (ix2 r q) 1 (by simp) S1024x128 P1 rfl rfl 128 rfl (ix2 r ⟨q.val % 128, hm⟩) hi
      (by show 128 + q.val % 128 = q.val; omega)).trans (h1 _ _)

/-! ## The second convolution as banded products, pooled, biased, rectified -/

/-- one banded product: the five-piece row operand against the banded matrix -/
theorem h2_apply (P0 P1 P2 P3 P4 : FVec Ideal S1024x256 .bf16) (x3 : Vec Ideal S1280x256 .bf16)
    (p1 : ℕ → ℕ → ℕ → EReal) (t2 : ℕ → ℕ → EReal) (u g : ℕ)
    (h0 : ∀ (r : Fin 1024) (c : Fin 256), P0 (ix2 r c) = p1 ((u + 0) % 2) ((u + 0) / 2 * 256 + r) (128 * g + c))
    (h1 : ∀ (r : Fin 1024) (c : Fin 256), P1 (ix2 r c) = p1 ((u + 1) % 2) ((u + 1) / 2 * 256 + r) (128 * g + c))
    (h2 : ∀ (r : Fin 1024) (c : Fin 256), P2 (ix2 r c) = p1 ((u + 2) % 2) ((u + 2) / 2 * 256 + r) (128 * g + c))
    (h3 : ∀ (r : Fin 1024) (c : Fin 256), P3 (ix2 r c) = p1 ((u + 3) % 2) ((u + 3) / 2 * 256 + r) (128 * g + c))
    (h4 : ∀ (r : Fin 1024) (c : Fin 256), P4 (ix2 r c) = p1 ((u + 4) % 2) ((u + 4) / 2 * 256 + r) (128 * g + c))
    (hx3 : ∀ (k : Fin 1280) (q : Fin 256), x3 (ix2 k q) = t2 k q) (r : Fin 1024) (q : Fin 256) :
    matmul (F := Ideal) dot_S1024x1280_S1280x256_S1024x256_1_0_0_1_n_n none
      (concatenate S1024x1280 1 [⟨S1024x256, P0⟩, ⟨S1024x256, P1⟩, ⟨S1024x256, P2⟩, ⟨S1024x256, P3⟩, ⟨S1024x256, P4⟩]
        concatenates_S1024x256_S1024x256_S1024x256_S1024x256_S1024x256_S1024x1280_d1)
      (shapeCast S1280x256 (View.ld x3 r0_10 : Vec Ideal S1280x256 .bf16) shapeCasts_S1280x256_S1280x256 : FVec Ideal S1280x256 .bf16)
      (constant (F := Ideal) S1024x256 .f32 0x00000000#32) (ix2 r q) = K.h2 p1 t2 u g r q := by
  unfold K.h2
  rw [mm1, ← Fin.sum_univ_eq_sum_range
    (fun k => p1 ((u + k / 256) % 2) ((u + k / 256) / 2 * 256 + r) (128 * g + k % 256) * t2 k q) 1280]
  refine Finset.sum_congr rfl fun k _ => ?_
  refine congrArg₂ (· * ·) ?_ ?_
  · exact cat5_fn P0 P1 P2 P3 P4 (fun kh r c => p1 ((u + kh) % 2) ((u + kh) / 2 * 256 + r) (128 * g + c)) h0 h1 h2 h3 h4 r k
  · exact (congrFun (shapeCast_self _ _) _).trans ((congrFun (View.ld_unit_zero (S := S1280x256) hz2 _ x3) _).trans (hx3 _ _))

/-- the column pool of the row-pooled products -/
theorem pool_piece (H0 H1 : FVec Ideal S1024x256 .f32) (f0 f1 : ℕ → ℕ → EReal)
    (hH0 : ∀ (r : Fin 1024) (q : Fin 256), H0 (ix2 r q) = f0 r q)
    (hH1 : ∀ (r : Fin 1024) (q : Fin 256), H1 (ix2 r q) = f1 r q) (r : Fin 1024) (c : Fin 128) :
    maximumf (extractStridedSlice S1024x128 ![0, 0] (maximumf H0 H1) slices_S1024x256_o0_0_S1024x128)
      (extractStridedSlice S1024x128 ![0, 128] (maximumf H0 H1) slices_S1024x256_o0_128_S1024x128) (ix2 r c)
      = max (max (f0 r c) (f1 r c)) (max (f0 r (c + 128)) (f1 r (c + 128))) := by
  rw [maximumf_apply, slice2_axis1_eq 0 (maximumf H0 H1) slices_S1024x256_o0_0_S1024x128 r c,
    slice2_axis1_eq 128 (maximumf H0 H1) slices_S1024x256_o0_128_S1024x128 r c,
    maximumf_apply, maximumf_apply, hH0, hH1, hH0, hH1]
  show max (max (f0 r (0 + c)) (f1 r (0 + c))) (max (f0 r (128 + c)) (f1 r (128 + c))) = _
  rw [Nat.zero_add, Nat.add_comm 128]

/-- the pooled, biased, rectified second convolution at (r, q) is K.q2 -/
theorem pay9_apply (v79 : FVec Ideal S1536x384 .bf16) (v86 : FVec Ideal S1536x384 .f32)
    (x3 : Vec Ideal S1280x256 .bf16) (x4 : Vec Ideal S1x256 .f32)
    (p1 : ℕ → ℕ → ℕ → EReal) (t2 : ℕ → ℕ → EReal) (b2r : ℕ → EReal)
    (h79 : ∀ (r : Fin 1536) (q : Fin 384), v79 (ix2 r q) = p1 0 r q)
    (h86 : ∀ (r : Fin 1536) (q : Fin 384), relu (v86 (ix2 r q)) = p1 1 r q)
    (hx3 : ∀ (k : Fin 1280) (q : Fin 256), x3 (ix2 k q) = t2 k q)
    (hx4 : ∀ q : Fin 256, x4 (ix2 0 q) = b2r q) (r : Fin 1024) (q : Fin 256) :
    k0_pay9 (F := Ideal) v79 v86 (Scalar.ofBits .f32 0x00000000#32) (View.ld x3 r0_10) (View.ld x4 r0_11) (ix2 r q)
      = K.q2 p1 t2 b2r r q := by
  have h89 : ∀ (r : Fin 1536) (q : Fin 384),
      (truncf .bf16 (maximumf v86 (broadcast S1536x384 (FloatOps.ofBits (F := Ideal) FTy.f32 0x00000000#32))) bitsLt_bf16_f32 :
        FVec Ideal S1536x384 .bf16) (ix2 r q) = p1 1 r q := by
    intro r q
    show max (v86 (ix2 r q)) (FloatOps.ofBits (F := Ideal) FTy.f32 0x00000000#32) = _
    rw [zero_f32]; exact h86 r q
  unfold k0_pay9
  generalize (truncf .bf16 (maximumf v86 (broadcast S1536x384 (FloatOps.ofBits (F := Ideal) FTy.f32 0x00000000#32))) bitsLt_bf16_f32 :
        FVec Ideal S1536x384 .bf16) = v89 at h89 ⊢
  rw [truncf_apply, maximumf_apply, addf_apply, broadcastTo_1b_ab_apply, View.ld_unit_zero (S := S1x256) hz2 _ x4, hx4]
  show max (_ + _) (FloatOps.ofBits (F := Ideal) FTy.f32 0x00000000#32) = _
  rw [zero_f32]
  unfold K.q2 relu
  refine congrArg (fun v => max (v + b2r q) 0) ?_
  refine cat2_fn _ _ (fun g r c => max (max (K.h2 p1 t2 0 g r c) (K.h2 p1 t2 1 g r c))
      (max (K.h2 p1 t2 0 g r (c + 128)) (K.h2 p1 t2 1 g r (c + 128)))) ?_ ?_ r q
  · intro r c
    exact pool_piece _ _ (K.h2 p1 t2 0 0) (K.h2 p1 t2 1 0)
      (fun r q => h2_apply _ _ _ _ _ x3 p1 t2 0 0
        (fun r c => slice2_fn 0 0 v79 slices_S1536x384_o0_0_S1024x256 (p1 0) h79 r c)
        (fun r c => slice2_fn 0 0 v89 slices_S1536x384_o0_0_S1024x256 (p1 1) h89 r c)
        (fun r c => slice2_fn 256 0 v79 slices_S1536x384_o256_0_S1024x256 (p1 0) h79 r c)
        (fun r c => slice2_fn 256 0 v89 slices_S1536x384_o256_0_S1024x256 (p1 1) h89 r c)
        (fun r c => slice2_fn 512 0 v79 slices_S1536x384_o512_0_S1024x256 (p1 0) h79 r c)
        hx3 r q)
      (fun r q => h2_apply _ _ _ _ _ x3 p1 t2 1 0
        (fun r c => slice2_fn 0 0 v89 slices_S1536x384_o0_0_S1024x256 (p1 1) h89 r c)
        (fun r c => slice2_fn 256 0 v79 slices_S1536x384_o256_0_S1024x256 (p1 0) h79 r c)
        (fun r c => slice2_fn 256 0 v89 slices_S1536x384_o256_0_S1024x256 (p1 1) h89 r c)
        (fun r c => slice2_fn 512 0 v79 slices_S1536x384_o512_0_S1024x256 (p1 0) h79 r c)
        (fun r c => slice2_fn 512 0 v89 slices_S1536x384_o512_0_S1024x256 (p1 1) h89 r c)
        hx3 r q) r c
  · intro r c
    exact pool_piece _ _ (K.h2 p1 t2 0 1) (K.h2 p1 t2 1 1)
      (fun r q => h2_apply _ _ _ _ _ x3 p1 t2 0 1
        (fun r c => slice2_fn 0 128 v79 slices_S1536x384_o0_128_S1024x256 (p1 0) h79 r c)
        (fun r c => slice2_fn 0 128 v89 slices_S1536x384_o0_128_S1024x256 (p1 1) h89 r c)
        (fun r c => slice2_fn 256 128 v79 slices_S1536x384_o256_128_S1024x256 (p1 0) h79 r c)
        (fun r c => slice2_fn 256 128 v89 slices_S1536x384_o256_128_S1024x256 (p1 1) h89 r c)
        (fun r c => slice2_fn 512 128 v79 slices_S1536x384_o512_128_S1024x256 (p1 0) h79 r c)
        hx3 r q)
      (fun r q => h2_apply _ _ _ _ _ x3 p1 t2 1 1
        (fun r c => slice2_fn 0 128 v89 slices_S1536x384_o0_128_S1024x256 (p1 1) h89 r c)
        (fun r c => slice2_fn 256 128 v79 slices_S1536x384_o256_128_S1024x256 (p1 0) h79 r c)
        (fun r c => slice2_fn 256 128 v89 slices_S1536x384_o256_128_S1024x256 (p1 1) h89 r c)
        (fun r c => slice2_fn 512 128 v79 slices_S1536x384_o512_128_S1024x256 (p1 0) h79 r c)
        (fun r c => slice2_fn 512 128 v89 slices_S1536x384_o512_128_S1024x256 (p1 1) h89 r c)
        hx3 r q) r c

/-! ## The two dense layers -/

/-- one row block of the first dense layer: the block's rows against rows o .. o+255 of the weights -/
theorem blk_apply (A : FVec Ideal S256x256 .bf16) (x5 : Vec Ideal S1024x512 .bf16) (o : ℕ)
    (inb : ∀ a, (![o, 0] : Fin 2 → Nat) a + S256x512.size a ≤ S1024x512.size a) (ho : o + 256 ≤ 1024)
    (f : ℕ → ℕ → EReal) (f1w : ℕ → ℕ → EReal)
    (hA : ∀ (r : Fin 256) (q : Fin 256), A (ix2 r q) = f r q)
    (hx5 : ∀ (k : Fin 1024) (h : Fin 512), x5 (ix2 k h) = f1w k h) (b : Fin 256) (h : Fin 512) :
    matmul (F := Ideal) dot_S256x256_S256x512_S256x512_1_0_0_1_n_n none A
      (shapeCast S256x512 (View.ld x5 (Rect.unit (s := S1024x512) ![o, 0] S256x512.size inb) : Vec Ideal S256x512 .bf16) shapeCasts_S256x512_S256x512 : FVec Ideal S256x512 .bf16)
      (constant (F := Ideal) S256x512 .f32 0x00000000#32) (ix2 b h) = ∑ k ∈ Finset.range 256, f b k * f1w (o + k) h := by
  rw [mm2, ← Fin.sum_univ_eq_sum_range (fun k => f b k * f1w (o + k) h) 256]
  refine Finset.sum_congr rfl fun c _ => ?_
  rw [hA]
  refine congrArg (f b c * ·) ?_
  exact (congrFun (shapeCast_self _ _) _).trans ((ld_rows x5 o inb c h (by have := c.isLt; omega)).trans (hx5 _ _))

/-- the two dense layers over a pooled second layer p2, at (b, 0, n), are K.out (K.hid p2) -/
theorem pay11_apply (v134 : FVec Ideal S1024x256 .bf16) (v135 : FVec Ideal S256x256 .bf16)
    (x5 : Vec Ideal S1024x512 .bf16) (x6 : Vec Ideal S1x512 .f32)
    (x7 : Vec Ideal S512x128 .bf16) (x8 : Vec Ideal S1x128 .f32)
    (p2 : ℕ → ℕ → EReal) (f1w : ℕ → ℕ → EReal) (f1b : ℕ → EReal)
    (f2w : ℕ → ℕ → EReal) (f2b : ℕ → EReal)
    (h134 : ∀ (r : Fin 1024) (q : Fin 256), v134 (ix2 r q) = p2 r q)
    (h135 : ∀ (r : Fin 256) (q : Fin 256), v135 (ix2 r q) = p2 r q)
    (hx5 : ∀ (k : Fin 1024) (h : Fin 512), x5 (ix2 k h) = f1w k h)
    (hx6 : ∀ h : Fin 512, x6 (ix2 0 h) = f1b h)
    (hx7 : ∀ (k : Fin 512) (n : Fin 128), x7 (ix2 k n) = f2w k n)
    (hx8 : ∀ n : Fin 128, x8 (ix2 0 n) = f2b n)
    (b : Fin 256) (n : Fin 128) :
    k0_pay11 (F := Ideal) v134 v135
      (View.ld x5 r0_12) (View.ld x5 r0_13) (View.ld x5 r0_14) (View.ld x5 r0_15) (View.ld x6 r0_16) (View.ld x7 r0_17) (View.ld x8 r0_18)
      (ix3 b 0 n) = K.out (K.hid p2 f1w f1b) f2w f2b b n := by
  unfold k0_pay11
  refine (shapeCast_apply _ _ (ix3 b 0 n) (ix2 b n) ?_).trans ?_
  · rw [Shape.rowMajor_val_two, Shape.rowMajor_val_three]
    show b.val * 128 + n.val = (b.val * 1 + 0) * 128 + n.val
    omega
  unfold K.out
  rw [addf_apply, mm3, broadcastTo_1b_ab_apply, View.ld_unit_zero (S := S1x128) hz2 _ x8, hx8,
    ← Fin.sum_univ_eq_sum_range (fun k => K.hid p2 f1w f1b b k * f2w k n) 512]
  refine congrArg (· + f2b n) (Finset.sum_congr rfl fun c _ => ?_)
  refine congrArg₂ (· * ·) ?_ ((congrFun (shapeCast_self _ _) _).trans ((congrFun (View.ld_unit_zero (S := S512x128) hz2 _ x7) _).trans (hx7 _ _)))
  rw [truncf_apply, maximumf_apply, addf_apply, addf_apply, addf_apply, addf_apply, addf_apply,
    broadcastTo_1b_ab_apply, View.ld_unit_zero (S := S1x512) hz2 _ x6, hx6,
    blk_apply v135 x5 0 _ (by omega) p2 f1w h135 hx5 b c,
    blk_apply _ x5 256 _ (by omega) (fun r q => p2 (256 + r) q) f1w (fun r q => (slice2_axis0_eq 256 v134 _ r q).trans (h134 _ _)) hx5 b c,
    blk_apply _ x5 512 _ (by omega) (fun r q => p2 (512 + r) q) f1w (fun r q => (slice2_axis0_eq 512 v134 _ r q).trans (h134 _ _)) hx5 b c,
    blk_apply _ x5 768 _ (by omega) (fun r q => p2 (768 + r) q) f1w (fun r q => (slice2_axis0_eq 768 v134 _ r q).trans (h134 _ _)) hx5 b c]
  show max _ (FloatOps.ofBits (F := Ideal) FTy.f32 0x00000000#32) = _
  rw [zero_f32]
  unfold K.hid relu
  simp only [Nat.zero_add]
  rfl

/-! ## The stored block -/

theorem ktail (v79 : FVec Ideal S1536x384 .bf16) (v86 : FVec Ideal S1536x384 .f32)
    (x3 : Vec Ideal S1280x256 .bf16) (x4 : Vec Ideal S1x256 .f32) (x5 : Vec Ideal S1024x512 .bf16) (x6 : Vec Ideal S1x512 .f32)
    (x7 : Vec Ideal S512x128 .bf16) (x8 : Vec Ideal S1x128 .f32)
    (p1 : ℕ → ℕ → ℕ → EReal) (t2 : ℕ → ℕ → EReal) (b2r : ℕ → EReal) (f1w : ℕ → ℕ → EReal) (f1b : ℕ → EReal)
    (f2w : ℕ → ℕ → EReal) (f2b : ℕ → EReal)
    (h79 : ∀ (r : Fin 1536) (q : Fin 384), v79 (ix2 r q) = p1 0 r q)
    (h86 : ∀ (r : Fin 1536) (q : Fin 384), relu (v86 (ix2 r q)) = p1 1 r q)
    (hx3 : ∀ (k : Fin 1280) (q : Fin 256), x3 (ix2 k q) = t2 k q)
    (hx4 : ∀ q : Fin 256, x4 (ix2 0 q) = b2r q)
    (hx5 : ∀ (k : Fin 1024) (h : Fin 512), x5 (ix2 k h) = f1w k h)
    (hx6 : ∀ h : Fin 512, x6 (ix2 0 h) = f1b h)
    (hx7 : ∀ (k : Fin 512) (n : Fin 128), x7 (ix2 k n) = f2w k n)
    (hx8 : ∀ n : Fin 128, x8 (ix2 0 n) = f2b n)
    (b : Fin 256) (n : Fin 128) :
    k0_pay11 (F := Ideal) (k0_pay9 v79 v86 (Scalar.ofBits .f32 0x00000000#32) (View.ld x3 r0_10) (View.ld x4 r0_11))
      (k0_pay10 v79 v86 (Scalar.ofBits .f32 0x00000000#32) (View.ld x3 r0_10) (View.ld x4 r0_11))
      (View.ld x5 r0_12) (View.ld x5 r0_13) (View.ld x5 r0_14) (View.ld x5 r0_15) (View.ld x6 r0_16) (View.ld x7 r0_17) (View.ld x8 r0_18)
      (ix3 b 0 n) = K.out (K.hid (K.q2 p1 t2 b2r) f1w f1b) f2w f2b b n := by
  have h9 : ∀ (r : Fin 1024) (q : Fin 256),
      k0_pay9 (F := Ideal) v79 v86 (Scalar.ofBits .f32 0x00000000#32) (View.ld x3 r0_10) (View.ld x4 r0_11) (ix2 r q)
        = K.q2 p1 t2 b2r r q := pay9_apply v79 v86 x3 x4 p1 t2 b2r h79 h86 hx3 hx4
  have h10 : ∀ (r : Fin 256) (q : Fin 256),
      k0_pay10 (F := Ideal) v79 v86 (Scalar.ofBits .f32 0x00000000#32) (View.ld x3 r0_10) (View.ld x4 r0_11) (ix2 r q)
        = K.q2 p1 t2 b2r r q := by
    intro r q
    unfold k0_pay10
    exact (slice2_axis0_eq 0 _ slices_S1024x256_o0_0_S256x256 r q).trans
      ((h9 _ _).trans (by show K.q2 p1 t2 b2r (0 + r.val) q.val = _; rw [Nat.zero_add]))
  exact pay11_apply _ _ x5 x6 x7 x8 (K.q2 p1 t2 b2r) f1w f1b f2w f2b h9 h10 hx5 hx6 hx7 hx8 b n

end Cert.LeNet.KBody2

end
-- ==== Proof.KHostDefs.lean ====
/-
  The two banded matrices as pure terms of the weight arrays: the chain of host operations that builds each of them,
  composed. (The tap index w - ow, kept when it lies in [0, 5) and sent to the zero tap 5 otherwise; the taps padded with one
  zero tap; the gather of taps at those indices; the re-laying as a matrix.)
-/
import proofs.«175274_g2000709357908425_pallasbulk_852_30_alg».proof.Proof.Gen.KernelIdeal.Frame
import proofs.«175274_g2000709357908425_pallasbulk_852_30_alg».proof.Proof.Spec

set_option maxRecDepth 16384

noncomputable section

namespace Cert.LeNet.KHostDefs

open Idealize.ShloMosaic Idealize.ShloMosaic.ValueIdx Cert.KernelIdeal Cert.KernelIdeal.Gen Cert.LeNet

/-- tap indices of the first banded matrix, [28, 24] -/
def idxA : S28x24.Idx → BitVec 32 :=
  let v5 : S12.Idx → BitVec 32 := iotaInDim S12 32 0
  let v6 : S12.Idx → BitVec 32 := broadcastInDim S12 ![] bcast_S_S12 (constantI S_ 32 2#32)
  let v7 := muli v6 v5
  let v8 : S12.Idx → BitVec 32 := broadcastInDim S12 ![] bcast_S_S12 (constantI S_ 32 0#32)
  let v9 := addi v8 v7
  let v10 : S12.Idx → BitVec 32 := iotaInDim S12 32 0
  let v11 : S12.Idx → BitVec 32 := broadcastInDim S12 ![] bcast_S_S12 (constantI S_ 32 2#32)
  let v12 := muli v11 v10
  let v13 : S12.Idx → BitVec 32 := broadcastInDim S12 ![] bcast_S_S12 (constantI S_ 32 1#32)
  let v14 := addi v13 v12
  let v15 : S24.Idx → BitVec 32 := concatenate S24 0 [⟨S12, v9⟩, ⟨S12, v14⟩] concatenates_S12_S12_S24_d0
  let v16 : S28.Idx → BitVec 32 := iotaInDim S28 32 0
  let v17 : S28x1.Idx → BitVec 32 := broadcastInDim S28x1 ![0] bcast_S28_S28x1_0 v16
  let v18 : S1x24.Idx → BitVec 32 := broadcastInDim S1x24 ![1] bcast_S24_S1x24_1 v15
  let v19 : S28x24.Idx → BitVec 32 := broadcastInDim S28x24 ![0, 1] bcast_S28x1_S28x24_0_1 v17
  let v20 : S28x24.Idx → BitVec 32 := broadcastInDim S28x24 ![0, 1] bcast_S1x24_S28x24_0_1 v18
  let v21 := subi v19 v20
  let v22 : S28x24.Idx → BitVec 32 := broadcastInDim S28x24 ![] bcast_S_S28x24 (constantI S_ 32 0#32)
  let v23 := cmpi .sge v21 v22
  let v24 : S28x24.Idx → BitVec 32 := broadcastInDim S28x24 ![] bcast_S_S28x24 (constantI S_ 32 5#32)
  let v25 := cmpi .slt v21 v24
  let v26 := andi v23 v25
  let w1 : S28x24.Idx → BitVec 32 := broadcastInDim S28x24 ![] bcast_S_S28x24 (id (constantI S_ 32 5#32))
  let v27 := select v26 v21 w1
  let v28 : S28x24.Idx → BitVec 32 := broadcastInDim S28x24 ![] bcast_S_S28x24 (constantI S_ 32 0#32)
  let v29 := cmpi .slt v27 v28
  let v30 : S28x24.Idx → BitVec 32 := broadcastInDim S28x24 ![] bcast_S_S28x24 (constantI S_ 32 6#32)
  let v31 := addi v27 v30
  select v29 v31 v27

/-- the first banded matrix from the taps [25, 32] -/
def t1term (W : S25x32.Idx → EReal) : S140x768.Idx → EReal :=
  let v3 : FVec Ideal S5x5x32 .f32 := shapeCast S5x5x32 W shapeCasts_S25x32_S5x5x32
  let pv : FVec Ideal S_ .f32 := sitofp .f32 (constantI S_ 32 0#32)
  let v4 : FVec Ideal S5x6x32 .f32 := pad S5x6x32 ![0, 0, 0] ![0, 1, 0] ![0, 0, 0] v3 pv pads_S5x5x32_S5x6x32_000_010_000 h_S_
  let v33 : S28x24x1.Idx → BitVec 32 := broadcastInDim S28x24x1 ![0, 1] bcast_S28x24_S28x24x1_0_1 idxA
  let v34 : FVec Ideal S5x28x24x32 .f32 := Host.gather gather_S5x6x32_S28x24x1_S5x28x24x32_03_1_n_n_1_2_5132 v4 v33
  let v35 : FVec Ideal S140x768 .f32 := shapeCast S140x768 v34 shapeCasts_S5x28x24x32_S140x768
  (truncf .bf16 v35 bitsLt_bf16_f32 : FVec Ideal S140x768 .bf16)

/-- tap indices of the second banded matrix, [8, 4] -/
def idxB : S8x4.Idx → BitVec 32 :=
  let c : S4.Idx → BitVec 32 := fun i => lit0 (S4.rowMajor i)
  let v42 : S8.Idx → BitVec 32 := iotaInDim S8 32 0
  let v43 : S8x1.Idx → BitVec 32 := broadcastInDim S8x1 ![0] bcast_S8_S8x1_0 v42
  let v44 : S1x4.Idx → BitVec 32 := broadcastInDim S1x4 ![1] bcast_S4_S1x4_1 c
  let v45 : S8x4.Idx → BitVec 32 := broadcastInDim S8x4 ![0, 1] bcast_S8x1_S8x4_0_1 v43
  let v46 : S8x4.Idx → BitVec 32 := broadcastInDim S8x4 ![0, 1] bcast_S1x4_S8x4_0_1 v44
  let v47 := subi v45 v46
  let v48 : S8x4.Idx → BitVec 32 := broadcastInDim S8x4 ![] bcast_S_S8x4 (constantI S_ 32 0#32)
  let v49 := cmpi .sge v47 v48
  let v50 : S8x4.Idx → BitVec 32 := broadcastInDim S8x4 ![] bcast_S_S8x4 (constantI S_ 32 5#32)
  let v51 := cmpi .slt v47 v50
  let v52 := andi v49 v51
  let w1 : S8x4.Idx → BitVec 32 := broadcastInDim S8x4 ![] bcast_S_S8x4 (id (constantI S_ 32 5#32))
  let v53 := select v52 v47 w1
  let v54 : S8x4.Idx → BitVec 32 := broadcastInDim S8x4 ![] bcast_S_S8x4 (constantI S_ 32 0#32)
  let v55 := cmpi .slt v53 v54
  let v56 : S8x4.Idx → BitVec 32 := broadcastInDim S8x4 ![] bcast_S_S8x4 (constantI S_ 32 6#32)
  let v57 := addi v53 v56
  select v55 v57 v53

/-- the second banded matrix from the taps [800, 64] -/
def t2term (W : S800x64.Idx → EReal) : S1280x256.Idx → EReal :=
  let v40 : FVec Ideal S5x5x32x64 .f32 := shapeCast S5x5x32x64 W shapeCasts_S800x64_S5x5x32x64
  let pv : FVec Ideal S_ .f32 := sitofp .f32 (constantI S_ 32 0#32)
  let v41 : FVec Ideal S5x6x32x64 .f32 := pad S5x6x32x64 ![0, 0, 0, 0] ![0, 1, 0, 0] ![0, 0, 0, 0] v40 pv pads_S5x5x32x64_S5x6x32x64_000_010_000_000 h_S_
  let v59 : S8x4x1.Idx → BitVec 32 := broadcastInDim S8x4x1 ![0, 1] bcast_S8x4_S8x4x1_0_1 idxB
  let v60 : FVec Ideal S5x8x4x32x64 .f32 := Host.gather gather_S5x6x32x64_S8x4x1_S5x8x4x32x64_034_1_n_n_1_2_513264 v41 v59
  let v61 : FVec Ideal S5x8x32x4x64 .f32 := transpose S5x8x32x4x64 [0, 1, 3, 2, 4] v60 transposes_S5x8x4x32x64_S5x8x32x4x64_0_1_3_2_4
  let v62 : FVec Ideal S1280x256 .f32 := shapeCast S1280x256 v61 shapeCasts_S5x8x32x4x64_S1280x256
  (truncf .bf16 v62 bitsLt_bf16_f32 : FVec Ideal S1280x256 .bf16)

end Cert.LeNet.KHostDefs

end
-- ==== Proof.KHostAfter.lean ====
import proofs.«175274_g2000709357908425_pallasbulk_852_30_alg».proof.Proof.Gen.KernelIdeal.Frame
import proofs.«175274_g2000709357908425_pallasbulk_852_30_alg».proof.Proof.Spec
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.LeNet.KHostAfter

open Idealize.ShloMosaic Idealize.ShloMosaic.ValueIdx Idealize.SL.Sem Cert.KernelIdeal Cert.KernelIdeal.Gen Cert.LeNet

/-! ## Reading one buffer after a straight line of single-assignment operations -/

section Generic
variable {τ' : Topo} {sig' : RefSig} {Val : EltTy → Type}

theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

theorem after_take_drop (n : ℕ) (l : List (HloOp τ' sig' Val)) (V : Valuation τ' sig' Val) :
    StableHlo.after l V = StableHlo.after (l.drop n) (StableHlo.after (l.take n) V) := by
  rw [← after_append, List.take_append_drop]

/-- operation by operation, the one reference each operation writes -/
def WritesL (ops : List (HloOp τ' sig' Val)) (W : List (Ref sig' .tc)) : Prop :=
  List.Forall₂ (fun op r => op.writes = {Proc.devRef (τ := τ') .tc r}) ops W

theorem after_skip {ops : List (HloOp τ' sig' Val)} {W : List (Ref sig' .tc)} (h : WritesL ops W)
    (V : Valuation τ' sig' Val) {r : Ref sig' .tc} (hr : r ∉ W) :
    StableHlo.after ops V (Proc.devRef .tc r) = V (Proc.devRef .tc r) := by
  unfold WritesL at h
  induction h generalizing V with
  | nil => rfl
  | @cons op y ops W hw _ ih =>
    rw [StableHlo.after_cons, ih _ (fun hm => hr (List.mem_cons_of_mem _ hm))]
    refine op.result_of_not_mem V ?_
    rw [hw, Finset.mem_singleton]
    exact fun e => hr (Proc.devRef_injective _ e ▸ List.mem_cons_self)

/-- a reference no operation from position `n` on writes holds after the line what it held after the first `n` -/
theorem after_at {ops : List (HloOp τ' sig' Val)} {W : List (Ref sig' .tc)} (h : WritesL ops W) (n : ℕ)
    (V : Valuation τ' sig' Val) {r : Ref sig' .tc} (hr : r ∉ W.drop n) :
    StableHlo.after ops V (Proc.devRef .tc r) = StableHlo.after (ops.take n) V (Proc.devRef .tc r) := by
  rw [after_take_drop n ops V]
  exact after_skip (List.forall₂_drop n h) _ hr

/-- the reference written at position `n` and never again holds the result of that operation on the contents after the first `n` -/
theorem after_step {ops : List (HloOp τ' sig' Val)} {W : List (Ref sig' .tc)} (h : WritesL ops W) (n : ℕ)
    (op : HloOp τ' sig' Val) (hop : ops[n]? = some op)
    (V : Valuation τ' sig' Val) {y : Ref sig' .tc} (hy : y ∉ W.drop (n + 1)) :
    StableHlo.after ops V (Proc.devRef .tc y) = op.result (StableHlo.after (ops.take n) V) (Proc.devRef .tc y) := by
  rw [after_at h (n + 1) V hy, List.take_succ, hop, after_append]
  rfl

end Generic

/-! ## The host line before the region -/

/-- the reference each of the 92 host operations writes, in order -/
noncomputable def W0 : List (Ref sig .tc) :=
  [main_call0_c, main_call0_v0, main_call0_v1, main_call0_v2, main_call0_v3, main_call0_c_0, main_call0_call0_v0, main_call0_v4, main_call0_v5, main_call0_c_1, main_call0_v6, main_call0_v7, main_call0_c_2, main_call0_v8, main_call0_v9, main_call0_v10, main_call0_c_3, main_call0_v11, main_call0_v12, main_call0_c_4, main_call0_v13, main_call0_v14, main_call0_v15, main_call0_v16, main_call0_v17, main_call0_v18, main_call0_v19, main_call0_v20, main_call0_v21, main_call0_c_5, main_call0_v22, main_call0_v23, main_call0_c_6, main_call0_v24, main_call0_v25, main_call0_v26, main_call0_c_7, main_call0_call1_v0, main_call0_call1_v1, main_call0_v27, main_call0_c_8, main_call0_v28, main_call0_v29, main_call0_c_9, main_call0_v30, main_call0_v31, main_call0_v32, main_call0_v33, main_call0_v34, main_call0_v35, main_call0_v36, main_call0_v37, main_call0_v38, main_call0_v39, main_call0_v40, main_call0_c_10, main_call0_call2_v0, main_call0_v41, main_call0_v42, main_call0_v43, main_call0_v44, main_call0_v45, main_call0_v46, main_call0_v47, main_call0_c_11, main_call0_v48, main_call0_v49, main_call0_c_12, main_call0_v50, main_call0_v51, main_call0_v52, main_call0_c_13, main_call0_call3_v0, main_call0_call3_v1, main_call0_v53, main_call0_c_14, main_call0_v54, main_call0_v55, main_call0_c_15, main_call0_v56, main_call0_v57, main_call0_v58, main_call0_v59, main_call0_v60, main_call0_v61, main_call0_v62, main_call0_v63, main_call0_v64, main_call0_v65, main_call0_v66, main_call0_v67, main_call0_v68]

theorem hW0 : WritesL (τ' := τ) (hostOps0 (F := Ideal)) W0 := by
  unfold WritesL W0
  repeat (first | exact List.Forall₂.nil | refine List.Forall₂.cons rfl ?_)

/-- core `c`'s buffer `r` after the host line -/
abbrev VV (m : (ℓ : Loc nD τ sig) → Buf (Elt Ideal) ℓ) (c : Dev nD) (r : Ref sig .tc) :=
  StableHlo.after (hostOps0 (F := Ideal)) (fun b => m (c, b)) (Proc.devRef .tc r)

theorem V_eq_VV (m : (ℓ : Loc nD τ sig) → Buf (Elt Ideal) ℓ) (c : Dev nD) (r : Ref sig .tc) :
    V (F := Ideal) m c r = VV m c r := by
  show StableHlo.after (List.flatten [hostOps0]) _ _ = _
  rw [List.flatten_cons, List.flatten_nil, List.append_nil]

variable (m : (ℓ : Loc nD τ sig) → Buf (Elt Ideal) ℓ) (c : Dev nD)

/-! ## Each buffer of the first matrix's chain as its operation applied to the buffers it reads -/

theorem E_v3 : (VV m c main_call0_v3 : FVec Ideal S5x5x32 .f32) = shapeCast S5x5x32 (VV m c main_arg1 : FVec Ideal S25x32 .f32) shapeCasts_S25x32_S5x5x32 := by
  unfold VV
  rw [after_step hW0 4 _ rfl _ (by decide), StableHlo.reshape_result, ← after_at hW0 4 _ (r := main_arg1) (by decide)]
  generalize StableHlo.after (hostOps0 (F := Ideal)) _ (Proc.devRef .tc main_arg1) = X0
  exact rfl

theorem E_c_0 : (VV m c main_call0_c_0 : IVec S_ 32) = (constantI S_ 32 0#32) := by
  unfold VV
  rw [after_step hW0 5 _ rfl _ (by decide), StableHlo.nullary_result]
  exact rfl

theorem E_call0_v0 : (VV m c main_call0_call0_v0 : FVec Ideal S_ .f32) = (sitofp (F := Ideal) .f32) (VV m c main_call0_c_0 : IVec S_ 32) := by
  unfold VV
  rw [after_step hW0 6 _ rfl _ (by decide), StableHlo.unary_result, ← after_at hW0 6 _ (r := main_call0_c_0) (by decide)]
  generalize StableHlo.after (hostOps0 (F := Ideal)) _ (Proc.devRef .tc main_call0_c_0) = X0
  exact rfl

theorem E_v4 : (VV m c main_call0_v4 : FVec Ideal S5x6x32 .f32) = (fun x v => pad S5x6x32 ![0, 0, 0] ![0, 1, 0] ![0, 0, 0] x v pads_S5x5x32_S5x6x32_000_010_000 h_S_) (VV m c main_call0_v3 : FVec Ideal S5x5x32 .f32) (VV m c main_call0_call0_v0 : FVec Ideal S_ .f32) := by
  unfold VV
  rw [after_step hW0 7 _ rfl _ (by decide), StableHlo.binary_result, ← after_at hW0 7 _ (r := main_call0_v3) (by decide), ← after_at hW0 7 _ (r := main_call0_call0_v0) (by decide)]
  generalize StableHlo.after (hostOps0 (F := Ideal)) _ (Proc.devRef .tc main_call0_v3) = X0
  generalize StableHlo.after (hostOps0 (F := Ideal)) _ (Proc.devRef .tc main_call0_call0_v0) = X1
  exact rfl

theorem E_v5 : (VV m c main_call0_v5 : IVec S12 32) = (iotaInDim S12 32 0) := by
  unfold VV
  rw [after_step hW0 8 _ rfl _ (by decide), StableHlo.nullary_result]
  exact rfl

theorem E_c_1 : (VV m c main_call0_c_1 : IVec S_ 32) = (constantI S_ 32 2#32) := by
  unfold VV
  rw [after_step hW0 9 _ rfl _ (by decide), StableHlo.nullary_result]
  exact rfl

theorem E_v6 : (VV m c main_call0_v6 : IVec S12 32) = (broadcastInDim S12 ![] bcast_S_S12) (VV m c main_call0_c_1 : IVec S_ 32) := by
  unfold VV
  rw [after_step hW0 10 _ rfl _ (by decide), StableHlo.unary_result, ← after_at hW0 10 _ (r := main_call0_c_1) (by decide)]
  generalize StableHlo.after (hostOps0 (F := Ideal)) _ (Proc.devRef .tc main_call0_c_1) = X0
  exact rfl

theorem E_v7 : (VV m c main_call0_v7 : IVec S12 32) = muli (VV m c main_call0_v6 : IVec S12 32) (VV m c main_call0_v5 : IVec S12 32) := by
  unfold VV
  rw [after_step hW0 11 _ rfl _ (by decide), StableHlo.binary_result, ← after_at hW0 11 _ (r := main_call0_v6) (by decide), ← after_at hW0 11 _ (r := main_call0_v5) (by decide)]
  generalize StableHlo.after (hostOps0 (F := Ideal)) _ (Proc.devRef .tc main_call0_v6) = X0
  generalize StableHlo.after (hostOps0 (F := Ideal)) _ (Proc.devRef .tc main_call0_v5) = X1
  exact rfl

theorem E_c_2 : (VV m c main_call0_c_2 : IVec S_ 32) = (constantI S_ 32 0#32) := by
  unfold VV
  rw [after_step hW0 12 _ rfl _ (by decide), StableHlo.nullary_result]
  exact rfl

theorem E_v8 : (VV m c main_call0_v8 : IVec S12 32) = (broadcastInDim S12 ![] bcast_S_S12) (VV m c main_call0_c_2 : IVec S_ 32) := by
  unfold VV
  rw [after_step hW0 13 _ rfl _ (by decide), StableHlo.unary_result, ← after_at hW0 13 _ (r := main_call0_c_2) (by decide)]
  generalize StableHlo.after (hostOps0 (F := Ideal)) _ (Proc.devRef .tc main_call0_c_2) = X0
  exact rfl

theorem E_v9 : (VV m c main_call0_v9 : IVec S12 32) = addi (VV m c main_call0_v8 : IVec S12 32) (VV m c main_call0_v7 : IVec S12 32) := by
  unfold VV
  rw [after_step hW0 14 _ rfl _ (by decide), StableHlo.binary_result, ← after_at hW0 14 _ (r := main_call0_v8) (by decide), ← after_at hW0 14 _ (r := main_call0_v7) (by decide)]
  generalize StableHlo.after (hostOps0 (F := Ideal)) _ (Proc.devRef .tc main_call0_v8) = X0
  generalize StableHlo.after (hostOps0 (F := Ideal)) _ (Proc.devRef .tc main_call0_v7) = X1
  exact rfl

theorem E_v10 : (VV m c main_call0_v10 : IVec S12 32) = (iotaInDim S12 32 0) := by
  unfold VV
  rw [after_step hW0 15 _ rfl _ (by decide), StableHlo.nullary_result]
  exact rfl

theorem E_c_3 : (VV m c main_call0_c_3 : IVec S_ 32) = (constantI S_ 32 2#32) := by
  unfold VV
  rw [after_step hW0 16 _ rfl _ (by decide), StableHlo.nullary_result]
  exact rfl

theorem E_v11 : (VV m c main_call0_v11 : IVec S12 32) = (broadcastInDim S12 ![] bcast_S_S12) (VV m c main_call0_c_3 : IVec S_ 32) := by
  unfold VV
  rw [after_step hW0 17 _ rfl _ (by decide), StableHlo.unary_result, ← after_at hW0 17 _ (r := main_call0_c_3) (by decide)]
  generalize StableHlo.after (hostOps0 (F := Ideal)) _ (Proc.devRef .tc main_call0_c_3) = X0
  exact rfl

theorem E_v12 : (VV m c main_call0_v12 : IVec S12 32) = muli (VV m c main_call0_v11 : IVec S12 32) (VV m c main_call0_v10 : IVec S12 32) := by
  unfold VV
  rw [after_step hW0 18 _ rfl _ (by decide), StableHlo.binary_result, ← after_at hW0 18 _ (r := main_call0_v11) (by decide), ← after_at hW0 18 _ (r := main_call0_v10) (by decide)]
  generalize StableHlo.after (hostOps0 (F := Ideal)) _ (Proc.devRef .tc main_call0_v11) = X0
  generalize StableHlo.after (hostOps0 (F := Ideal)) _ (Proc.devRef .tc main_call0_v10) = X1
  exact rfl

theorem E_c_4 : (VV m c main_call0_c_4 : IVec S_ 32) = (constantI S_ 32 1#32) := by
  unfold VV
  rw [after_step hW0 19 _ rfl _ (by decide), StableHlo.nullary_result]
  exact rfl

theorem E_v13 : (VV m c main_call0_v13 : IVec S12 32) = (broadcastInDim S12 ![] bcast_S_S12) (VV m c main_call0_c_4 : IVec S_ 32) := by
  unfold VV
  rw [after_step hW0 20 _ rfl _ (by decide), StableHlo.unary_result, ← after_at hW0 20 _ (r := main_call0_c_4) (by decide)]
  generalize StableHlo.after (hostOps0 (F := Ideal)) _ (Proc.devRef .tc main_call0_c_4) = X0
  exact rfl

theorem E_v14 : (VV m c main_call0_v14 : IVec S12 32) = addi (VV m c main_call0_v13 : IVec S12 32) (VV m c main_call0_v12 : IVec S12 32) := by
  unfold VV
  rw [after_step hW0 21 _ rfl _ (by decide), StableHlo.binary_result, ← after_at hW0 21 _ (r := main_call0_v13) (by decide), ← after_at hW0 21 _ (r := main_call0_v12) (by decide)]
  generalize StableHlo.after (hostOps0 (F := Ideal)) _ (Proc.devRef .tc main_call0_v13) = X0
  generalize StableHlo.after (hostOps0 (F := Ideal)) _ (Proc.devRef .tc main_call0_v12) = X1
  exact rfl

theorem E_v15 : (VV m c main_call0_v15 : IVec S24 32) = (fun a b => concatenate S24 0 [⟨S12, a⟩, ⟨S12, b⟩] concatenates_S12_S12_S24_d0) (VV m c main_call0_v9 : IVec S12 32) (VV m c main_call0_v14 : IVec S12 32) := by
  unfold VV
  rw [after_step hW0 22 _ rfl _ (by decide), StableHlo.binary_result, ← after_at hW0 22 _ (r := main_call0_v9) (by decide), ← after_at hW0 22 _ (r := main_call0_v14) (by decide)]
  generalize StableHlo.after (hostOps0 (F := Ideal)) _ (Proc.devRef .tc main_call0_v9) = X0
  generalize StableHlo.after (hostOps0 (F := Ideal)) _ (Proc.devRef .tc main_call0_v14) = X1
  exact rfl

theorem E_v16 : (VV m c main_call0_v16 : IVec S28 32) = (iotaInDim S28 32 0) := by
  unfold VV
  rw [after_step hW0 23 _ rfl _ (by decide), StableHlo.nullary_result]
  exact rfl

theorem E_v17 : (VV m c main_call0_v17 : IVec S28x1 32) = (broadcastInDim S28x1 ![0] bcast_S28_S28x1_0) (VV m c main_call0_v16 : IVec S28 32) := by
  unfold VV
  rw [after_step hW0 24 _ rfl _ (by decide), StableHlo.unary_result, ← after_at hW0 24 _ (r := main_call0_v16) (by decide)]
  generalize StableHlo.after (hostOps0 (F := Ideal)) _ (Proc.devRef .tc main_call0_v16) = X0
  exact rfl

theorem E_v18 : (VV m c main_call0_v18 : IVec S1x24 32) = (broadcastInDim S1x24 ![1] bcast_S24_S1x24_1) (VV m c main_call0_v15 : IVec S24 32) := by
  unfold VV
  rw [after_step hW0 25 _ rfl _ (by decide), StableHlo.unary_result, ← after_at hW0 25 _ (r := main_call0_v15) (by decide)]
  generalize StableHlo.after (hostOps0 (F := Ideal)) _ (Proc.devRef .tc main_call0_v15) = X0
  exact rfl

theorem E_v19 : (VV m c main_call0_v19 : IVec S28x24 32) = (broadcastInDim S28x24 ![0, 1] bcast_S28x1_S28x24_0_1) (VV m c main_call0_v17 : IVec S28x1 32) := by
  unfold VV
  rw [after_step hW0 26 _ rfl _ (by decide), StableHlo.unary_result, ← after_at hW0 26 _ (r := main_call0_v17) (by decide)]
  generalize StableHlo.after (hostOps0 (F := Ideal)) _ (Proc.devRef .tc main_call0_v17) = X0
  exact rfl

theorem E_v20 : (VV m c main_call0_v20 : IVec S28x24 32) = (broadcastInDim S28x24 ![0, 1] bcast_S1x24_S28x24_0_1) (VV m c main_call0_v18 : IVec S1x24 32) := by
  unfold VV
  rw [after_step hW0 27 _ rfl _ (by decide), StableHlo.unary_result, ← after_at hW0 27 _ (r := main_call0_v18) (by decide)]
  generalize StableHlo.after (hostOps0 (F := Ideal)) _ (Proc.devRef .tc main_call0_v18) = X0
  exact rfl

theorem E_v21 : (VV m c main_call0_v21 : IVec S28x24 32) = subi (VV m c main_call0_v19 : IVec S28x24 32) (VV m c main_call0_v20 : IVec S28x24 32) := by
  unfold VV
  rw [after_step hW0 28 _ rfl _ (by decide), StableHlo.binary_result, ← after_at hW0 28 _ (r := main_call0_v19) (by decide), ← after_at hW0 28 _ (r := main_call0_v20) (by decide)]
  generalize StableHlo.after (hostOps0 (F := Ideal)) _ (Proc.devRef .tc main_call0_v19) = X0
  generalize StableHlo.after (hostOps0 (F := Ideal)) _ (Proc.devRef .tc main_call0_v20) = X1
  exact rfl

theorem E_c_5 : (VV m c main_call0_c_5 : IVec S_ 32) = (constantI S_ 32 0#32) := by
  unfold VV
  rw [after_step hW0 29 _ rfl _ (by decide), StableHlo.nullary_result]
  exact rfl

theorem E_v22 : (VV m c main_call0_v22 : IVec S28x24 32) = (broadcastInDim S28x24 ![] bcast_S_S28x24) (VV m c main_call0_c_5 : IVec S_ 32) := by
  unfold VV
  rw [after_step hW0 30 _ rfl _ (by decide), StableHlo.unary_result, ← after_at hW0 30 _ (r := main_call0_c_5) (by decide)]
  generalize StableHlo.after (hostOps0 (F := Ideal)) _ (Proc.devRef .tc main_call0_c_5) = X0
  exact rfl

theorem E_v23 : (VV m c main_call0_v23 : IVec S28x24 1) = (cmpi .sge) (VV m c main_call0_v21 : IVec S28x24 32) (VV m c main_call0_v22 : IVec S28x24 32) := by
  unfold VV
  rw [after_step hW0 31 _ rfl _ (by decide), StableHlo.binary_result, ← after_at hW0 31 _ (r := main_call0_v21) (by decide), ← after_at hW0 31 _ (r := main_call0_v22) (by decide)]
  generalize StableHlo.after (hostOps0 (F := Ideal)) _ (Proc.devRef .tc main_call0_v21) = X0
  generalize StableHlo.after (hostOps0 (F := Ideal)) _ (Proc.devRef .tc main_call0_v22) = X1
  exact rfl

theorem E_c_6 : (VV m c main_call0_c_6 : IVec S_ 32) = (constantI S_ 32 5#32) := by
  unfold VV
  rw [after_step hW0 32 _ rfl _ (by decide), StableHlo.nullary_result]
  exact rfl

theorem E_v24 : (VV m c main_call0_v24 : IVec S28x24 32) = (broadcastInDim S28x24 ![] bcast_S_S28x24) (VV m c main_call0_c_6 : IVec S_ 32) := by
  unfold VV
  rw [after_step hW0 33 _ rfl _ (by decide), StableHlo.unary_result, ← after_at hW0 33 _ (r := main_call0_c_6) (by decide)]
  generalize StableHlo.after (hostOps0 (F := Ideal)) _ (Proc.devRef .tc main_call0_c_6) = X0
  exact rfl

theorem E_v25 : (VV m c main_call0_v25 : IVec S28x24 1) = (cmpi .slt) (VV m c main_call0_v21 : IVec S28x24 32) (VV m c main_call0_v24 : IVec S28x24 32) := by
  unfold VV
  rw [after_step hW0 34 _ rfl _ (by decide), StableHlo.binary_result, ← after_at hW0 34 _ (r := main_call0_v21) (by decide), ← after_at hW0 34 _ (r := main_call0_v24) (by decide)]
  generalize StableHlo.after (hostOps0 (F := Ideal)) _ (Proc.devRef .tc main_call0_v21) = X0
  generalize StableHlo.after (hostOps0 (F := Ideal)) _ (Proc.devRef .tc main_call0_v24) = X1
  exact rfl

theorem E_v26 : (VV m c main_call0_v26 : IVec S28x24 1) = andi (VV m c main_call0_v23 : IVec S28x24 1) (VV m c main_call0_v25 : IVec S28x24 1) := by
  unfold VV
  rw [after_step hW0 35 _ rfl _ (by decide), StableHlo.binary_result, ← after_at hW0 35 _ (r := main_call0_v23) (by decide), ← after_at hW0 35 _ (r := main_call0_v25) (by decide)]
  generalize StableHlo.after (hostOps0 (F := Ideal)) _ (Proc.devRef .tc main_call0_v23) = X0
  generalize StableHlo.after (hostOps0 (F := Ideal)) _ (Proc.devRef .tc main_call0_v25) = X1
  exact rfl

theorem E_c_7 : (VV m c main_call0_c_7 : IVec S_ 32) = (constantI S_ 32 5#32) := by
  unfold VV
  rw [after_step hW0 36 _ rfl _ (by decide), StableHlo.nullary_result]
  exact rfl

theorem E_call1_v0 : (VV m c main_call0_call1_v0 : IVec S_ 32) = id (VV m c main_call0_c_7 : IVec S_ 32) := by
  unfold VV
  rw [after_step hW0 37 _ rfl _ (by decide), StableHlo.unary_result, ← after_at hW0 37 _ (r := main_call0_c_7) (by decide)]
  generalize StableHlo.after (hostOps0 (F := Ideal)) _ (Proc.devRef .tc main_call0_c_7) = X0
  exact rfl

theorem E_call1_v1 : (VV m c main_call0_call1_v1 : IVec S28x24 32) = (broadcastInDim S28x24 ![] bcast_S_S28x24) (VV m c main_call0_call1_v0 : IVec S_ 32) := by
  unfold VV
  rw [after_step hW0 38 _ rfl _ (by decide), StableHlo.unary_result, ← after_at hW0 38 _ (r := main_call0_call1_v0) (by decide)]
  generalize StableHlo.after (hostOps0 (F := Ideal)) _ (Proc.devRef .tc main_call0_call1_v0) = X0
  exact rfl

theorem E_v27 : (VV m c main_call0_v27 : IVec S28x24 32) = select (VV m c main_call0_v26 : IVec S28x24 1) (VV m c main_call0_v21 : IVec S28x24 32) (VV m c main_call0_call1_v1 : IVec S28x24 32) := by
  unfold VV
  rw [after_step hW0 39 _ rfl _ (by decide), StableHlo.ternary_result, ← after_at hW0 39 _ (r := main_call0_v26) (by decide), ← after_at hW0 39 _ (r := main_call0_v21) (by decide), ← after_at hW0 39 _ (r := main_call0_call1_v1) (by decide)]
  generalize StableHlo.after (hostOps0 (F := Ideal)) _ (Proc.devRef .tc main_call0_v26) = X0
  generalize StableHlo.after (hostOps0 (F := Ideal)) _ (Proc.devRef .tc main_call0_v21) = X1
  generalize StableHlo.after (hostOps0 (F := Ideal)) _ (Proc.devRef .tc main_call0_call1_v1) = X2
  exact rfl

theorem E_c_8 : (VV m c main_call0_c_8 : IVec S_ 32) = (constantI S_ 32 0#32) := by
  unfold VV
  rw [after_step hW0 40 _ rfl _ (by decide), StableHlo.nullary_result]
  exact rfl

theorem E_v28 : (VV m c main_call0_v28 : IVec S28x24 32) = (broadcastInDim S28x24 ![] bcast_S_S28x24) (VV m c main_call0_c_8 : IVec S_ 32) := by
  unfold VV
  rw [after_step hW0 41 _ rfl _ (by decide), StableHlo.unary_result, ← after_at hW0 41 _ (r := main_call0_c_8) (by decide)]
  generalize StableHlo.after (hostOps0 (F := Ideal)) _ (Proc.devRef .tc main_call0_c_8) = X0
  exact rfl

theorem E_v29 : (VV m c main_call0_v29 : IVec S28x24 1) = (cmpi .slt) (VV m c main_call0_v27 : IVec S28x24 32) (VV m c main_call0_v28 : IVec S28x24 32) := by
  unfold VV
  rw [after_step hW0 42 _ rfl _ (by decide), StableHlo.binary_result, ← after_at hW0 42 _ (r := main_call0_v27) (by decide), ← after_at hW0 42 _ (r := main_call0_v28) (by decide)]
  generalize StableHlo.after (hostOps0 (F := Ideal)) _ (Proc.devRef .tc main_call0_v27) = X0
  generalize StableHlo.after (hostOps0 (F := Ideal)) _ (Proc.devRef .tc main_call0_v28) = X1
  exact rfl

theorem E_c_9 : (VV m c main_call0_c_9 : IVec S_ 32) = (constantI S_ 32 6#32) := by
  unfold VV
  rw [after_step hW0 43 _ rfl _ (by decide), StableHlo.nullary_result]
  exact rfl

theorem E_v30 : (VV m c main_call0_v30 : IVec S28x24 32) = (broadcastInDim S28x24 ![] bcast_S_S28x24) (VV m c main_call0_c_9 : IVec S_ 32) := by
  unfold VV
  rw [after_step hW0 44 _ rfl _ (by decide), StableHlo.unary_result, ← after_at hW0 44 _ (r := main_call0_c_9) (by decide)]
  generalize StableHlo.after (hostOps0 (F := Ideal)) _ (Proc.devRef .tc main_call0_c_9) = X0
  exact rfl

theorem E_v31 : (VV m c main_call0_v31 : IVec S28x24 32) = addi (VV m c main_call0_v27 : IVec S28x24 32) (VV m c main_call0_v30 : IVec S28x24 32) := by
  unfold VV
  rw [after_step hW0 45 _ rfl _ (by decide), StableHlo.binary_result, ← after_at hW0 45 _ (r := main_call0_v27) (by decide), ← after_at hW0 45 _ (r := main_call0_v30) (by decide)]
  generalize StableHlo.after (hostOps0 (F := Ideal)) _ (Proc.devRef .tc main_call0_v27) = X0
  generalize StableHlo.after (hostOps0 (F := Ideal)) _ (Proc.devRef .tc main_call0_v30) = X1
  exact rfl

theorem E_v32 : (VV m c main_call0_v32 : IVec S28x24 32) = select (VV m c main_call0_v29 : IVec S28x24 1) (VV m c main_call0_v31 : IVec S28x24 32) (VV m c main_call0_v27 : IVec S28x24 32) := by
  unfold VV
  rw [after_step hW0 46 _ rfl _ (by decide), StableHlo.ternary_result, ← after_at hW0 46 _ (r := main_call0_v29) (by decide), ← after_at hW0 46 _ (r := main_call0_v31) (by decide), ← after_at hW0 46 _ (r := main_call0_v27) (by decide)]
  generalize StableHlo.after (hostOps0 (F := Ideal)) _ (Proc.devRef .tc main_call0_v29) = X0
  generalize StableHlo.after (hostOps0 (F := Ideal)) _ (Proc.devRef .tc main_call0_v31) = X1
  generalize StableHlo.after (hostOps0 (F := Ideal)) _ (Proc.devRef .tc main_call0_v27) = X2
  exact rfl

theorem E_v33 : (VV m c main_call0_v33 : IVec S28x24x1 32) = (broadcastInDim S28x24x1 ![0, 1] bcast_S28x24_S28x24x1_0_1) (VV m c main_call0_v32 : IVec S28x24 32) := by
  unfold VV
  rw [after_step hW0 47 _ rfl _ (by decide), StableHlo.unary_result, ← after_at hW0 47 _ (r := main_call0_v32) (by decide)]
  generalize StableHlo.after (hostOps0 (F := Ideal)) _ (Proc.devRef .tc main_call0_v32) = X0
  exact rfl

theorem E_v34 : (VV m c main_call0_v34 : FVec Ideal S5x28x24x32 .f32) = (fun x i => Host.gather gather_S5x6x32_S28x24x1_S5x28x24x32_03_1_n_n_1_2_5132 x i) (VV m c main_call0_v4 : FVec Ideal S5x6x32 .f32) (VV m c main_call0_v33 : IVec S28x24x1 32) := by
  unfold VV
  rw [after_step hW0 48 _ rfl _ (by decide), StableHlo.binary_result, ← after_at hW0 48 _ (r := main_call0_v4) (by decide), ← after_at hW0 48 _ (r := main_call0_v33) (by decide)]
  generalize StableHlo.after (hostOps0 (F := Ideal)) _ (Proc.devRef .tc main_call0_v4) = X0
  generalize StableHlo.after (hostOps0 (F := Ideal)) _ (Proc.devRef .tc main_call0_v33) = X1
  exact rfl

theorem E_v35 : (VV m c main_call0_v35 : FVec Ideal S140x768 .f32) = shapeCast S140x768 (VV m c main_call0_v34 : FVec Ideal S5x28x24x32 .f32) shapeCasts_S5x28x24x32_S140x768 := by
  unfold VV
  rw [after_step hW0 49 _ rfl _ (by decide), StableHlo.reshape_result, ← after_at hW0 49 _ (r := main_call0_v34) (by decide)]
  generalize StableHlo.after (hostOps0 (F := Ideal)) _ (Proc.devRef .tc main_call0_v34) = X0
  exact rfl

theorem E_v36 : (VV m c main_call0_v36 : FVec Ideal S140x768 .bf16) = (fun x => truncf (F := Ideal) .bf16 x bitsLt_bf16_f32) (VV m c main_call0_v35 : FVec Ideal S140x768 .f32) := by
  unfold VV
  rw [after_step hW0 50 _ rfl _ (by decide), StableHlo.unary_result, ← after_at hW0 50 _ (r := main_call0_v35) (by decide)]
  generalize StableHlo.after (hostOps0 (F := Ideal)) _ (Proc.devRef .tc main_call0_v35) = X0
  exact rfl

/-! ## The same for the second matrix's chain -/

theorem E_c : (VV m c main_call0_c : IVec S4 32) = (fun i => lit0 (S4.rowMajor i)) := by
  unfold VV
  rw [after_step hW0 0 _ rfl _ (by decide), StableHlo.nullary_result]
  exact rfl

theorem E_v40 : (VV m c main_call0_v40 : FVec Ideal S5x5x32x64 .f32) = shapeCast S5x5x32x64 (VV m c main_arg3 : FVec Ideal S800x64 .f32) shapeCasts_S800x64_S5x5x32x64 := by
  unfold VV
  rw [after_step hW0 54 _ rfl _ (by decide), StableHlo.reshape_result, ← after_at hW0 54 _ (r := main_arg3) (by decide)]
  generalize StableHlo.after (hostOps0 (F := Ideal)) _ (Proc.devRef .tc main_arg3) = X0
  exact rfl

theorem E_c_10 : (VV m c main_call0_c_10 : IVec S_ 32) = (constantI S_ 32 0#32) := by
  unfold VV
  rw [after_step hW0 55 _ rfl _ (by decide), StableHlo.nullary_result]
  exact rfl

theorem E_call2_v0 : (VV m c main_call0_call2_v0 : FVec Ideal S_ .f32) = (sitofp (F := Ideal) .f32) (VV m c main_call0_c_10 : IVec S_ 32) := by
  unfold VV
  rw [after_step hW0 56 _ rfl _ (by decide), StableHlo.unary_result, ← after_at hW0 56 _ (r := main_call0_c_10) (by decide)]
  generalize StableHlo.after (hostOps0 (F := Ideal)) _ (Proc.devRef .tc main_call0_c_10) = X0
  exact rfl

theorem E_v41 : (VV m c main_call0_v41 : FVec Ideal S5x6x32x64 .f32) = (fun x v => pad S5x6x32x64 ![0, 0, 0, 0] ![0, 1, 0, 0] ![0, 0, 0, 0] x v pads_S5x5x32x64_S5x6x32x64_000_010_000_000 h_S_) (VV m c main_call0_v40 : FVec Ideal S5x5x32x64 .f32) (VV m c main_call0_call2_v0 : FVec Ideal S_ .f32) := by
  unfold VV
  rw [after_step hW0 57 _ rfl _ (by decide), StableHlo.binary_result, ← after_at hW0 57 _ (r := main_call0_v40) (by decide), ← after_at hW0 57 _ (r := main_call0_call2_v0) (by decide)]
  generalize StableHlo.after (hostOps0 (F := Ideal)) _ (Proc.devRef .tc main_call0_v40) = X0
  generalize StableHlo.after (hostOps0 (F := Ideal)) _ (Proc.devRef .tc main_call0_call2_v0) = X1
  exact rfl

theorem E_v42 : (VV m c main_call0_v42 : IVec S8 32) = (iotaInDim S8 32 0) := by
  unfold VV
  rw [after_step hW0 58 _ rfl _ (by decide), StableHlo.nullary_result]
  exact rfl

theorem E_v43 : (VV m c main_call0_v43 : IVec S8x1 32) = (broadcastInDim S8x1 ![0] bcast_S8_S8x1_0) (VV m c main_call0_v42 : IVec S8 32) := by
  unfold VV
  rw [after_step hW0 59 _ rfl _ (by decide), StableHlo.unary_result, ← after_at hW0 59 _ (r := main_call0_v42) (by decide)]
  generalize StableHlo.after (hostOps0 (F := Ideal)) _ (Proc.devRef .tc main_call0_v42) = X0
  exact rfl

theorem E_v44 : (VV m c main_call0_v44 : IVec S1x4 32) = (broadcastInDim S1x4 ![1] bcast_S4_S1x4_1) (VV m c main_call0_c : IVec S4 32) := by
  unfold VV
  rw [after_step hW0 60 _ rfl _ (by decide), StableHlo.unary_result, ← after_at hW0 60 _ (r := main_call0_c) (by decide)]
  generalize StableHlo.after (hostOps0 (F := Ideal)) _ (Proc.devRef .tc main_call0_c) = X0
  exact rfl

theorem E_v45 : (VV m c main_call0_v45 : IVec S8x4 32) = (broadcastInDim S8x4 ![0, 1] bcast_S8x1_S8x4_0_1) (VV m c main_call0_v43 : IVec S8x1 32) := by
  unfold VV
  rw [after_step hW0 61 _ rfl _ (by decide), StableHlo.unary_result, ← after_at hW0 61 _ (r := main_call0_v43) (by decide)]
  generalize StableHlo.after (hostOps0 (F := Ideal)) _ (Proc.devRef .tc main_call0_v43) = X0
  exact rfl

theorem E_v46 : (VV m c main_call0_v46 : IVec S8x4 32) = (broadcastInDim S8x4 ![0, 1] bcast_S1x4_S8x4_0_1) (VV m c main_call0_v44 : IVec S1x4 32) := by
  unfold VV
  rw [after_step hW0 62 _ rfl _ (by decide), StableHlo.unary_result, ← after_at hW0 62 _ (r := main_call0_v44) (by decide)]
  generalize StableHlo.after (hostOps0 (F := Ideal)) _ (Proc.devRef .tc main_call0_v44) = X0
  exact rfl

theorem E_v47 : (VV m c main_call0_v47 : IVec S8x4 32) = subi (VV m c main_call0_v45 : IVec S8x4 32) (VV m c main_call0_v46 : IVec S8x4 32) := by
  unfold VV
  rw [after_step hW0 63 _ rfl _ (by decide), StableHlo.binary_result, ← after_at hW0 63 _ (r := main_call0_v45) (by decide), ← after_at hW0 63 _ (r := main_call0_v46) (by decide)]
  generalize StableHlo.after (hostOps0 (F := Ideal)) _ (Proc.devRef .tc main_call0_v45) = X0
  generalize StableHlo.after (hostOps0 (F := Ideal)) _ (Proc.devRef .tc main_call0_v46) = X1
  exact rfl

theorem E_c_11 : (VV m c main_call0_c_11 : IVec S_ 32) = (constantI S_ 32 0#32) := by
  unfold VV
  rw [after_step hW0 64 _ rfl _ (by decide), StableHlo.nullary_result]
  exact rfl

theorem E_v48 : (VV m c main_call0_v48 : IVec S8x4 32) = (broadcastInDim S8x4 ![] bcast_S_S8x4) (VV m c main_call0_c_11 : IVec S_ 32) := by
  unfold VV
  rw [after_step hW0 65 _ rfl _ (by decide), StableHlo.unary_result, ← after_at hW0 65 _ (r := main_call0_c_11) (by decide)]
  generalize StableHlo.after (hostOps0 (F := Ideal)) _ (Proc.devRef .tc main_call0_c_11) = X0
  exact rfl

theorem E_v49 : (VV m c main_call0_v49 : IVec S8x4 1) = (cmpi .sge) (VV m c main_call0_v47 : IVec S8x4 32) (VV m c main_call0_v48 : IVec S8x4 32) := by
  unfold VV
  rw [after_step hW0 66 _ rfl _ (by decide), StableHlo.binary_result, ← after_at hW0 66 _ (r := main_call0_v47) (by decide), ← after_at hW0 66 _ (r := main_call0_v48) (by decide)]
  generalize StableHlo.after (hostOps0 (F := Ideal)) _ (Proc.devRef .tc main_call0_v47) = X0
  generalize StableHlo.after (hostOps0 (F := Ideal)) _ (Proc.devRef .tc main_call0_v48) = X1
  exact rfl

theorem E_c_12 : (VV m c main_call0_c_12 : IVec S_ 32) = (constantI S_ 32 5#32) := by
  unfold VV
  rw [after_step hW0 67 _ rfl _ (by decide), StableHlo.nullary_result]
  exact rfl

theorem E_v50 : (VV m c main_call0_v50 : IVec S8x4 32) = (broadcastInDim S8x4 ![] bcast_S_S8x4) (VV m c main_call0_c_12 : IVec S_ 32) := by
  unfold VV
  rw [after_step hW0 68 _ rfl _ (by decide), StableHlo.unary_result, ← after_at hW0 68 _ (r := main_call0_c_12) (by decide)]
  generalize StableHlo.after (hostOps0 (F := Ideal)) _ (Proc.devRef .tc main_call0_c_12) = X0
  exact rfl

theorem E_v51 : (VV m c main_call0_v51 : IVec S8x4 1) = (cmpi .slt) (VV m c main_call0_v47 : IVec S8x4 32) (VV m c main_call0_v50 : IVec S8x4 32) := by
  unfold VV
  rw [after_step hW0 69 _ rfl _ (by decide), StableHlo.binary_result, ← after_at hW0 69 _ (r := main_call0_v47) (by decide), ← after_at hW0 69 _ (r := main_call0_v50) (by decide)]
  generalize StableHlo.after (hostOps0 (F := Ideal)) _ (Proc.devRef .tc main_call0_v47) = X0
  generalize StableHlo.after (hostOps0 (F := Ideal)) _ (Proc.devRef .tc main_call0_v50) = X1
  exact rfl

theorem E_v52 : (VV m c main_call0_v52 : IVec S8x4 1) = andi (VV m c main_call0_v49 : IVec S8x4 1) (VV m c main_call0_v51 : IVec S8x4 1) := by
  unfold VV
  rw [after_step hW0 70 _ rfl _ (by decide), StableHlo.binary_result, ← after_at hW0 70 _ (r := main_call0_v49) (by decide), ← after_at hW0 70 _ (r := main_call0_v51) (by decide)]
  generalize StableHlo.after (hostOps0 (F := Ideal)) _ (Proc.devRef .tc main_call0_v49) = X0
  generalize StableHlo.after (hostOps0 (F := Ideal)) _ (Proc.devRef .tc main_call0_v51) = X1
  exact rfl

theorem E_c_13 : (VV m c main_call0_c_13 : IVec S_ 32) = (constantI S_ 32 5#32) := by
  unfold VV
  rw [after_step hW0 71 _ rfl _ (by decide), StableHlo.nullary_result]
  exact rfl

theorem E_call3_v0 : (VV m c main_call0_call3_v0 : IVec S_ 32) = id (VV m c main_call0_c_13 : IVec S_ 32) := by
  unfold VV
  rw [after_step hW0 72 _ rfl _ (by decide), StableHlo.unary_result, ← after_at hW0 72 _ (r := main_call0_c_13) (by decide)]
  generalize StableHlo.after (hostOps0 (F := Ideal)) _ (Proc.devRef .tc main_call0_c_13) = X0
  exact rfl

theorem E_call3_v1 : (VV m c main_call0_call3_v1 : IVec S8x4 32) = (broadcastInDim S8x4 ![] bcast_S_S8x4) (VV m c main_call0_call3_v0 : IVec S_ 32) := by
  unfold VV
  rw [after_step hW0 73 _ rfl _ (by decide), StableHlo.unary_result, ← after_at hW0 73 _ (r := main_call0_call3_v0) (by decide)]
  generalize StableHlo.after (hostOps0 (F := Ideal)) _ (Proc.devRef .tc main_call0_call3_v0) = X0
  exact rfl

theorem E_v53 : (VV m c main_call0_v53 : IVec S8x4 32) = select (VV m c main_call0_v52 : IVec S8x4 1) (VV m c main_call0_v47 : IVec S8x4 32) (VV m c main_call0_call3_v1 : IVec S8x4 32) := by
  unfold VV
  rw [after_step hW0 74 _ rfl _ (by decide), StableHlo.ternary_result, ← after_at hW0 74 _ (r := main_call0_v52) (by decide), ← after_at hW0 74 _ (r := main_call0_v47) (by decide), ← after_at hW0 74 _ (r := main_call0_call3_v1) (by decide)]
  generalize StableHlo.after (hostOps0 (F := Ideal)) _ (Proc.devRef .tc main_call0_v52) = X0
  generalize StableHlo.after (hostOps0 (F := Ideal)) _ (Proc.devRef .tc main_call0_v47) = X1
  generalize StableHlo.after (hostOps0 (F := Ideal)) _ (Proc.devRef .tc main_call0_call3_v1) = X2
  exact rfl

theorem E_c_14 : (VV m c main_call0_c_14 : IVec S_ 32) = (constantI S_ 32 0#32) := by
  unfold VV
  rw [after_step hW0 75 _ rfl _ (by decide), StableHlo.nullary_result]
  exact rfl

theorem E_v54 : (VV m c main_call0_v54 : IVec S8x4 32) = (broadcastInDim S8x4 ![] bcast_S_S8x4) (VV m c main_call0_c_14 : IVec S_ 32) := by
  unfold VV
  rw [after_step hW0 76 _ rfl _ (by decide), StableHlo.unary_result, ← after_at hW0 76 _ (r := main_call0_c_14) (by decide)]
  generalize StableHlo.after (hostOps0 (F := Ideal)) _ (Proc.devRef .tc main_call0_c_14) = X0
  exact rfl

theorem E_v55 : (VV m c main_call0_v55 : IVec S8x4 1) = (cmpi .slt) (VV m c main_call0_v53 : IVec S8x4 32) (VV m c main_call0_v54 : IVec S8x4 32) := by
  unfold VV
  rw [after_step hW0 77 _ rfl _ (by decide), StableHlo.binary_result, ← after_at hW0 77 _ (r := main_call0_v53) (by decide), ← after_at hW0 77 _ (r := main_call0_v54) (by decide)]
  generalize StableHlo.after (hostOps0 (F := Ideal)) _ (Proc.devRef .tc main_call0_v53) = X0
  generalize StableHlo.after (hostOps0 (F := Ideal)) _ (Proc.devRef .tc main_call0_v54) = X1
  exact rfl

theorem E_c_15 : (VV m c main_call0_c_15 : IVec S_ 32) = (constantI S_ 32 6#32) := by
  unfold VV
  rw [after_step hW0 78 _ rfl _ (by decide), StableHlo.nullary_result]
  exact rfl

theorem E_v56 : (VV m c main_call0_v56 : IVec S8x4 32) = (broadcastInDim S8x4 ![] bcast_S_S8x4) (VV m c main_call0_c_15 : IVec S_ 32) := by
  unfold VV
  rw [after_step hW0 79 _ rfl _ (by decide), StableHlo.unary_result, ← after_at hW0 79 _ (r := main_call0_c_15) (by decide)]
  generalize StableHlo.after (hostOps0 (F := Ideal)) _ (Proc.devRef .tc main_call0_c_15) = X0
  exact rfl

theorem E_v57 : (VV m c main_call0_v57 : IVec S8x4 32) = addi (VV m c main_call0_v53 : IVec S8x4 32) (VV m c main_call0_v56 : IVec S8x4 32) := by
  unfold VV
  rw [after_step hW0 80 _ rfl _ (by decide), StableHlo.binary_result, ← after_at hW0 80 _ (r := main_call0_v53) (by decide), ← after_at hW0 80 _ (r := main_call0_v56) (by decide)]
  generalize StableHlo.after (hostOps0 (F := Ideal)) _ (Proc.devRef .tc main_call0_v53) = X0
  generalize StableHlo.after (hostOps0 (F := Ideal)) _ (Proc.devRef .tc main_call0_v56) = X1
  exact rfl

theorem E_v58 : (VV m c main_call0_v58 : IVec S8x4 32) = select (VV m c main_call0_v55 : IVec S8x4 1) (VV m c main_call0_v57 : IVec S8x4 32) (VV m c main_call0_v53 : IVec S8x4 32) := by
  unfold VV
  rw [after_step hW0 81 _ rfl _ (by decide), StableHlo.ternary_result, ← after_at hW0 81 _ (r := main_call0_v55) (by decide), ← after_at hW0 81 _ (r := main_call0_v57) (by decide), ← after_at hW0 81 _ (r := main_call0_v53) (by decide)]
  generalize StableHlo.after (hostOps0 (F := Ideal)) _ (Proc.devRef .tc main_call0_v55) = X0
  generalize StableHlo.after (hostOps0 (F := Ideal)) _ (Proc.devRef .tc main_call0_v57) = X1
  generalize StableHlo.after (hostOps0 (F := Ideal)) _ (Proc.devRef .tc main_call0_v53) = X2
  exact rfl

theorem E_v59 : (VV m c main_call0_v59 : IVec S8x4x1 32) = (broadcastInDim S8x4x1 ![0, 1] bcast_S8x4_S8x4x1_0_1) (VV m c main_call0_v58 : IVec S8x4 32) := by
  unfold VV
  rw [after_step hW0 82 _ rfl _ (by decide), StableHlo.unary_result, ← after_at hW0 82 _ (r := main_call0_v58) (by decide)]
  generalize StableHlo.after (hostOps0 (F := Ideal)) _ (Proc.devRef .tc main_call0_v58) = X0
  exact rfl

theorem E_v60 : (VV m c main_call0_v60 : FVec Ideal S5x8x4x32x64 .f32) = (fun x i => Host.gather gather_S5x6x32x64_S8x4x1_S5x8x4x32x64_034_1_n_n_1_2_513264 x i) (VV m c main_call0_v41 : FVec Ideal S5x6x32x64 .f32) (VV m c main_call0_v59 : IVec S8x4x1 32) := by
  unfold VV
  rw [after_step hW0 83 _ rfl _ (by decide), StableHlo.binary_result, ← after_at hW0 83 _ (r := main_call0_v41) (by decide), ← after_at hW0 83 _ (r := main_call0_v59) (by decide)]
  generalize StableHlo.after (hostOps0 (F := Ideal)) _ (Proc.devRef .tc main_call0_v41) = X0
  generalize StableHlo.after (hostOps0 (F := Ideal)) _ (Proc.devRef .tc main_call0_v59) = X1
  exact rfl

theorem E_v61 : (VV m c main_call0_v61 : FVec Ideal S5x8x32x4x64 .f32) = (transpose S5x8x32x4x64 [0, 1, 3, 2, 4] · transposes_S5x8x4x32x64_S5x8x32x4x64_0_1_3_2_4) (VV m c main_call0_v60 : FVec Ideal S5x8x4x32x64 .f32) := by
  unfold VV
  rw [after_step hW0 84 _ rfl _ (by decide), StableHlo.unary_result, ← after_at hW0 84 _ (r := main_call0_v60) (by decide)]
  generalize StableHlo.after (hostOps0 (F := Ideal)) _ (Proc.devRef .tc main_call0_v60) = X0
  exact rfl

theorem E_v62 : (VV m c main_call0_v62 : FVec Ideal S1280x256 .f32) = shapeCast S1280x256 (VV m c main_call0_v61 : FVec Ideal S5x8x32x4x64 .f32) shapeCasts_S5x8x32x4x64_S1280x256 := by
  unfold VV
  rw [after_step hW0 85 _ rfl _ (by decide), StableHlo.reshape_result, ← after_at hW0 85 _ (r := main_call0_v61) (by decide)]
  generalize StableHlo.after (hostOps0 (F := Ideal)) _ (Proc.devRef .tc main_call0_v61) = X0
  exact rfl

theorem E_v63 : (VV m c main_call0_v63 : FVec Ideal S1280x256 .bf16) = (fun x => truncf (F := Ideal) .bf16 x bitsLt_bf16_f32) (VV m c main_call0_v62 : FVec Ideal S1280x256 .f32) := by
  unfold VV
  rw [after_step hW0 86 _ rfl _ (by decide), StableHlo.unary_result, ← after_at hW0 86 _ (r := main_call0_v62) (by decide)]
  generalize StableHlo.after (hostOps0 (F := Ideal)) _ (Proc.devRef .tc main_call0_v62) = X0
  exact rfl

/-! ## The weight arguments are written by no host operation -/

theorem VV_main_arg1 : VV m c main_arg1 = m ((c.tc : Thread nD τ).loc main_arg1) :=
  (V_eq_VV m c main_arg1).symm.trans (V_main_arg1 m c)

theorem VV_main_arg3 : VV m c main_arg3 = m ((c.tc : Thread nD τ).loc main_arg3) :=
  (V_eq_VV m c main_arg3).symm.trans (V_main_arg3 m c)

end Cert.LeNet.KHostAfter

end
-- ==== Proof.KHostV36.lean ====
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.KHostDefs
import proofs.«175274_g2000709357908425_pallasbulk_852_30_alg».proof.Proof.KHostAfter
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.LeNet.KHostV36

open Idealize.ShloMosaic Idealize.ShloMosaic.ValueIdx Idealize.SL.Sem Cert.KernelIdeal Cert.KernelIdeal.Gen Cert.LeNet
open Cert.LeNet.KHostAfter

variable (m : (ℓ : Loc nD τ sig) → Buf (Elt Ideal) ℓ) (c : Dev nD)

/-- The first banded matrix's buffer as the region finds it is the composed chain of host operations applied to the taps. -/
theorem V_v36_eq : (V (F := Ideal) m c main_call0_v36 : S140x768.Idx → EReal)
    = KHostDefs.t1term (m ((c.tc : Thread nD τ).loc main_arg1) : S25x32.Idx → EReal) := by
  -- every buffer of the chain, last to first, is its operation applied to the buffers it reads; the taps are as launched
  rw [V_eq_VV, E_v36, E_v35, E_v34, E_v33, E_v32, E_v31, E_v30, E_c_9, E_v29, E_v28, E_c_8, E_v27, E_call1_v1, E_call1_v0, E_c_7, E_v26, E_v25, E_v24, E_c_6, E_v23, E_v22, E_c_5, E_v21, E_v20, E_v19, E_v18, E_v17, E_v16, E_v15, E_v14, E_v13, E_c_4, E_v12, E_v11, E_c_3, E_v10, E_v9, E_v8, E_c_2, E_v7, E_v6, E_c_1, E_v5, E_v4, E_call0_v0, E_c_0, E_v3, VV_main_arg1]
  exact rfl

end Cert.LeNet.KHostV36

end
-- ==== Proof.KHostV63.lean ====
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.KHostDefs
import proofs.«175274_g2000709357908425_pallasbulk_852_30_alg».proof.Proof.KHostAfter
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.LeNet.KHostV63

open Idealize.ShloMosaic Idealize.ShloMosaic.ValueIdx Idealize.SL.Sem Cert.KernelIdeal Cert.KernelIdeal.Gen Cert.LeNet Cert.LeNet.KHostAfter

variable (m : (ℓ : Loc nD τ sig) → Buf (Elt Ideal) ℓ) (c : Dev nD)

/-- The second banded matrix's buffer as the region finds it is the composed chain of host operations applied to the taps. -/
theorem V_v63_eq : (V (F := Ideal) m c main_call0_v63 : S1280x256.Idx → EReal)
    = KHostDefs.t2term (m ((c.tc : Thread nD τ).loc main_arg3) : S800x64.Idx → EReal) := by
  rw [V_eq_VV, E_v63, E_v62, E_v61, E_v60, E_v59, E_v58, E_v57, E_v56, E_c_15, E_v55, E_v54, E_c_14, E_v53, E_call3_v1, E_call3_v0, E_c_13, E_v52, E_v51, E_v50, E_c_12, E_v49, E_v48, E_c_11, E_v47, E_v46, E_v45, E_v44, E_v43, E_v42, E_v41, E_call2_v0, E_c_10, E_v40, E_c, VV_main_arg3]
  exact rfl

end Cert.LeNet.KHostV63

end
-- ==== Proof.KHostIdx.lean ====
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.KHostDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.KHostIdx

open Idealize.ShloMosaic Idealize.ShloMosaic.ValueIdx Cert.KernelIdeal Cert.KernelIdeal.Gen Cert.LeNet Cert.LeNet.KHostDefs

/-- The tap index of image column w for output-column group g: w - ow1 g inside the five taps, the zero tap 5 outside. -/
theorem idxA_apply (w : Fin 28) (g : Fin 24) :
    idxA (ix2 w g) = BitVec.ofNat 32 (if ow1 g ≤ w.val ∧ w.val < ow1 g + 5 then w.val - ow1 g else 5) := by
  revert w g
  decide

/-- The tap index of window column wc for output-column group g of the second convolution. -/
theorem idxB_apply (wc : Fin 8) (g : Fin 4) :
    idxB (ix2 wc g) = BitVec.ofNat 32 (if ow2 g ≤ wc.val ∧ wc.val < ow2 g + 5 then wc.val - ow2 g else 5) := by
  revert wc g
  decide

end Cert.LeNet.KHostIdx

end
-- ==== Proof.KHostT1.lean ====
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.KHostDefs
import proofs.«175274_g2000709357908425_pallasbulk_852_30_alg».proof.Proof.KHostIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.KHostT1

open Idealize.ShloMosaic Idealize.ShloMosaic.ValueIdx Cert.KernelIdeal Cert.KernelIdeal.Gen Cert.LeNet Cert.LeNet.KHostDefs

/-! The chain's stages: the taps with one zero tap appended on the kw axis, the tap indices with a unit last axis. -/

/-- the taps [5,5,32] padded to [5,6,32]: tap kw = 5 is zero -/
def padded (W : S25x32.Idx → EReal) : FVec Ideal S5x6x32 .f32 :=
  pad S5x6x32 ![0, 0, 0] ![0, 1, 0] ![0, 0, 0] (shapeCast S5x5x32 W shapeCasts_S25x32_S5x5x32 : FVec Ideal S5x5x32 .f32)
    (sitofp .f32 (constantI S_ 32 0#32) : FVec Ideal S_ .f32) pads_S5x5x32_S5x6x32_000_010_000 h_S_

/-- the tap indices as start indices [28,24,1] -/
def idx3 : S28x24x1.Idx → BitVec 32 := broadcastInDim S28x24x1 ![0, 1] bcast_S28x24_S28x24x1_0_1 idxA

theorem t1term_eq (W : S25x32.Idx → EReal) :
    t1term W = shapeCast S140x768 (Host.gather gather_S5x6x32_S28x24x1_S5x28x24x32_03_1_n_n_1_2_5132 (padded W) idx3 : FVec Ideal S5x28x24x32 .f32)
      shapeCasts_S5x28x24x32_S140x768 := rfl

theorem toNat_small (v : ℕ) (hv : v < 28) : (BitVec.ofNat 32 v).toInt.toNat = v := by
  rw [BitVec.toInt_eq_toNat_cond, BitVec.toNat_ofNat]
  have h1 : v % 2 ^ 32 = v := Nat.mod_eq_of_lt (by omega)
  rw [h1, if_pos (by omega)]
  simp

theorem idx3_apply (w : Fin 28) (g : Fin 24) : idx3 (ix3 w g (0 : Fin 1)) = idxA (ix2 w g) := by
  unfold idx3
  refine broadcastInDim_apply _ _ idxA (ix3 w g (0 : Fin 1)) (ix2 w g) fun a => ?_
  match a with
  | ⟨0, _⟩ => rfl
  | ⟨1, _⟩ => rfl

/-- the padded taps at (kh, t, c): tap t < 5 of row 5 kh + t, zero at t = 5 -/
theorem padded_apply (W : S25x32.Idx → EReal) (kh : Fin 5) (t : Fin 6) (c : Fin 32) :
    padded W (ix3 kh t c)
      = if h : t.val < 5 then W (ix2 (⟨5 * kh.val + t.val, by have := kh.isLt; omega⟩ : Fin 25) c) else 0 := by
  have hkh := kh.isLt; have ht6 := t.isLt; have hc := c.isLt
  by_cases ht : t.val < 5
  · rw [dif_pos ht]
    unfold padded pad
    have hin : ∀ a : Fin 3, (![0, 0, 0] : Fin 3 → ℕ) a ≤ ((ix3 kh t c) (a.cast rfl)).val
        ∧ (((ix3 kh t c) (a.cast rfl)).val - (![0, 0, 0] : Fin 3 → ℕ) a) % ((![0, 0, 0] : Fin 3 → ℕ) a + 1) = 0
        ∧ (((ix3 kh t c) (a.cast rfl)).val - (![0, 0, 0] : Fin 3 → ℕ) a) / ((![0, 0, 0] : Fin 3 → ℕ) a + 1) < S5x5x32.size a := by
      intro a
      match a with
      | ⟨0, _⟩ => exact ⟨Nat.zero_le _, by show (kh.val - 0) % (0 + 1) = 0; omega, by show (kh.val - 0) / (0 + 1) < 5; omega⟩
      | ⟨1, _⟩ => exact ⟨Nat.zero_le _, by show (t.val - 0) % (0 + 1) = 0; omega, by show (t.val - 0) / (0 + 1) < 5; omega⟩
      | ⟨2, _⟩ => exact ⟨Nat.zero_le _, by show (c.val - 0) % (0 + 1) = 0; omega, by show (c.val - 0) / (0 + 1) < 32; omega⟩
    rw [dif_pos hin]
    refine shapeCast_apply W _ _ (ix2 (⟨5 * kh.val + t.val, by omega⟩ : Fin 25) c) ?_
    rw [Shape.rowMajor_val_two, Shape.rowMajor_val_three]
    show (5 * kh.val + t.val) * 32 + c.val
      = ((kh.val - 0) / (0 + 1) * 5 + (t.val - 0) / (0 + 1)) * 32 + (c.val - 0) / (0 + 1)
    omega
  · rw [dif_neg ht]
    unfold padded pad
    rw [dif_neg (fun hin => ht (by
      have := (hin ⟨1, by decide⟩).2.2
      have h2 : (t.val - 0) / (0 + 1) < 5 := this
      omega))]
    show (((0#32 : BitVec 32).toInt : ℝ) : EReal) = 0
    simp

/-- the gather at (kh, w, g, c): the operand at (kh, the start index at (w, g) read signed and clamped to [0, 5], c) -/
theorem gather_apply (X : S5x6x32.Idx → EReal) (I : S28x24x1.Idx → BitVec 32) (kh : Fin 5) (w : Fin 28) (g : Fin 24) (c : Fin 32) :
    Host.gather gather_S5x6x32_S28x24x1_S5x28x24x32_03_1_n_n_1_2_5132 X I (ix4 kh w g c)
      = X (ix3 kh (⟨min (I (ix3 w g (0 : Fin 1))).toInt.toNat 5, by omega⟩ : Fin 6) c) := by
  unfold Host.gather
  congr 1
  funext a
  refine Fin.ext ?_
  show gather_S5x6x32_S28x24x1_S5x28x24x32_03_1_n_n_1_2_5132.start (ix4 kh w g c) I a + gather_S5x6x32_S28x24x1_S5x28x24x32_03_1_n_n_1_2_5132.batchCoord (ix4 kh w g c) a + gather_S5x6x32_S28x24x1_S5x28x24x32_03_1_n_n_1_2_5132.offCoord (ix4 kh w g c) a = _
  rw [GatherDims.batchCoord_eq_zero _ _ _ List.not_mem_nil, Nat.add_zero]
  match a with
  | ⟨0, _⟩ =>
    have hs : gather_S5x6x32_S28x24x1_S5x28x24x32_03_1_n_n_1_2_5132.start (ix4 kh w g c) I ⟨0, by decide⟩ = 0 := by
      unfold GatherDims.start; rw [dif_neg (by decide)]
    have ho : gather_S5x6x32_S28x24x1_S5x28x24x32_03_1_n_n_1_2_5132.offCoord (ix4 kh w g c) ⟨0, by decide⟩ = kh.val := by
      unfold GatherDims.offCoord; rw [dif_pos (by decide)]; rfl
    rw [hs, ho]; exact Nat.zero_add _
  | ⟨1, _⟩ =>
    have ho : gather_S5x6x32_S28x24x1_S5x28x24x32_03_1_n_n_1_2_5132.offCoord (ix4 kh w g c) ⟨1, by decide⟩ = 0 :=
      GatherDims.offCoord_eq_zero _ _ _ (fun h => ((GatherDims.mem_sKept _ _).mp h).1 (List.mem_singleton.mpr rfl))
    rw [ho, Nat.add_zero]
    unfold GatherDims.start
    rw [dif_pos (show (⟨1, by decide⟩ : Fin 3) ∈ gather_S5x6x32_S28x24x1_S5x28x24x32_03_1_n_n_1_2_5132.startIndexMap from List.mem_singleton.mpr rfl)]
    have hsi : gather_S5x6x32_S28x24x1_S5x28x24x32_03_1_n_n_1_2_5132.siIdx (ix4 kh w g c) ⟨List.idxOf (⟨1, by decide⟩ : Fin 3) gather_S5x6x32_S28x24x1_S5x28x24x32_03_1_n_n_1_2_5132.startIndexMap,
        List.idxOf_lt_length_iff.2 (List.mem_singleton.mpr rfl)⟩ = ix3 w g (0 : Fin 1) := by
      funext b; refine Fin.ext ?_
      match b with
      | ⟨0, _⟩ => rfl
      | ⟨1, _⟩ => rfl
      | ⟨2, _⟩ => rfl
    rw [hsi]
    rfl
  | ⟨2, _⟩ =>
    have hs : gather_S5x6x32_S28x24x1_S5x28x24x32_03_1_n_n_1_2_5132.start (ix4 kh w g c) I ⟨2, by decide⟩ = 0 := by
      unfold GatherDims.start; rw [dif_neg (by decide)]
    have ho : gather_S5x6x32_S28x24x1_S5x28x24x32_03_1_n_n_1_2_5132.offCoord (ix4 kh w g c) ⟨2, by decide⟩ = c.val := by
      unfold GatherDims.offCoord; rw [dif_pos (by decide)]; rfl
    rw [hs, ho]; exact Nat.zero_add _

theorem padded_at (W : S25x32.Idx → EReal) (kh : Fin 5) (c : Fin 32) (t : Fin 6) (v : ℕ) (ht : t.val = v) :
    padded W (ix3 kh t c)
      = if h : v < 5 then W (ix2 (⟨5 * kh.val + v, by have := kh.isLt; omega⟩ : Fin 25) c) else 0 := by
  subst ht; exact padded_apply W kh t c

/-- The composed chain (pad the taps with a zero tap, gather at the tap indices, re-lay as 140 x 768) read at an entry is the
    banded matrix T1. -/
theorem t1term_apply (W : S25x32.Idx → EReal) (k : Fin 140) (q : Fin 768) :
    t1term W (ix2 k q) = T1 (rd2 W) k q := by
  have hk := k.isLt; have hq := q.isLt
  rw [t1term_eq]
  refine (shapeCast_apply _ _ (ix2 k q)
    (ix4 (⟨k.val / 28, by omega⟩ : Fin 5) (⟨k.val % 28, by omega⟩ : Fin 28) (⟨q.val / 32, by omega⟩ : Fin 24)
      (⟨q.val % 32, by omega⟩ : Fin 32)) ?_).trans ?_
  · rw [Shape.rowMajor_val_four, Shape.rowMajor_val_two]
    show (((k.val / 28 * 28 + k.val % 28) * 24 + q.val / 32) * 32 + q.val % 32) = k.val * 768 + q.val
    omega
  refine (gather_apply _ _ _ _ _ _).trans ?_
  by_cases hc : ow1 (q.val / 32) ≤ k.val % 28 ∧ k.val % 28 < ow1 (q.val / 32) + 5
  · have hidx : idx3 (ix3 (⟨k.val % 28, by omega⟩ : Fin 28) (⟨q.val / 32, by omega⟩ : Fin 24) (0 : Fin 1))
        = BitVec.ofNat 32 (k.val % 28 - ow1 (q.val / 32)) := by
      rw [idx3_apply, KHostIdx.idxA_apply]; exact congrArg _ (if_pos hc)
    have hclamp : min (idx3 (ix3 (⟨k.val % 28, by omega⟩ : Fin 28) (⟨q.val / 32, by omega⟩ : Fin 24) (0 : Fin 1))).toInt.toNat 5
        = k.val % 28 - ow1 (q.val / 32) := by
      rw [hidx, toNat_small _ (by omega)]; exact Nat.min_eq_left (by omega)
    refine (padded_at W _ _ _ _ hclamp).trans ?_
    unfold T1 rd2
    rw [dif_pos (by omega : k.val % 28 - ow1 (q.val / 32) < 5), if_pos hc,
      dif_pos (⟨by omega, by omega⟩ : 5 * (k.val / 28) + (k.val % 28 - ow1 (q.val / 32)) < 25 ∧ q.val % 32 < 32)]
  · have hidx : idx3 (ix3 (⟨k.val % 28, by omega⟩ : Fin 28) (⟨q.val / 32, by omega⟩ : Fin 24) (0 : Fin 1))
        = BitVec.ofNat 32 5 := by
      rw [idx3_apply, KHostIdx.idxA_apply]; exact congrArg _ (if_neg hc)
    have hclamp : min (idx3 (ix3 (⟨k.val % 28, by omega⟩ : Fin 28) (⟨q.val / 32, by omega⟩ : Fin 24) (0 : Fin 1))).toInt.toNat 5
        = 5 := by
      rw [hidx, toNat_small _ (by omega)]; exact Nat.min_self 5
    refine (padded_at W _ _ _ _ hclamp).trans ?_
    unfold T1
    rw [dif_neg (by omega : ¬ (5 < 5)), if_neg hc]

end Cert.LeNet.KHostT1

end
-- ==== Proof.KHostT2.lean ====
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.KHostDefs
import proofs.«175274_g2000709357908425_pallasbulk_852_30_alg».proof.Proof.KHostIdx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.KHostT2

open Idealize.ShloMosaic Idealize.ShloMosaic.ValueIdx Cert.KernelIdeal Cert.KernelIdeal.Gen Cert.LeNet Cert.LeNet.KHostDefs

section Gather
variable {α : Type}

/-- the gather of taps read at (kh, wc, g, ci, co): the operand at tap index[wc, g, 0], read signed and clamped to [0, 5] -/
theorem gather_apply (x : S5x6x32x64.Idx → α) (idx : IVec S8x4x1 32) (kh : Fin 5) (wc : Fin 8) (g : Fin 4) (ci : Fin 32) (co : Fin 64) :
    Host.gather gather_S5x6x32x64_S8x4x1_S5x8x4x32x64_034_1_n_n_1_2_513264 x idx (ix5 kh wc g ci co)
      = x (ix4 kh (⟨min (idx (ix3 wc g (0 : Fin 1))).toInt.toNat 5, by omega⟩ : Fin 6) ci co) := by
  unfold Host.gather
  have h0 : gather_S5x6x32x64_S8x4x1_S5x8x4x32x64_034_1_n_n_1_2_513264.start (ix5 kh wc g ci co) idx (0 : Fin 4) + gather_S5x6x32x64_S8x4x1_S5x8x4x32x64_034_1_n_n_1_2_513264.offCoord (ix5 kh wc g ci co) (0 : Fin 4) = kh.val := by
    unfold GatherDims.start GatherDims.offCoord
    rw [dif_neg (by decide), dif_pos (by decide), Nat.zero_add]
    rfl
  have h2 : gather_S5x6x32x64_S8x4x1_S5x8x4x32x64_034_1_n_n_1_2_513264.start (ix5 kh wc g ci co) idx (2 : Fin 4) + gather_S5x6x32x64_S8x4x1_S5x8x4x32x64_034_1_n_n_1_2_513264.offCoord (ix5 kh wc g ci co) (2 : Fin 4) = ci.val := by
    unfold GatherDims.start GatherDims.offCoord
    rw [dif_neg (by decide), dif_pos (by decide), Nat.zero_add]
    rfl
  have h3 : gather_S5x6x32x64_S8x4x1_S5x8x4x32x64_034_1_n_n_1_2_513264.start (ix5 kh wc g ci co) idx (3 : Fin 4) + gather_S5x6x32x64_S8x4x1_S5x8x4x32x64_034_1_n_n_1_2_513264.offCoord (ix5 kh wc g ci co) (3 : Fin 4) = co.val := by
    unfold GatherDims.start GatherDims.offCoord
    rw [dif_neg (by decide), dif_pos (by decide), Nat.zero_add]
    rfl
  have h1 : gather_S5x6x32x64_S8x4x1_S5x8x4x32x64_034_1_n_n_1_2_513264.start (ix5 kh wc g ci co) idx (1 : Fin 4) + gather_S5x6x32x64_S8x4x1_S5x8x4x32x64_034_1_n_n_1_2_513264.offCoord (ix5 kh wc g ci co) (1 : Fin 4)
      = min (idx (ix3 wc g (0 : Fin 1))).toInt.toNat 5 := by
    unfold GatherDims.start GatherDims.offCoord
    rw [dif_pos (by decide), dif_neg (by decide), Nat.add_zero]
    have hsi : gather_S5x6x32x64_S8x4x1_S5x8x4x32x64_034_1_n_n_1_2_513264.siIdx (ix5 kh wc g ci co) ⟨List.idxOf (1 : Fin 4) gather_S5x6x32x64_S8x4x1_S5x8x4x32x64_034_1_n_n_1_2_513264.startIndexMap,
        List.idxOf_lt_length_iff.2 (by decide)⟩ = ix3 wc g (0 : Fin 1) := by
      funext b; refine Fin.ext ?_
      match b with
      | ⟨0, _⟩ => rfl
      | ⟨1, _⟩ => rfl
      | ⟨2, _⟩ => rfl
    rw [hsi]
    rfl
  refine congrArg x (funext fun a => Fin.ext ?_)
  show gather_S5x6x32x64_S8x4x1_S5x8x4x32x64_034_1_n_n_1_2_513264.start (ix5 kh wc g ci co) idx a + gather_S5x6x32x64_S8x4x1_S5x8x4x32x64_034_1_n_n_1_2_513264.batchCoord (ix5 kh wc g ci co) a + gather_S5x6x32x64_S8x4x1_S5x8x4x32x64_034_1_n_n_1_2_513264.offCoord (ix5 kh wc g ci co) a = _
  rw [GatherDims.batchCoord_eq_zero _ _ _ List.not_mem_nil, Nat.add_zero]
  match a with
  | ⟨0, _⟩ => exact h0
  | ⟨1, _⟩ => exact h1
  | ⟨2, _⟩ => exact h2
  | ⟨3, _⟩ => exact h3
end Gather

section Layout
variable {α : Type}

/-- [800,64] read as [5,5,32,64]: row 32 (5 kh + kw) + ci -/
theorem cast_w (x : S800x64.Idx → α) (h : S800x64.ShapeCasts S5x5x32x64) (kh kw : Fin 5) (ci : Fin 32) (co : Fin 64) :
    shapeCast S5x5x32x64 x h (ix4 kh kw ci co)
      = x (ix2 (⟨32 * (5 * kh.val + kw.val) + ci.val, by have := kh.isLt; have := kw.isLt; have := ci.isLt; omega⟩ : Fin 800) co) := by
  refine shapeCast_apply x h _ _ ?_
  rw [Shape.rowMajor_val_four, Shape.rowMajor_val_two]
  show (32 * (5 * kh.val + kw.val) + ci.val) * 64 + co.val = ((kh.val * 5 + kw.val) * 32 + ci.val) * 64 + co.val
  omega

/-- one more tap after the five: inside the five taps the operand, at tap 5 the padding value -/
theorem pad_read (x : S5x5x32x64.Idx → α) {u : Shape} (v : u.Idx → α)
    (h : S5x5x32x64.Pads ![0, 0, 0, 0] ![0, 1, 0, 0] ![0, 0, 0, 0] S5x6x32x64) (hu : 0 < u.numel)
    (kh : Fin 5) (t : ℕ) (ht : t < 6) (ci : Fin 32) (co : Fin 64) :
    pad S5x6x32x64 ![0, 0, 0, 0] ![0, 1, 0, 0] ![0, 0, 0, 0] x v h hu (ix4 kh (⟨t, ht⟩ : Fin 6) ci co)
      = if h5 : t < 5 then x (ix4 kh (⟨t, h5⟩ : Fin 5) ci co) else v (Shape.Idx.first hu) := by
  unfold pad
  by_cases h5 : t < 5
  · rw [dif_pos h5]
    have hin : ∀ a : Fin S5x5x32x64.rank,
        (![0, 0, 0, 0] : Fin 4 → ℕ) a ≤ ((ix4 kh (⟨t, ht⟩ : Fin 6) ci co) (a.cast h.1)).val
        ∧ (((ix4 kh (⟨t, ht⟩ : Fin 6) ci co) (a.cast h.1)).val - (![0, 0, 0, 0] : Fin 4 → ℕ) a) % ((![0, 0, 0, 0] : Fin 4 → ℕ) a + 1) = 0
        ∧ (((ix4 kh (⟨t, ht⟩ : Fin 6) ci co) (a.cast h.1)).val - (![0, 0, 0, 0] : Fin 4 → ℕ) a) / ((![0, 0, 0, 0] : Fin 4 → ℕ) a + 1)
            < S5x5x32x64.size a := fun a => by
      match a with
      | ⟨0, _⟩ => show 0 ≤ kh.val ∧ (kh.val - 0) % (0 + 1) = 0 ∧ (kh.val - 0) / (0 + 1) < 5; have := kh.isLt; omega
      | ⟨1, _⟩ => show 0 ≤ t ∧ (t - 0) % (0 + 1) = 0 ∧ (t - 0) / (0 + 1) < 5; omega
      | ⟨2, _⟩ => show 0 ≤ ci.val ∧ (ci.val - 0) % (0 + 1) = 0 ∧ (ci.val - 0) / (0 + 1) < 32; have := ci.isLt; omega
      | ⟨3, _⟩ => show 0 ≤ co.val ∧ (co.val - 0) % (0 + 1) = 0 ∧ (co.val - 0) / (0 + 1) < 64; have := co.isLt; omega
    rw [dif_pos hin]
    refine congrArg x (funext fun a => Fin.ext ?_)
    match a with
    | ⟨0, _⟩ => show (kh.val - 0) / (0 + 1) = kh.val; omega
    | ⟨1, _⟩ => show (t - 0) / (0 + 1) = t; omega
    | ⟨2, _⟩ => show (ci.val - 0) / (0 + 1) = ci.val; omega
    | ⟨3, _⟩ => show (co.val - 0) / (0 + 1) = co.val; omega
  · rw [dif_neg h5]
    refine dif_neg fun hin => h5 ?_
    have h1 := (hin (1 : Fin 4)).2.2
    have h1' : (t - 0) / (0 + 1) < 5 := h1
    omega

/-- the tap indices with a unit axis appended -/
theorem bcast_idx (x : S8x4.Idx → α) (h : S8x4.BroadcastsInDim S8x4x1 ![0, 1]) (wc : Fin 8) (g : Fin 4) :
    broadcastInDim S8x4x1 ![0, 1] h x (ix3 wc g (0 : Fin 1)) = x (ix2 wc g) := by
  refine broadcastInDim_apply _ h x _ _ fun a => ?_
  match a with
  | ⟨0, _⟩ => rfl
  | ⟨1, _⟩ => rfl

/-- the group and channel axes swapped -/
theorem transp_apply (x : S5x8x4x32x64.Idx → α) (h : S5x8x4x32x64.Transposes [0, 1, 3, 2, 4] S5x8x32x4x64)
    (kh : Fin 5) (wc : Fin 8) (ci : Fin 32) (g : Fin 4) (co : Fin 64) :
    transpose S5x8x32x4x64 [0, 1, 3, 2, 4] x h (ix5 kh wc ci g co) = x (ix5 kh wc g ci co) := by
  refine transpose_apply _ x h _ _ fun b => ?_
  match b with
  | ⟨0, _⟩ => rfl
  | ⟨1, _⟩ => rfl
  | ⟨2, _⟩ => rfl
  | ⟨3, _⟩ => rfl
  | ⟨4, _⟩ => rfl

/-- [5,8,32,4,64] read as [1280,256]: row 256 kh + 32 wc + ci, column 64 g + co -/
theorem cast_m (x : S5x8x32x4x64.Idx → α) (h : S5x8x32x4x64.ShapeCasts S1280x256) (k : Fin 1280) (q : Fin 256) :
    shapeCast S1280x256 x h (ix2 k q)
      = x (ix5 (⟨k.val / 256, by have := k.isLt; omega⟩ : Fin 5) (⟨k.val / 32 % 8, by omega⟩ : Fin 8) (⟨k.val % 32, by omega⟩ : Fin 32)
            (⟨q.val / 64, by have := q.isLt; omega⟩ : Fin 4) (⟨q.val % 64, by omega⟩ : Fin 64)) := by
  refine shapeCast_apply x h _ _ ?_
  rw [Shape.rowMajor_val_five, Shape.rowMajor_val_two]
  show ((((k.val / 256) * 8 + k.val / 32 % 8) * 32 + k.val % 32) * 4 + q.val / 64) * 64 + q.val % 64 = k.val * 256 + q.val
  omega
end Layout

/-- a word holding a number at most 5, read signed, is that number -/
theorem toInt_small (t : ℕ) (ht : t ≤ 5) : (BitVec.ofNat 32 t).toInt.toNat = t := by
  interval_cases t <;> rfl

/-- the tap read through a word that holds t ≤ 5 is tap t -/
theorem tap_eq {α : Type} (x : S5x6x32x64.Idx → α) (w : BitVec 32) (t : ℕ) (ht : t ≤ 5) (hw : w = BitVec.ofNat 32 t)
    (kh : Fin 5) (ci : Fin 32) (co : Fin 64) (hlt : min w.toInt.toNat 5 < 6) :
    x (ix4 kh (⟨min w.toInt.toNat 5, hlt⟩ : Fin 6) ci co) = x (ix4 kh (⟨t, by omega⟩ : Fin 6) ci co) := by
  subst hw
  have e : min (BitVec.ofNat 32 t).toInt.toNat 5 = t := by rw [toInt_small t ht]; omega
  refine congrArg x (funext fun a => Fin.ext ?_)
  match a with
  | ⟨0, _⟩ => rfl
  | ⟨1, _⟩ => exact e
  | ⟨2, _⟩ => rfl
  | ⟨3, _⟩ => rfl

/-- The composed chain (pad, gather, swap the group and channel axes, re-lay as 1280 x 256) read at an entry is the banded
    matrix T2. -/
theorem t2term_apply (W : S800x64.Idx → EReal) (k : Fin 1280) (q : Fin 256) :
    t2term W (ix2 k q) = T2 (rd2 W) k q := by
  have hk := k.isLt
  have hq := q.isLt
  unfold t2term
  refine (truncf_apply (ψ := .bf16) _ bitsLt_bf16_f32 (ix2 k q)).trans ?_
  refine (cast_m _ _ k q).trans ?_
  refine (transp_apply _ _ _ _ _ _ _).trans ?_
  refine (gather_apply _ _ _ _ _ _ _).trans ?_
  have hidx := KHostIdx.idxB_apply (⟨k.val / 32 % 8, by omega⟩ : Fin 8) (⟨q.val / 64, by omega⟩ : Fin 4)
  have ho : ow2 (q.val / 64) ≤ 3 := by unfold ow2; split_ifs <;> omega
  unfold T2
  by_cases hc : ow2 (q.val / 64) ≤ k.val / 32 % 8 ∧ k.val / 32 % 8 < ow2 (q.val / 64) + 5
  · rw [if_pos hc]
    have hw : broadcastInDim S8x4x1 ![0, 1] bcast_S8x4_S8x4x1_0_1 idxB
          (ix3 (⟨k.val / 32 % 8, by omega⟩ : Fin 8) (⟨q.val / 64, by omega⟩ : Fin 4) (0 : Fin 1))
        = BitVec.ofNat 32 (k.val / 32 % 8 - ow2 (q.val / 64)) := by
      rw [bcast_idx, hidx]
      exact congrArg (BitVec.ofNat 32) (if_pos hc)
    refine (tap_eq _ _ (k.val / 32 % 8 - ow2 (q.val / 64)) (by omega) hw _ _ _ _).trans ?_
    refine (pad_read _ _ _ _ _ _ _ _ _).trans ?_
    rw [dif_pos (show k.val / 32 % 8 - ow2 (q.val / 64) < 5 by omega)]
    refine (cast_w _ _ _ _ _ _).trans ?_
    exact (rd2_ix W _ _).symm
  · rw [if_neg hc]
    have hw : broadcastInDim S8x4x1 ![0, 1] bcast_S8x4_S8x4x1_0_1 idxB
          (ix3 (⟨k.val / 32 % 8, by omega⟩ : Fin 8) (⟨q.val / 64, by omega⟩ : Fin 4) (0 : Fin 1))
        = BitVec.ofNat 32 5 := by
      rw [bcast_idx, hidx]
      exact congrArg (BitVec.ofNat 32) (if_neg hc)
    refine (tap_eq _ _ 5 (by omega) hw _ _ _ _).trans ?_
    refine (pad_read _ _ _ _ _ _ _ _ _).trans ?_
    rw [dif_neg (show ¬(5 < 5) by omega)]
    show ((((0#32 : BitVec 32).toInt : ℤ) : ℝ) : EReal) = 0
    have hz : (0#32 : BitVec 32).toInt = 0 := by decide
    rw [hz, Int.cast_zero, EReal.coe_zero]

end Cert.LeNet.KHostT2

end
-- ==== Proof.KHostT.lean ====
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.KHostDefs
import proofs.«175274_g2000709357908425_pallasbulk_852_30_alg».proof.Proof.KHostV36
import proofs.«175274_g2000709357908425_pallasbulk_852_30_alg».proof.Proof.KHostV63
import proofs.«175274_g2000709357908425_pallasbulk_852_30_alg».proof.Proof.KHostT1
import proofs.«175274_g2000709357908425_pallasbulk_852_30_alg».proof.Proof.KHostT2
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.LeNet.KHostT

open Idealize.ShloMosaic Idealize.ShloMosaic.ValueIdx Idealize.SL.Sem Cert.KernelIdeal Cert.KernelIdeal.Gen Cert.LeNet

variable (m : (ℓ : Loc nD τ sig) → Buf (Elt Ideal) ℓ) (c : Dev nD)

/-- The first banded matrix as the region finds it: the gather of the zero-padded taps at the computed tap indices, re-laid as 140 x 768. -/
theorem V_t1 (k : Fin 140) (q : Fin 768) :
    (V (F := Ideal) m c main_call0_v36 : S140x768.Idx → EReal) (ix2 k q)
      = T1 (rd2 (m ((c.tc : Thread nD τ).loc main_arg1) : S25x32.Idx → EReal)) k q := by
  rw [KHostV36.V_v36_eq]; exact KHostT1.t1term_apply _ k q

/-- The second banded matrix as the region finds it. -/
theorem V_t2 (k : Fin 1280) (q : Fin 256) :
    (V (F := Ideal) m c main_call0_v63 : S1280x256.Idx → EReal) (ix2 k q)
      = T2 (rd2 (m ((c.tc : Thread nD τ).loc main_arg3) : S800x64.Idx → EReal)) k q := by
  rw [KHostV63.V_v63_eq]; exact KHostT2.t2term_apply _ k q

end Cert.LeNet.KHostT

end
-- ==== Proof.KHostX.lean ====
import proofs.«175274_g2000709357908425_pallasbulk_852_30_alg».proof.Proof.Gen.KernelIdeal.Frame
import proofs.«175274_g2000709357908425_pallasbulk_852_30_alg».proof.Proof.Spec
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.LeNet.KHostX

open Idealize.ShloMosaic Idealize.ShloMosaic.ValueIdx Idealize.SL.Sem Cert.KernelIdeal Cert.KernelIdeal.Gen Cert.LeNet

section Lists
variable {τ' : Topo} {sg : RefSig} {Vl : EltTy → Type}

/-- Running two lines one after the other is running their concatenation. -/
theorem after_append (l₁ l₂ : List (HloOp τ' sg Vl)) (W : Valuation τ' sg Vl) :
    StableHlo.after (l₁ ++ l₂) W = StableHlo.after l₂ (StableHlo.after l₁ W) := by
  induction l₁ generalizing W with
  | nil => rfl
  | cons op l ih => simp only [List.cons_append, StableHlo.after_cons, ih]

/-- A line cut at any position. -/
theorem after_split (n : ℕ) (l : List (HloOp τ' sg Vl)) (W : Valuation τ' sg Vl) :
    StableHlo.after l W = StableHlo.after (l.drop n) (StableHlo.after (l.take n) W) := by
  rw [← after_append, List.take_append_drop]

/-- A buffer that nothing past position `n + k` writes holds what the `k` operations from position `n` leave in it. -/
theorem after_window (n k : ℕ) (l : List (HloOp τ' sg Vl)) (W : Valuation τ' sg Vl) (b : DevRef τ' sg)
    (h : ∀ op ∈ l.drop (n + k), b ∉ op.writes) :
    StableHlo.after l W b = StableHlo.after ((l.drop n).take k) (StableHlo.after (l.take n) W) b := by
  rw [after_split n l W, after_split k (l.drop n), List.drop_drop,
    StableHlo.after_of_forall_not_mem _ _ h]

end Lists

/-- No operation of a literal piece of the line writes a given buffer: the piece is opened and each operation's result
    buffer is told apart from the given one as a reference. -/
macro "khostx_no_writes" : tactic => `(tactic| (
  refine List.forall_iff_forall_mem.mp ?_
  simp only [hostOps0, Nat.reduceAdd, List.take_succ_cons, List.take_zero, List.drop_succ_cons, List.drop_zero, List.drop_nil, List.Forall,
    StableHlo.nullary_writes, StableHlo.unary_writes, StableHlo.binary_writes, StableHlo.ternary_writes, StableHlo.reshape_writes, Finset.mem_singleton]
  repeat' apply And.intro
  all_goals exact StableHlo.devRef_ne_of_ne (by decide)))

variable (m : (ℓ : Loc nD τ sig) → Buf (Elt Ideal) ℓ) (c : Dev nD)

/-- The image array as the region finds it: rows split by row mod 4, batch third: entry (a, j, b, w) is image b's row 4 j + a. -/
theorem V_xt (a : Fin 4) (j : Fin 7) (b : Fin 8192) (w : Fin 28) :
    (V (F := Ideal) m c main_call0_v2 : S4x7x8192x28.Idx → EReal) (ix4 a j b w)
      = (m ((c.tc : Thread nD τ).loc main_arg0) : S8192x1x28x28.Idx → EReal) (ix4 b 0 ⟨4 * j.val + a.val, by omega⟩ w) := by
  have e : (V (F := Ideal) m c main_call0_v2 : S4x7x8192x28.Idx → EReal)
      = transpose S4x7x8192x28 [2, 1, 0, 3]
          (shapeCast S8192x7x4x28 (truncf (F := Ideal) .bf16 (m ((c.tc : Thread nD τ).loc main_arg0) : FVec Ideal S8192x1x28x28 .f32) bitsLt_bf16_f32)
            shapeCasts_S8192x1x28x28_S8192x7x4x28)
          transposes_S8192x7x4x28_S4x7x8192x28_2_1_0_3 := by
    show StableHlo.after hostOps0 (fun b => m (c, b)) (Proc.devRef .tc main_call0_v2) = _
    rw [after_window 1 3 _ _ _ (by khostx_no_writes)]
    have hW : StableHlo.after (List.take 1 hostOps0) (fun b => m (c, b)) (Proc.devRef .tc main_arg0) = m (c, Proc.devRef .tc main_arg0) :=
      StableHlo.after_of_forall_not_mem _ _ (by khostx_no_writes)
    generalize StableHlo.after (List.take 1 hostOps0) (fun b => m (c, b)) = W at hW ⊢
    simp only [hostOps0, List.drop_succ_cons, List.drop_zero, List.take_succ_cons, List.take_zero]
    after_results
    rw [hW]; rfl
  rw [e]
  have ha : a.val < 4 := a.isLt
  have hj : j.val < 7 := j.isLt
  refine (transpose_apply _ _ _ (ix4 a j b w) (ix4 b j a w) ?_).trans ?_
  · intro d
    match d with
    | ⟨0, _⟩ => rfl
    | ⟨1, _⟩ => rfl
    | ⟨2, _⟩ => rfl
    | ⟨3, _⟩ => rfl
  refine (shapeCast_apply _ _ (ix4 b j a w) (ix4 b (0 : Fin 1) (⟨4 * j.val + a.val, by omega⟩ : Fin 28) w) ?_).trans ?_
  · rw [Shape.rowMajor_val_four, Shape.rowMajor_val_four]
    show (((b.val * 1 + 0) * 28 + (4 * j.val + a.val)) * 28 + w.val) = (((b.val * 7 + j.val) * 4 + a.val) * 28 + w.val)
    omega
  rfl

/-- The first bias tiled twelve times. -/
theorem V_b1r (q : Fin 384) :
    (V (F := Ideal) m c main_call0_v39 : S1x384.Idx → EReal) (ix2 0 q)
      = (m ((c.tc : Thread nD τ).loc main_arg2) : S1x32.Idx → EReal) (ix2 0 ⟨q.val % 32, Nat.mod_lt _ (by decide)⟩) := by
  have e : (V (F := Ideal) m c main_call0_v39 : S1x384.Idx → EReal)
      = shapeCast S1x384 (broadcastInDim S1x1x12x32 ![0, 1, 2, 3] bcast_S1x1x1x32_S1x1x12x32_0_1_2_3
          (shapeCast S1x1x1x32 (m ((c.tc : Thread nD τ).loc main_arg2) : S1x32.Idx → EReal) shapeCasts_S1x32_S1x1x1x32))
          shapeCasts_S1x1x12x32_S1x384 := by
    show StableHlo.after hostOps0 (fun b => m (c, b)) (Proc.devRef .tc main_call0_v39) = _
    rw [after_window 51 3 _ _ _ (by khostx_no_writes)]
    have hW : StableHlo.after (List.take 51 hostOps0) (fun b => m (c, b)) (Proc.devRef .tc main_arg2) = m (c, Proc.devRef .tc main_arg2) :=
      StableHlo.after_of_forall_not_mem _ _ (by khostx_no_writes)
    generalize StableHlo.after (List.take 51 hostOps0) (fun b => m (c, b)) = W at hW ⊢
    simp only [hostOps0, List.drop_succ_cons, List.drop_zero, List.take_succ_cons, List.take_zero]
    after_results
    rw [hW]; rfl
  rw [e]
  have hq : q.val < 384 := q.isLt
  refine (shapeCast_apply _ _ (ix2 0 q)
    (ix4 (0 : Fin 1) (0 : Fin 1) (⟨q.val / 32, by omega⟩ : Fin 12) (⟨q.val % 32, Nat.mod_lt _ (by decide)⟩ : Fin 32)) ?_).trans ?_
  · rw [Shape.rowMajor_val_four, Shape.rowMajor_val_two]
    show (((0 * 1 + 0) * 12 + q.val / 32) * 32 + q.val % 32) = 0 * 384 + q.val
    omega
  refine (broadcastInDim_apply _ _ _ _
    (ix4 (0 : Fin 1) (0 : Fin 1) (0 : Fin 1) (⟨q.val % 32, Nat.mod_lt _ (by decide)⟩ : Fin 32)) ?_).trans ?_
  · intro a
    match a with
    | ⟨0, _⟩ => rfl
    | ⟨1, _⟩ => rfl
    | ⟨2, _⟩ => rfl
    | ⟨3, _⟩ => rfl
  refine shapeCast_apply _ _ _ (ix2 (0 : Fin 1) (⟨q.val % 32, Nat.mod_lt _ (by decide)⟩ : Fin 32)) ?_
  rw [Shape.rowMajor_val_four, Shape.rowMajor_val_two]
  show 0 * 32 + q.val % 32 = (((0 * 1 + 0) * 1 + 0) * 32 + q.val % 32)
  omega

/-- The second bias tiled four times. -/
theorem V_b2r (q : Fin 256) :
    (V (F := Ideal) m c main_call0_v66 : S1x256.Idx → EReal) (ix2 0 q)
      = (m ((c.tc : Thread nD τ).loc main_arg4) : S1x64.Idx → EReal) (ix2 0 ⟨q.val % 64, Nat.mod_lt _ (by decide)⟩) := by
  have e : (V (F := Ideal) m c main_call0_v66 : S1x256.Idx → EReal)
      = shapeCast S1x256 (broadcastInDim S1x1x4x64 ![0, 1, 2, 3] bcast_S1x1x1x64_S1x1x4x64_0_1_2_3
          (shapeCast S1x1x1x64 (m ((c.tc : Thread nD τ).loc main_arg4) : S1x64.Idx → EReal) shapeCasts_S1x64_S1x1x1x64))
          shapeCasts_S1x1x4x64_S1x256 := by
    show StableHlo.after hostOps0 (fun b => m (c, b)) (Proc.devRef .tc main_call0_v66) = _
    rw [after_window 87 3 _ _ _ (by khostx_no_writes)]
    have hW : StableHlo.after (List.take 87 hostOps0) (fun b => m (c, b)) (Proc.devRef .tc main_arg4) = m (c, Proc.devRef .tc main_arg4) :=
      StableHlo.after_of_forall_not_mem _ _ (by khostx_no_writes)
    generalize StableHlo.after (List.take 87 hostOps0) (fun b => m (c, b)) = W at hW ⊢
    simp only [hostOps0, List.drop_succ_cons, List.drop_zero, List.take_succ_cons, List.take_zero]
    after_results
    rw [hW]; rfl
  rw [e]
  have hq : q.val < 256 := q.isLt
  refine (shapeCast_apply _ _ (ix2 0 q)
    (ix4 (0 : Fin 1) (0 : Fin 1) (⟨q.val / 64, by omega⟩ : Fin 4) (⟨q.val % 64, Nat.mod_lt _ (by decide)⟩ : Fin 64)) ?_).trans ?_
  · rw [Shape.rowMajor_val_four, Shape.rowMajor_val_two]
    show (((0 * 1 + 0) * 4 + q.val / 64) * 64 + q.val % 64) = 0 * 256 + q.val
    omega
  refine (broadcastInDim_apply _ _ _ _
    (ix4 (0 : Fin 1) (0 : Fin 1) (0 : Fin 1) (⟨q.val % 64, Nat.mod_lt _ (by decide)⟩ : Fin 64)) ?_).trans ?_
  · intro a
    match a with
    | ⟨0, _⟩ => rfl
    | ⟨1, _⟩ => rfl
    | ⟨2, _⟩ => rfl
    | ⟨3, _⟩ => rfl
  refine shapeCast_apply _ _ _ (ix2 (0 : Fin 1) (⟨q.val % 64, Nat.mod_lt _ (by decide)⟩ : Fin 64)) ?_
  rw [Shape.rowMajor_val_four, Shape.rowMajor_val_two]
  show 0 * 64 + q.val % 64 = (((0 * 1 + 0) * 1 + 0) * 64 + q.val % 64)
  omega

/-- A change of float format is the identity on the extended reals. -/
theorem V_f1w : (V (F := Ideal) m c main_call0_v67 : S1024x512.Idx → EReal) = (m ((c.tc : Thread nD τ).loc main_arg5) : S1024x512.Idx → EReal) := by
  show StableHlo.after hostOps0 (fun b => m (c, b)) (Proc.devRef .tc main_call0_v67) = _
  rw [after_window 90 1 _ _ _ (by khostx_no_writes)]
  have hW : StableHlo.after (List.take 90 hostOps0) (fun b => m (c, b)) (Proc.devRef .tc main_arg5) = m (c, Proc.devRef .tc main_arg5) :=
    StableHlo.after_of_forall_not_mem _ _ (by khostx_no_writes)
  generalize StableHlo.after (List.take 90 hostOps0) (fun b => m (c, b)) = W at hW ⊢
  simp only [hostOps0, List.drop_succ_cons, List.drop_zero, List.take_succ_cons, List.take_zero]
  after_results
  rw [hW]; rfl

theorem V_f2w : (V (F := Ideal) m c main_call0_v68 : S512x128.Idx → EReal) = (m ((c.tc : Thread nD τ).loc main_arg7) : S512x128.Idx → EReal) := by
  show StableHlo.after hostOps0 (fun b => m (c, b)) (Proc.devRef .tc main_call0_v68) = _
  rw [after_window 91 1 _ _ _ (by khostx_no_writes)]
  have hW : StableHlo.after (List.take 91 hostOps0) (fun b => m (c, b)) (Proc.devRef .tc main_arg7) = m (c, Proc.devRef .tc main_arg7) :=
    StableHlo.after_of_forall_not_mem _ _ (by khostx_no_writes)
  generalize StableHlo.after (List.take 91 hostOps0) (fun b => m (c, b)) = W at hW ⊢
  simp only [hostOps0, List.drop_succ_cons, List.drop_zero, List.take_succ_cons, List.take_zero]
  after_results
  rw [hW]; rfl

/-- After the region the result is the first ten columns of the stored array with its unit axis dropped. -/
theorem result_apply (b : Fin 8192) (n : Fin 10) :
    (Pipeline.afterTail₀ cfgs (dats (F := Ideal) m) 0 (V0 m) [hostOps1] c main_v0 : S8192x10.Idx → EReal) (ix2 b n)
      = ((dats (F := Ideal) m 0 c).arrAt 9 cfg0.N : S8192x1x128.Idx → EReal) (ix3 b 0 ⟨n.val, by omega⟩) := by
  have e : (Pipeline.afterTail₀ cfgs (dats (F := Ideal) m) 0 (V0 m) [hostOps1] c main_v0 : S8192x10.Idx → EReal)
      = shapeCast S8192x10 (extractStridedSlice S8192x1x10 ![0, 0, 0]
          ((dats (F := Ideal) m 0 c).arrAt 9 cfg0.N : S8192x1x128.Idx → EReal) slices_S8192x1x128_S8192x1x10_0_0_0)
          shapeCasts_S8192x1x10_S8192x10 := by
    have hA : Pipeline.withArrays (cfgs 0).spec c (V0 m c) (fun w => (dats (F := Ideal) m 0 c).arrAt w (cfgs 0).N)
        (Proc.devRef .tc main_call0_v69) = (dats (F := Ideal) m 0 c).arrAt 9 cfg0.N :=
      Pipeline.withArrays_arr spec0 launch0.win.arr_inj c (V0 m c) (fun w => (dats (F := Ideal) m 0 c).arrAt w (cfgs 0).N) 9
    unfold Pipeline.afterTail₀
    show StableHlo.after hostOps1 _ (Proc.devRef .tc main_v0) = _
    after_results
    rw [hA]
    rfl
  rw [e]
  refine (shapeCast_apply _ _ (ix2 b n) (ix3 b (0 : Fin 1) n) ?_).trans ?_
  · rw [Shape.rowMajor_val_three, Shape.rowMajor_val_two]
    show ((b.val * 1 + 0) * 10 + n.val) = b.val * 10 + n.val
    omega
  refine extractStridedSlice_apply _ _ _ (ix3 b (0 : Fin 1) n) (ix3 b (0 : Fin 1) (⟨n.val, by omega⟩ : Fin 128)) ?_
  intro a
  match a with
  | ⟨0, _⟩ => show b.val = 0 + b.val; omega
  | ⟨1, _⟩ => show 0 = 0 + 0; omega
  | ⟨2, _⟩ => show n.val = 0 + n.val; omega

end Cert.LeNet.KHostX

end
-- ==== Proof.AlgK1.lean ====
import proofs.«175274_g2000709357908425_pallasbulk_852_30_alg».proof.Proof.Spec

noncomputable section

namespace Cert.LeNet.AlgK1

open Finset Cert.LeNet

/-- A sum over `m * n` consecutive indices, read as `m` blocks of `n`. -/
private theorem sum_range_mul (m n : ℕ) (f : ℕ → EReal) :
    ∑ k ∈ range (m * n), f k = ∑ i ∈ range m, ∑ j ∈ range n, f (n * i + j) := by
  induction m with
  | zero => simp
  | succ m ih =>
    rw [Nat.succ_mul, Finset.sum_range_add, ih, Finset.sum_range_succ]
    congr 1
    apply Finset.sum_congr rfl
    intro j _
    rw [Nat.mul_comm]

/-- A sum against a band of width `k` starting at `a` keeps exactly the `k` terms inside the band. -/
private theorem sum_band (n a k : ℕ) (h : a + k ≤ n) (f g : ℕ → EReal) :
    ∑ w ∈ range n, f w * (if a ≤ w ∧ w < a + k then g (w - a) else 0)
      = ∑ j ∈ range k, f (a + j) * g j := by
  obtain ⟨m, rfl⟩ : ∃ m, n = a + k + m := ⟨n - (a + k), by omega⟩
  rw [Finset.sum_range_add, Finset.sum_range_add]
  have h1 : ∑ x ∈ range a, f x * (if a ≤ x ∧ x < a + k then g (x - a) else 0) = 0 := by
    apply Finset.sum_eq_zero
    intro x hx
    rw [Finset.mem_range] at hx
    rw [if_neg (by omega), mul_zero]
  have h3 : ∑ x ∈ range m, f (a + k + x)
      * (if a ≤ a + k + x ∧ a + k + x < a + k then g (a + k + x - a) else 0) = 0 := by
    apply Finset.sum_eq_zero
    intro x hx
    rw [if_neg (by omega), mul_zero]
  rw [h1, h3, zero_add, add_zero]
  apply Finset.sum_congr rfl
  intro j hj
  rw [Finset.mem_range] at hj
  rw [if_pos (by omega), Nat.add_sub_cancel_left]

/-- Adding a constant and rectifying is monotone, so it passes through a maximum of two. -/
private theorem relu_add_max (p q β : EReal) :
    relu (max p q + β) = max (relu (p + β)) (relu (q + β)) := by
  have hm : Monotone (fun v : EReal => relu (v + β)) := by
    intro u v huv
    unfold relu
    exact max_le_max (add_le_add huv le_rfl) le_rfl
  exact hm.map_max

/-- The same law for a maximum of four. -/
private theorem relu_add_max4 (a b c d β : EReal) :
    relu (max (max a b) (max c d) + β)
      = max (max (relu (a + β)) (relu (b + β))) (max (relu (c + β)) (relu (d + β))) := by
  rw [relu_add_max, relu_add_max, relu_add_max]

/-- One row-residue product with the banded matrix is the plain first convolution at the matching output position. -/
private theorem h1_eq (x : ℕ → ℕ → ℕ → EReal) (w1 : ℕ → ℕ → EReal) (t s r q : ℕ) (hq : q < 768) :
    K.h1 (fun a j bl w => x (256 * t + bl) (4 * j + a) w) (T1 w1) s r q
      = conv1 x w1 (256 * t + r % 256) (4 * (r / 256) + s) (ow1 (q / 32)) (q % 32) := by
  unfold K.h1 conv1
  rw [show (140 : ℕ) = 5 * 28 from rfl, sum_range_mul]
  apply Finset.sum_congr rfl
  intro kh hkh
  rw [Finset.mem_range] at hkh
  have hg : ow1 (q / 32) + 5 ≤ 28 := by
    unfold ow1
    split_ifs <;> omega
  rw [← sum_band 28 (ow1 (q / 32)) 5 hg
    (fun w => x (256 * t + r % 256) (4 * (r / 256) + s + kh) w) (fun j => w1 (5 * kh + j) (q % 32))]
  apply Finset.sum_congr rfl
  intro j hj
  rw [Finset.mem_range] at hj
  have e1 : (28 * kh + j) / 28 = kh := by omega
  have e2 : (28 * kh + j) % 28 = j := by omega
  have e3 : 4 * ((s + kh) / 4 + r / 256) + (s + kh) % 4 = 4 * (r / 256) + s + kh := by omega
  simp only [T1, e1, e2, e3]

/-- With the image block laid out as (row mod 4, row div 4, batch, column), the banded matrix of `w1` and the bias tiled over
    the twelve pooled columns, the banded spelling's pooled first layer at (row parity e, row r = 256 ohq + b, column
    q = 32 j + c) is the plain pooled first layer of image 256 t + b at pooled row 2 ohq + e, pooled column j, channel c. -/
theorem K_q1_eq (x : ℕ → ℕ → ℕ → EReal) (w1 : ℕ → ℕ → EReal) (b1 : ℕ → EReal) (t e r q : ℕ)
    (he : e < 2) (hr : r < 1536) (hq : q < 384) :
    K.q1 (fun a j bl w => x (256 * t + bl) (4 * j + a) w) (T1 w1) (fun q => b1 (q % 32)) e r q
      = q1 x w1 b1 (256 * t + r % 256) (2 * (r / 256) + e) (q / 32) (q % 32) := by
  unfold K.q1 q1 pool act1
  rw [h1_eq x w1 t (2 * e) r q (by omega), h1_eq x w1 t (2 * e + 1) r q (by omega),
    h1_eq x w1 t (2 * e) r (q + 384) (by omega), h1_eq x w1 t (2 * e + 1) r (q + 384) (by omega),
    relu_add_max4]
  have o1 : ow1 (q / 32) = 2 * (q / 32) := by
    unfold ow1
    rw [if_pos (by omega)]
  have o2 : ow1 ((q + 384) / 32) = 2 * (q / 32) + 1 := by
    unfold ow1
    rw [if_neg (by omega)]
    omega
  have m2 : (q + 384) % 32 = q % 32 := by omega
  have r0 : 4 * (r / 256) + 2 * e = 2 * (2 * (r / 256) + e) := by omega
  have r1 : 4 * (r / 256) + (2 * e + 1) = 2 * (2 * (r / 256) + e) + 1 := by omega
  rw [o1, o2, m2, r0, r1]

end Cert.LeNet.AlgK1

end
-- ==== Proof.AlgK2.lean ====
import proofs.«175274_g2000709357908425_pallasbulk_852_30_alg».proof.Proof.Spec

noncomputable section

namespace Cert.LeNet.AlgK2

open Finset Cert.LeNet

/-- A sum over `m * n` consecutive indices, grouped in `m` blocks of length `n`. -/
private theorem sum_range_mul (m n : ℕ) (f : ℕ → EReal) :
    ∑ k ∈ range (m * n), f k = ∑ i ∈ range m, ∑ j ∈ range n, f (n * i + j) := by
  induction m with
  | zero => simp
  | succ m ih =>
    rw [Nat.succ_mul, Finset.sum_range_add, ih, Finset.sum_range_succ, Nat.mul_comm m n]

/-- k < 1280 written as k = 256 kh + (32 wc + ci). -/
private theorem sum_range_1280 (f : ℕ → EReal) :
    ∑ k ∈ range 1280, f k
      = ∑ kh ∈ range 5, ∑ wc ∈ range 8, ∑ ci ∈ range 32, f (256 * kh + (32 * wc + ci)) := by
  have h1 : ∑ k ∈ range 1280, f k = ∑ kh ∈ range 5, ∑ j ∈ range 256, f (256 * kh + j) :=
    sum_range_mul 5 256 f
  rw [h1]
  refine sum_congr rfl fun kh _ => ?_
  exact sum_range_mul 8 32 (fun j => f (256 * kh + j))

/-- A band of width five inside a window of width eight keeps the five terms of the band. -/
private theorem sum_band (a : ℕ) (ha : a ≤ 3) (H : ℕ → EReal) :
    ∑ wc ∈ range 8, (if a ≤ wc ∧ wc < a + 5 then H wc else 0) = ∑ kw ∈ range 5, H (a + kw) := by
  interval_cases a <;> simp [Finset.sum_range_succ]

private theorem ow2_le (g : ℕ) : ow2 g ≤ 3 := by
  unfold ow2; split_ifs <;> omega

private theorem ow2_lo (q : ℕ) : ow2 ((q % 128) / 64) = 2 * ((q % 128) / 64) := by
  have h : (q % 128) / 64 = 0 ∨ (q % 128) / 64 = 1 := by omega
  rcases h with h | h <;> rw [h] <;> simp [ow2]

private theorem ow2_hi (q : ℕ) : ow2 ((q % 128 + 128) / 64) = 2 * ((q % 128) / 64) + 1 := by
  have h : ((q % 128 + 128) / 64 = 2 ∧ (q % 128) / 64 = 0) ∨ ((q % 128 + 128) / 64 = 3 ∧ (q % 128) / 64 = 1) := by
    omega
  rcases h with ⟨h, h'⟩ | ⟨h, h'⟩ <;> rw [h, h'] <;> simp [ow2]

/-- bias then relu is monotone -/
private theorem phi_mono (β : EReal) : Monotone (fun v : EReal => relu (v + β)) := by
  intro a b hab
  unfold relu
  exact max_le_max (add_le_add_left hab β) le_rfl

/-- bias and relu after the pool equal the pool of the biased, rectified values -/
private theorem relu_pool (a b c d β : EReal) :
    relu (max (max a b) (max c d) + β)
      = max (max (relu (a + β)) (relu (b + β))) (max (relu (c + β)) (relu (d + β))) := by
  have h := phi_mono β
  have e0 : relu (max (max a b) (max c d) + β) = max (relu (max a b + β)) (relu (max c d + β)) := h.map_max
  have e1 : relu (max a b + β) = max (relu (a + β)) (relu (b + β)) := h.map_max
  have e2 : relu (max c d + β) = max (relu (c + β)) (relu (d + β)) := h.map_max
  rw [e0, e1, e2]

/-- the banded product is the plain second convolution -/
private theorem h2_eq (x : ℕ → ℕ → ℕ → EReal) (w1 : ℕ → ℕ → EReal) (b1 : ℕ → EReal) (w2 : ℕ → ℕ → EReal) (t : ℕ)
    (p1 : ℕ → ℕ → ℕ → EReal)
    (hp1 : ∀ e r q, e < 2 → r < 1536 → q < 384 →
      p1 e r q = q1 x w1 b1 (256 * t + r % 256) (2 * (r / 256) + e) (q / 32) (q % 32))
    (u g r q' : ℕ) (hu : u < 2) (hg : g < 2) (hr : r < 1024) (hq : q' < 256) :
    K.h2 p1 (T2 w2) u g r q'
      = conv2 x w1 b1 w2 (256 * t + r % 256) (2 * (r / 256) + u) (4 * g + ow2 (q' / 64)) (q' % 64) := by
  unfold K.h2 conv2
  rw [sum_range_1280]
  refine sum_congr rfl fun kh hkh => ?_
  rw [mem_range] at hkh
  have ha := ow2_le (q' / 64)
  have hterm : ∀ wc ∈ range 8, ∀ ci ∈ range 32,
      p1 ((u + (256 * kh + (32 * wc + ci)) / 256) % 2) ((u + (256 * kh + (32 * wc + ci)) / 256) / 2 * 256 + r)
          (128 * g + (256 * kh + (32 * wc + ci)) % 256) * T2 w2 (256 * kh + (32 * wc + ci)) q'
        = q1 x w1 b1 (256 * t + r % 256) (2 * (r / 256) + u + kh) (4 * g + wc) ci
          * (if ow2 (q' / 64) ≤ wc ∧ wc < ow2 (q' / 64) + 5
             then w2 (32 * (5 * kh + (wc - ow2 (q' / 64))) + ci) (q' % 64) else 0) := by
    intro wc hwc ci hci
    rw [mem_range] at hwc hci
    have e1 : (256 * kh + (32 * wc + ci)) / 256 = kh := by omega
    have e2 : (256 * kh + (32 * wc + ci)) % 256 = 32 * wc + ci := by omega
    have e3 : (256 * kh + (32 * wc + ci)) / 32 % 8 = wc := by omega
    have e4 : (256 * kh + (32 * wc + ci)) % 32 = ci := by omega
    unfold T2
    rw [e1, e2, e3, e4]
    rw [hp1 _ _ _ (by omega) (by omega) (by omega)]
    have a1 : ((u + kh) / 2 * 256 + r) % 256 = r % 256 := by omega
    have a2 : 2 * (((u + kh) / 2 * 256 + r) / 256) + (u + kh) % 2 = 2 * (r / 256) + u + kh := by omega
    have a3 : (128 * g + (32 * wc + ci)) / 32 = 4 * g + wc := by omega
    have a4 : (128 * g + (32 * wc + ci)) % 32 = ci := by omega
    rw [a1, a2, a3, a4]
  rw [sum_congr rfl (fun wc hwc => sum_congr rfl (fun ci hci => hterm wc hwc ci hci))]
  generalize ow2 (q' / 64) = a at ha ⊢
  have hif : ∀ wc ∈ range 8,
      ∑ ci ∈ range 32, q1 x w1 b1 (256 * t + r % 256) (2 * (r / 256) + u + kh) (4 * g + wc) ci
          * (if a ≤ wc ∧ wc < a + 5 then w2 (32 * (5 * kh + (wc - a)) + ci) (q' % 64) else 0)
        = if a ≤ wc ∧ wc < a + 5
          then ∑ ci ∈ range 32, q1 x w1 b1 (256 * t + r % 256) (2 * (r / 256) + u + kh) (4 * g + wc) ci
            * w2 (32 * (5 * kh + (wc - a)) + ci) (q' % 64)
          else 0 := by
    intro wc _
    by_cases hc : a ≤ wc ∧ wc < a + 5
    · simp only [if_pos hc]
    · simp only [if_neg hc, mul_zero, sum_const_zero]
  rw [sum_congr rfl hif, sum_band a ha]
  refine sum_congr rfl fun kw _ => ?_
  refine sum_congr rfl fun ci _ => ?_
  rw [Nat.add_sub_cancel_left, Nat.add_assoc (4 * g) a kw]

/-- The banded spelling's pooled second layer over a first layer `p1` that is the plain one in the (parity, spatial-batch row,
    column-channel) layout: at row r = 256 i + b, column q = 64 j + co it is the plain pooled second layer of image 256 t + b. -/
theorem K_q2_eq (x : ℕ → ℕ → ℕ → EReal) (w1 : ℕ → ℕ → EReal) (b1 : ℕ → EReal) (w2 : ℕ → ℕ → EReal) (b2 : ℕ → EReal) (t : ℕ)
    (p1 : ℕ → ℕ → ℕ → EReal)
    (hp1 : ∀ e r q, e < 2 → r < 1536 → q < 384 →
      p1 e r q = q1 x w1 b1 (256 * t + r % 256) (2 * (r / 256) + e) (q / 32) (q % 32))
    (r q : ℕ) (hr : r < 1024) (hq : q < 256) :
    K.q2 p1 (T2 w2) (fun q => b2 (q % 64)) r q = q2 x w1 b1 w2 b2 (256 * t + r % 256) (r / 256) (q / 64) (q % 64) := by
  have hg : q / 128 < 2 := by omega
  unfold K.q2 q2 pool act2
  rw [h2_eq x w1 b1 w2 t p1 hp1 0 (q / 128) r (q % 128) (by omega) hg hr (by omega),
    h2_eq x w1 b1 w2 t p1 hp1 1 (q / 128) r (q % 128) (by omega) hg hr (by omega),
    h2_eq x w1 b1 w2 t p1 hp1 0 (q / 128) r (q % 128 + 128) (by omega) hg hr (by omega),
    h2_eq x w1 b1 w2 t p1 hp1 1 (q / 128) r (q % 128 + 128) (by omega) hg hr (by omega)]
  rw [relu_pool, ow2_lo, ow2_hi]
  have e1 : 4 * (q / 128) + 2 * (q % 128 / 64) = 2 * (q / 64) := by omega
  have e2 : 4 * (q / 128) + (2 * (q % 128 / 64) + 1) = 2 * (q / 64) + 1 := by omega
  have e3 : q % 128 % 64 = q % 64 := by omega
  have e4 : (q % 128 + 128) % 64 = q % 64 := by omega
  rw [e1, e2, e3, e4, Nat.add_zero]

end Cert.LeNet.AlgK2

end
-- ==== Proof.AlgR.lean ====
import proofs.«175274_g2000709357908425_pallasbulk_852_30_alg».proof.Proof.Spec

noncomputable section

namespace Cert.LeNet.AlgR

open Finset Cert.LeNet

/-- A sum over `k < m * n` is the double sum over `k = n * i + j`, `i < m`, `j < n`. -/
private theorem sum_range_mul (f : ℕ → EReal) (m n : ℕ) :
    ∑ k ∈ range (m * n), f k = ∑ i ∈ range m, ∑ j ∈ range n, f (n * i + j) := by
  induction m with
  | zero => simp
  | succ m ih =>
    rw [Nat.succ_mul, Finset.sum_range_add, ih, Finset.sum_range_succ]
    congr 1
    apply Finset.sum_congr rfl
    intro j _
    rw [Nat.mul_comm]

/-- A sum over `k < a * b * c` is the triple sum over `k = c * (b * i + j) + l`. -/
private theorem sum_range_mul3 (f : ℕ → EReal) (a b c : ℕ) :
    ∑ k ∈ range (a * b * c), f k
      = ∑ i ∈ range a, ∑ j ∈ range b, ∑ l ∈ range c, f (c * (b * i + j) + l) := by
  rw [sum_range_mul f (a * b) c, sum_range_mul (fun m => ∑ l ∈ range c, f (c * m + l)) a b]

/-- A sum over four terms, associated to the left from zero. -/
private theorem sum4 (F : ℕ → EReal) : ∑ i ∈ range 4, F i = (((0 + F 0) + F 1) + F 2) + F 3 := by
  rw [Finset.sum_range_succ, Finset.sum_range_succ, Finset.sum_range_succ, Finset.sum_range_succ,
    Finset.sum_range_zero]

/-- One 256-row block of the first dense layer, split by `k = 64 j + co`. -/
private theorem block (pr fw W : ℕ → EReal) (G : ℕ → ℕ → EReal) (i : ℕ)
    (h1 : ∀ k, k < 256 → pr k = G (k / 64) (k % 64)) (h2 : ∀ k, k < 256 → fw k = W (256 * i + k)) :
    ∑ k ∈ range 256, pr k * fw k = ∑ j ∈ range 4, ∑ co ∈ range 64, G j co * W (64 * (4 * i + j) + co) := by
  have e : ∑ k ∈ range 256, pr k * fw k
      = ∑ j ∈ range 4, ∑ co ∈ range 64, pr (64 * j + co) * fw (64 * j + co) :=
    sum_range_mul (fun k => pr k * fw k) 4 64
  rw [e]
  apply Finset.sum_congr rfl
  intro j hj
  apply Finset.sum_congr rfl
  intro co hco
  rw [Finset.mem_range] at hj hco
  rw [h1 _ (by omega), h2 _ (by omega)]
  rw [show (64 * j + co) / 64 = j by omega, show (64 * j + co) % 64 = co by omega,
    show 256 * i + (64 * j + co) = 64 * (4 * i + j) + co by omega]

private theorem K_hid_eq (x : ℕ → ℕ → ℕ → EReal) (w1 : ℕ → ℕ → EReal) (b1 : ℕ → EReal) (w2 : ℕ → ℕ → EReal) (b2 : ℕ → EReal)
    (f1w : ℕ → ℕ → EReal) (f1b : ℕ → EReal) (t : ℕ) (p2 : ℕ → ℕ → EReal)
    (hp2 : ∀ r q, r < 1024 → q < 256 → p2 r q = q2 x w1 b1 w2 b2 (256 * t + r % 256) (r / 256) (q / 64) (q % 64))
    (b h : ℕ) (hb : b < 256) :
    K.hid p2 f1w f1b b h = hid x w1 b1 w2 b2 f1w f1b (256 * t + b) h := by
  have e0 : ∑ k ∈ range 256, p2 b k * f1w k h
      = ∑ j ∈ range 4, ∑ co ∈ range 64, q2 x w1 b1 w2 b2 (256 * t + b) 0 j co * f1w (64 * (4 * 0 + j) + co) h :=
    block (p2 b) (fun k => f1w k h) (fun k => f1w k h) (fun j co => q2 x w1 b1 w2 b2 (256 * t + b) 0 j co) 0
      (fun k hk => by
        rw [hp2 b k (by omega) hk, show b % 256 = b by omega, show b / 256 = 0 by omega])
      (fun k hk => by simp)
  have e1 : ∑ k ∈ range 256, p2 (256 + b) k * f1w (256 + k) h
      = ∑ j ∈ range 4, ∑ co ∈ range 64, q2 x w1 b1 w2 b2 (256 * t + b) 1 j co * f1w (64 * (4 * 1 + j) + co) h :=
    block (p2 (256 + b)) (fun k => f1w (256 + k) h) (fun k => f1w k h) (fun j co => q2 x w1 b1 w2 b2 (256 * t + b) 1 j co) 1
      (fun k hk => by
        rw [hp2 (256 + b) k (by omega) hk, show (256 + b) % 256 = b by omega, show (256 + b) / 256 = 1 by omega])
      (fun k hk => by simp)
  have e2 : ∑ k ∈ range 256, p2 (512 + b) k * f1w (512 + k) h
      = ∑ j ∈ range 4, ∑ co ∈ range 64, q2 x w1 b1 w2 b2 (256 * t + b) 2 j co * f1w (64 * (4 * 2 + j) + co) h :=
    block (p2 (512 + b)) (fun k => f1w (512 + k) h) (fun k => f1w k h) (fun j co => q2 x w1 b1 w2 b2 (256 * t + b) 2 j co) 2
      (fun k hk => by
        rw [hp2 (512 + b) k (by omega) hk, show (512 + b) % 256 = b by omega, show (512 + b) / 256 = 2 by omega])
      (fun k hk => by simp)
  have e3 : ∑ k ∈ range 256, p2 (768 + b) k * f1w (768 + k) h
      = ∑ j ∈ range 4, ∑ co ∈ range 64, q2 x w1 b1 w2 b2 (256 * t + b) 3 j co * f1w (64 * (4 * 3 + j) + co) h :=
    block (p2 (768 + b)) (fun k => f1w (768 + k) h) (fun k => f1w k h) (fun j co => q2 x w1 b1 w2 b2 (256 * t + b) 3 j co) 3
      (fun k hk => by
        rw [hp2 (768 + b) k (by omega) hk, show (768 + b) % 256 = b by omega, show (768 + b) / 256 = 3 by omega])
      (fun k hk => by simp)
  unfold K.hid hid
  rw [e0, e1, e2, e3]
  rw [sum4 (fun i => ∑ j ∈ range 4, ∑ co ∈ range 64, q2 x w1 b1 w2 b2 (256 * t + b) i j co * f1w (64 * (4 * i + j) + co) h)]

/-- The first dense layer as four partial sums over row blocks of 256, and the second dense layer, over a second layer `p2`
    that is the plain one in the (spatial-batch row, column-channel) layout. -/
theorem K_out_eq (x : ℕ → ℕ → ℕ → EReal) (w1 : ℕ → ℕ → EReal) (b1 : ℕ → EReal) (w2 : ℕ → ℕ → EReal) (b2 : ℕ → EReal)
    (f1w : ℕ → ℕ → EReal) (f1b : ℕ → EReal) (f2w : ℕ → ℕ → EReal) (f2b : ℕ → EReal) (t : ℕ) (p2 : ℕ → ℕ → EReal)
    (hp2 : ∀ r q, r < 1024 → q < 256 → p2 r q = q2 x w1 b1 w2 b2 (256 * t + r % 256) (r / 256) (q / 64) (q % 64))
    (b n : ℕ) (hb : b < 256) :
    K.out (K.hid p2 f1w f1b) f2w f2b b n = out x w1 b1 w2 b2 f1w f1b f2w f2b (256 * t + b) n := by
  unfold K.out out
  congr 1
  apply Finset.sum_congr rfl
  intro k _
  rw [K_hid_eq x w1 b1 w2 b2 f1w f1b t p2 hp2 b k hb]

private theorem R_conv1_eq (x : ℕ → ℕ → ℕ → EReal) (w1 : ℕ → ℕ → EReal) (b oh ow c : ℕ) :
    R.conv1 x w1 b oh ow c = conv1 x w1 b oh ow c := by
  unfold R.conv1 conv1
  have e : ∑ k ∈ range 25, x b (oh + k / 5) (ow + k % 5) * w1 k c
      = ∑ kh ∈ range 5, ∑ kw ∈ range 5,
          x b (oh + (5 * kh + kw) / 5) (ow + (5 * kh + kw) % 5) * w1 (5 * kh + kw) c :=
    sum_range_mul (fun k => x b (oh + k / 5) (ow + k % 5) * w1 k c) 5 5
  rw [e]
  apply Finset.sum_congr rfl
  intro kh hkh
  apply Finset.sum_congr rfl
  intro kw hkw
  rw [Finset.mem_range] at hkh hkw
  rw [show (5 * kh + kw) / 5 = kh by omega, show (5 * kh + kw) % 5 = kw by omega]

private theorem R_q1_eq (x : ℕ → ℕ → ℕ → EReal) (w1 : ℕ → ℕ → EReal) (b1 : ℕ → EReal) :
    R.q1 x w1 b1 = q1 x w1 b1 := by
  have ha : (fun b oh ow c => relu (R.conv1 x w1 b oh ow c + b1 c)) = act1 x w1 b1 := by
    funext b oh ow c
    unfold act1
    rw [R_conv1_eq]
  funext b i j c
  unfold R.q1 q1
  rw [ha]

private theorem R_conv2_eq (x : ℕ → ℕ → ℕ → EReal) (w1 : ℕ → ℕ → EReal) (b1 : ℕ → EReal) (w2 : ℕ → ℕ → EReal)
    (b oh ow co : ℕ) :
    R.conv2 (q1 x w1 b1) w2 b oh ow co = conv2 x w1 b1 w2 b oh ow co := by
  unfold R.conv2 conv2
  have e : ∑ k ∈ range 800, q1 x w1 b1 b (oh + k / 32 / 5) (ow + k / 32 % 5) (k % 32) * w2 k co
      = ∑ kh ∈ range 5, ∑ kw ∈ range 5, ∑ ci ∈ range 32,
          q1 x w1 b1 b (oh + (32 * (5 * kh + kw) + ci) / 32 / 5) (ow + (32 * (5 * kh + kw) + ci) / 32 % 5)
            ((32 * (5 * kh + kw) + ci) % 32) * w2 (32 * (5 * kh + kw) + ci) co :=
    sum_range_mul3 (fun k => q1 x w1 b1 b (oh + k / 32 / 5) (ow + k / 32 % 5) (k % 32) * w2 k co) 5 5 32
  rw [e]
  apply Finset.sum_congr rfl
  intro kh hkh
  apply Finset.sum_congr rfl
  intro kw hkw
  apply Finset.sum_congr rfl
  intro ci hci
  rw [Finset.mem_range] at hkh hkw hci
  rw [show (32 * (5 * kh + kw) + ci) / 32 / 5 = kh by omega,
    show (32 * (5 * kh + kw) + ci) / 32 % 5 = kw by omega,
    show (32 * (5 * kh + kw) + ci) % 32 = ci by omega]

private theorem R_q2_eq (x : ℕ → ℕ → ℕ → EReal) (w1 : ℕ → ℕ → EReal) (b1 : ℕ → EReal) (w2 : ℕ → ℕ → EReal) (b2 : ℕ → EReal) :
    R.q2 (R.conv2 (R.q1 x w1 b1) w2) b2 = q2 x w1 b1 w2 b2 := by
  have ha : (fun b oh ow co => relu (R.conv2 (R.q1 x w1 b1) w2 b oh ow co + b2 co)) = act2 x w1 b1 w2 b2 := by
    funext b oh ow co
    unfold act2
    rw [R_q1_eq, R_conv2_eq]
  funext b i j co
  unfold R.q2 q2
  rw [ha]

private theorem R_hid_eq (x : ℕ → ℕ → ℕ → EReal) (w1 : ℕ → ℕ → EReal) (b1 : ℕ → EReal) (w2 : ℕ → ℕ → EReal) (b2 : ℕ → EReal)
    (f1w : ℕ → ℕ → EReal) (f1b : ℕ → EReal) (b h : ℕ) :
    R.hid (q2 x w1 b1 w2 b2) f1w f1b b h = hid x w1 b1 w2 b2 f1w f1b b h := by
  unfold R.hid hid
  have e : ∑ k ∈ range 1024, q2 x w1 b1 w2 b2 b (k / 64 / 4) (k / 64 % 4) (k % 64) * f1w k h
      = ∑ i ∈ range 4, ∑ j ∈ range 4, ∑ co ∈ range 64,
          q2 x w1 b1 w2 b2 b ((64 * (4 * i + j) + co) / 64 / 4) ((64 * (4 * i + j) + co) / 64 % 4)
            ((64 * (4 * i + j) + co) % 64) * f1w (64 * (4 * i + j) + co) h :=
    sum_range_mul3 (fun k => q2 x w1 b1 w2 b2 b (k / 64 / 4) (k / 64 % 4) (k % 64) * f1w k h) 4 4 64
  rw [e]
  refine congrArg relu (congrArg (fun v => v + f1b h) ?_)
  apply Finset.sum_congr rfl
  intro i hi
  apply Finset.sum_congr rfl
  intro j hj
  apply Finset.sum_congr rfl
  intro co hco
  rw [Finset.mem_range] at hi hj hco
  rw [show (64 * (4 * i + j) + co) / 64 / 4 = i by omega,
    show (64 * (4 * i + j) + co) / 64 % 4 = j by omega,
    show (64 * (4 * i + j) + co) % 64 = co by omega]

/-- The im2col spelling is the plain one. -/
theorem R_out_eq (x : ℕ → ℕ → ℕ → EReal) (w1 : ℕ → ℕ → EReal) (b1 : ℕ → EReal) (w2 : ℕ → ℕ → EReal) (b2 : ℕ → EReal)
    (f1w : ℕ → ℕ → EReal) (f1b : ℕ → EReal) (f2w : ℕ → ℕ → EReal) (f2b : ℕ → EReal) (b n : ℕ) :
    R.out (R.hid (R.q2 (R.conv2 (R.q1 x w1 b1) w2) b2) f1w f1b) f2w f2b b n = out x w1 b1 w2 b2 f1w f1b f2w f2b b n := by
  rw [R_q2_eq]
  unfold R.out out
  congr 1
  apply Finset.sum_congr rfl
  intro k _
  rw [R_hid_eq]

/-- The network of a batch shifted by `s` at image `b` is the network at image `s + b`. -/
theorem out_shift (x : ℕ → ℕ → ℕ → EReal) (w1 : ℕ → ℕ → EReal) (b1 : ℕ → EReal) (w2 : ℕ → ℕ → EReal) (b2 : ℕ → EReal)
    (f1w : ℕ → ℕ → EReal) (f1b : ℕ → EReal) (f2w : ℕ → ℕ → EReal) (f2b : ℕ → EReal) (s b n : ℕ) :
    out (fun b h w => x (s + b) h w) w1 b1 w2 b2 f1w f1b f2w f2b b n = out x w1 b1 w2 b2 f1w f1b f2w f2b (s + b) n := by
  rfl

end Cert.LeNet.AlgR

end
-- ==== Proof.KValue.lean ====
/-
  The idealized kernel program's result, read back: from the blocks each grid point writes to the whole output array, and
  the run. Grid point t handles images 256 t … 256 t + 255; its output block is rows 256 t … of the [8192, 1, 128] array.
-/
import proofs.«175274_g2000709357908425_pallasbulk_852_30_alg».proof.Proof.Gen.KernelIdeal.Frame
import proofs.«175274_g2000709357908425_pallasbulk_852_30_alg».proof.Proof.Spec
import proofs.«175274_g2000709357908425_pallasbulk_852_30_alg».proof.Proof.Net
import proofs.«175274_g2000709357908425_pallasbulk_852_30_alg».proof.Proof.KBody1
import proofs.«175274_g2000709357908425_pallasbulk_852_30_alg».proof.Proof.KBody2
import proofs.«175274_g2000709357908425_pallasbulk_852_30_alg».proof.Proof.KHostT
import proofs.«175274_g2000709357908425_pallasbulk_852_30_alg».proof.Proof.KHostX
import proofs.«175274_g2000709357908425_pallasbulk_852_30_alg».proof.Proof.AlgK1
import proofs.«175274_g2000709357908425_pallasbulk_852_30_alg».proof.Proof.AlgK2
import proofs.«175274_g2000709357908425_pallasbulk_852_30_alg».proof.Proof.AlgR
import Idealize.ShloMosaic.Lib.ValueIdx
import Idealize.ShloMosaic.Lib.Pipeline.Value

set_option maxRecDepth 16384

noncomputable section

namespace Cert.LeNet.KValue

open Idealize.ShloMosaic Idealize.ShloMosaic.ValueIdx Idealize.ShloMosaic.TcCoe Idealize.SL.Sem Cert.KernelIdeal Cert.KernelIdeal.Gen Cert.LeNet
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- Where each window's block sits at grid point t: the image block moves along the batch axis, the output block along its
    rows, every weight window stays at the origin. -/
theorem idx_facts : ∀ t : Fin cfg0.N,
    (win0_0.index t (0 : Fin 4) = 0 ∧ win0_0.index t (1 : Fin 4) = 0 ∧ win0_0.index t (2 : Fin 4) = t.val ∧ win0_0.index t (3 : Fin 4) = 0)
    ∧ (win0_9.index t (0 : Fin 3) = t.val ∧ win0_9.index t (1 : Fin 3) = 0 ∧ win0_9.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The body's stored block over any loaded blocks that are known coordinate by coordinate: the banded spelling of the
    network on the block. -/
theorem body_apply (x0 : Vec Ideal S4x7x256x28 .bf16) (x1 : Vec Ideal S140x768 .bf16) (x2 : Vec Ideal S1x384 .f32)
    (x3 : Vec Ideal S1280x256 .bf16) (x4 : Vec Ideal S1x256 .f32) (x5 : Vec Ideal S1024x512 .bf16) (x6 : Vec Ideal S1x512 .f32)
    (x7 : Vec Ideal S512x128 .bf16) (x8 : Vec Ideal S1x128 .f32)
    (xt : ℕ → ℕ → ℕ → ℕ → EReal) (t1 : ℕ → ℕ → EReal) (b1r : ℕ → EReal) (t2 : ℕ → ℕ → EReal) (b2r : ℕ → EReal)
    (f1w : ℕ → ℕ → EReal) (f1b : ℕ → EReal) (f2w : ℕ → ℕ → EReal) (f2b : ℕ → EReal)
    (hx0 : ∀ (a : Fin 4) (j : Fin 7) (b : Fin 256) (w : Fin 28), x0 (ix4 a j b w) = xt a j b w)
    (hx1 : ∀ (k : Fin 140) (q : Fin 768), x1 (ix2 k q) = t1 k q)
    (hx2 : ∀ q : Fin 384, x2 (ix2 0 q) = b1r q)
    (hx3 : ∀ (k : Fin 1280) (q : Fin 256), x3 (ix2 k q) = t2 k q)
    (hx4 : ∀ q : Fin 256, x4 (ix2 0 q) = b2r q)
    (hx5 : ∀ (k : Fin 1024) (h : Fin 512), x5 (ix2 k h) = f1w k h)
    (hx6 : ∀ h : Fin 512, x6 (ix2 0 h) = f1b h)
    (hx7 : ∀ (k : Fin 512) (n : Fin 128), x7 (ix2 k n) = f2w k n)
    (hx8 : ∀ n : Fin 128, x8 (ix2 0 n) = f2b n)
    (b : Fin 256) (n : Fin 128) :
    out0_9 (F := Ideal) x0 x1 x2 x3 x4 x5 x6 x7 x8 (ix3 b 0 n)
      = K.out (K.hid (K.q2 (K.q1 xt t1 b1r) t2 b2r) f1w f1b) f2w f2b b n := by
  unfold out0_9
  rw [View.canon_unit_zero hz3]
  exact KBody2.ktail _ _ x3 x4 x5 x6 x7 x8 (K.q1 xt t1 b1r) t2 b2r f1w f1b f2w f2b
    (fun r q => KBody1.kq1_even x0 x1 x2 xt t1 b1r hx0 hx1 hx2 r q)
    (fun r q => KBody1.kq1_odd x0 x1 x2 xt t1 b1r hx0 hx1 hx2 r q)
    hx3 hx4 hx5 hx6 hx7 hx8 b n

/-- What the output array [8192, 1, 128] holds after the run: the network of the argument arrays at (image, column). -/
def G (c : Dev nD) : S8192x1x128.Idx → EReal := fun i =>
  net (m ((c.tc : Thread nD τ).loc main_arg0) : S8192x1x28x28.Idx → EReal) (m ((c.tc : Thread nD τ).loc main_arg1) : S25x32.Idx → EReal) (m ((c.tc : Thread nD τ).loc main_arg2) : S1x32.Idx → EReal) (m ((c.tc : Thread nD τ).loc main_arg3) : S800x64.Idx → EReal) (m ((c.tc : Thread nD τ).loc main_arg4) : S1x64.Idx → EReal) (m ((c.tc : Thread nD τ).loc main_arg5) : S1024x512.Idx → EReal) (m ((c.tc : Thread nD τ).loc main_arg6) : S1x512.Idx → EReal) (m ((c.tc : Thread nD τ).loc main_arg7) : S512x128.Idx → EReal) (m ((c.tc : Thread nD τ).loc main_arg8) : S1x128.Idx → EReal) (i 0).val (i 2).val

/-! The blocks the body loads at grid point t, coordinate by coordinate. -/

set_option maxHeartbeats 1600000 in
theorem hx0 (c : Dev nD) (t : Fin cfg0.N) (a : Fin 4) (j : Fin 7) (b : Fin 256) (w : Fin 28) :
    iblk m c 0 t (ix4 a j b w) = (fun a j bl w => xN (m ((c.tc : Thread nD τ).loc main_arg0) : S8192x1x28x28.Idx → EReal) (256 * t.val + bl) (4 * j + a) w) a j b w := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have hN : cfg0.N = 32 := N_0
  have htl : t.val < 32 := hN ▸ t.isLt
  have he : ((cfg0.win 0).blk t).view.emb (ix4 a j b w) = ix4 a j ⟨256 * t.val + b.val, by have := b.isLt; omega⟩ w := by
    funext d; apply Fin.ext
    match d with
    | ⟨0, _⟩ => show win0_0.index t (0 : Fin 4) * 4 + 1 * a.val = a.val; omega
    | ⟨1, _⟩ => show win0_0.index t (1 : Fin 4) * 7 + 1 * j.val = j.val; omega
    | ⟨2, _⟩ => show win0_0.index t (2 : Fin 4) * 256 + 1 * b.val = 256 * t.val + b.val; omega
    | ⟨3, _⟩ => show win0_0.index t (3 : Fin 4) * 28 + 1 * w.val = w.val; omega
  refine Eq.trans (b := V m c main_call0_v2 (((cfg0.win 0).blk t).view.emb (ix4 a j b w))) rfl ?_
  rw [he]
  refine (KHostX.V_xt m c a j ⟨256 * t.val + b.val, by have := b.isLt; omega⟩ w).trans ?_
  exact (xN_ix _ ⟨256 * t.val + b.val, by have := b.isLt; omega⟩ ⟨4 * j.val + a.val, by omega⟩ w).symm

set_option maxHeartbeats 1600000 in
theorem hx1 (c : Dev nD) (t : Fin cfg0.N) (k : Fin 140) (q : Fin 768) : iblk m c 1 t (ix2 k q) = T1 (rd2 (m ((c.tc : Thread nD τ).loc main_arg1) : S25x32.Idx → EReal)) k q := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 1).blk t).view.emb (ix2 k q) = ix2 k q := by
    funext d; apply Fin.ext
    match d with
    | ⟨0, _⟩ => show win0_1.index t (0 : Fin 2) * 140 + 1 * (k : Fin 140).val = (k : Fin 140).val; omega
    | ⟨1, _⟩ => show win0_1.index t (1 : Fin 2) * 768 + 1 * q.val = q.val; omega
  refine Eq.trans (b := V m c main_call0_v36 (((cfg0.win 1).blk t).view.emb (ix2 k q))) rfl ?_
  rw [he]
  exact KHostT.V_t1 m c k q

set_option maxHeartbeats 1600000 in
theorem hx2 (c : Dev nD) (t : Fin cfg0.N) (q : Fin 384) : iblk m c 2 t (ix2 0 q) = (fun q => rowN (m ((c.tc : Thread nD τ).loc main_arg2) : S1x32.Idx → EReal) (q % 32)) q := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 2).blk t).view.emb (ix2 0 q) = ix2 0 q := by
    funext d; apply Fin.ext
    match d with
    | ⟨0, _⟩ => show win0_2.index t (0 : Fin 2) * 1 + 1 * (0 : Fin 1).val = (0 : Fin 1).val; omega
    | ⟨1, _⟩ => show win0_2.index t (1 : Fin 2) * 384 + 1 * q.val = q.val; omega
  refine Eq.trans (b := V m c main_call0_v39 (((cfg0.win 2).blk t).view.emb (ix2 0 q))) rfl ?_
  rw [he]
  refine (KHostX.V_b1r m c q).trans ?_
  exact (rowN_ix _ ⟨q.val % 32, Nat.mod_lt _ (by decide)⟩).symm

set_option maxHeartbeats 1600000 in
theorem hx3 (c : Dev nD) (t : Fin cfg0.N) (k : Fin 1280) (q : Fin 256) : iblk m c 3 t (ix2 k q) = T2 (rd2 (m ((c.tc : Thread nD τ).loc main_arg3) : S800x64.Idx → EReal)) k q := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 3).blk t).view.emb (ix2 k q) = ix2 k q := by
    funext d; apply Fin.ext
    match d with
    | ⟨0, _⟩ => show win0_3.index t (0 : Fin 2) * 1280 + 1 * (k : Fin 1280).val = (k : Fin 1280).val; omega
    | ⟨1, _⟩ => show win0_3.index t (1 : Fin 2) * 256 + 1 * q.val = q.val; omega
  refine Eq.trans (b := V m c main_call0_v63 (((cfg0.win 3).blk t).view.emb (ix2 k q))) rfl ?_
  rw [he]
  exact KHostT.V_t2 m c k q

set_option maxHeartbeats 1600000 in
theorem hx4 (c : Dev nD) (t : Fin cfg0.N) (q : Fin 256) : iblk m c 4 t (ix2 0 q) = (fun q => rowN (m ((c.tc : Thread nD τ).loc main_arg4) : S1x64.Idx → EReal) (q % 64)) q := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 4).blk t).view.emb (ix2 0 q) = ix2 0 q := by
    funext d; apply Fin.ext
    match d with
    | ⟨0, _⟩ => show win0_4.index t (0 : Fin 2) * 1 + 1 * (0 : Fin 1).val = (0 : Fin 1).val; omega
    | ⟨1, _⟩ => show win0_4.index t (1 : Fin 2) * 256 + 1 * q.val = q.val; omega
  refine Eq.trans (b := V m c main_call0_v66 (((cfg0.win 4).blk t).view.emb (ix2 0 q))) rfl ?_
  rw [he]
  refine (KHostX.V_b2r m c q).trans ?_
  exact (rowN_ix _ ⟨q.val % 64, Nat.mod_lt _ (by decide)⟩).symm

set_option maxHeartbeats 1600000 in
theorem hx5 (c : Dev nD) (t : Fin cfg0.N) (k : Fin 1024) (h : Fin 512) : iblk m c 5 t (ix2 k h) = rd2 (m ((c.tc : Thread nD τ).loc main_arg5) : S1024x512.Idx → EReal) k h := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 5).blk t).view.emb (ix2 k h) = ix2 k h := by
    funext d; apply Fin.ext
    match d with
    | ⟨0, _⟩ => show win0_5.index t (0 : Fin 2) * 1024 + 1 * (k : Fin 1024).val = (k : Fin 1024).val; omega
    | ⟨1, _⟩ => show win0_5.index t (1 : Fin 2) * 512 + 1 * h.val = h.val; omega
  refine Eq.trans (b := V m c main_call0_v67 (((cfg0.win 5).blk t).view.emb (ix2 k h))) rfl ?_
  rw [he]
  rw [KHostX.V_f1w m c]; exact (rd2_ix _ k h).symm

set_option maxHeartbeats 1600000 in
theorem hx6 (c : Dev nD) (t : Fin cfg0.N) (h : Fin 512) : iblk m c 6 t (ix2 0 h) = rowN (m ((c.tc : Thread nD τ).loc main_arg6) : S1x512.Idx → EReal) h := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 6).blk t).view.emb (ix2 0 h) = ix2 0 h := by
    funext d; apply Fin.ext
    match d with
    | ⟨0, _⟩ => show win0_6.index t (0 : Fin 2) * 1 + 1 * (0 : Fin 1).val = (0 : Fin 1).val; omega
    | ⟨1, _⟩ => show win0_6.index t (1 : Fin 2) * 512 + 1 * h.val = h.val; omega
  refine Eq.trans (b := V m c main_arg6 (((cfg0.win 6).blk t).view.emb (ix2 0 h))) rfl ?_
  rw [he]
  rw [V_main_arg6 m c]; exact (rowN_ix _ h).symm

set_option maxHeartbeats 1600000 in
theorem hx7 (c : Dev nD) (t : Fin cfg0.N) (k : Fin 512) (n : Fin 128) : iblk m c 7 t (ix2 k n) = rd2 (m ((c.tc : Thread nD τ).loc main_arg7) : S512x128.Idx → EReal) k n := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 7).blk t).view.emb (ix2 k n) = ix2 k n := by
    funext d; apply Fin.ext
    match d with
    | ⟨0, _⟩ => show win0_7.index t (0 : Fin 2) * 512 + 1 * (k : Fin 512).val = (k : Fin 512).val; omega
    | ⟨1, _⟩ => show win0_7.index t (1 : Fin 2) * 128 + 1 * n.val = n.val; omega
  refine Eq.trans (b := V m c main_call0_v68 (((cfg0.win 7).blk t).view.emb (ix2 k n))) rfl ?_
  rw [he]
  rw [KHostX.V_f2w m c]; exact (rd2_ix _ k n).symm

set_option maxHeartbeats 1600000 in
theorem hx8 (c : Dev nD) (t : Fin cfg0.N) (n : Fin 128) : iblk m c 8 t (ix2 0 n) = rowN (m ((c.tc : Thread nD τ).loc main_arg8) : S1x128.Idx → EReal) n := by
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have he : ((cfg0.win 8).blk t).view.emb (ix2 0 n) = ix2 0 n := by
    funext d; apply Fin.ext
    match d with
    | ⟨0, _⟩ => show win0_8.index t (0 : Fin 2) * 1 + 1 * (0 : Fin 1).val = (0 : Fin 1).val; omega
    | ⟨1, _⟩ => show win0_8.index t (1 : Fin 2) * 128 + 1 * n.val = n.val; omega
  refine Eq.trans (b := V m c main_arg8 (((cfg0.win 8).blk t).view.emb (ix2 0 n))) rfl ?_
  rw [he]
  rw [V_main_arg8 m c]; exact (rowN_ix _ n).symm

set_option maxHeartbeats 1600000 in
/-- WHAT GRID POINT t WRITES BACK is block t of `G`: rows 256 t … 256 t + 255. -/
theorem flushed9_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  obtain ⟨⟨a0, a1, a2, a3⟩, ⟨o0, o1, o2⟩, ⟨p10, p11⟩, ⟨p20, p21⟩, ⟨p30, p31⟩, ⟨p40, p41⟩, ⟨p50, p51⟩, ⟨p60, p61⟩, ⟨p70, p71⟩, ⟨p80, p81⟩⟩ := idx_facts t
  have hN : cfg0.N = 32 := N_0
  have htl : t.val < 32 := hN ▸ t.isLt
  funext y
  obtain ⟨b, u, n, rfl⟩ : ∃ (b : Fin 256) (u : Fin 1) (n : Fin 128), y = ix3 b u n := ⟨y 0, y 1, y 2, eq_ix3 y⟩
  obtain rfl : u = 0 := Subsingleton.elim _ _
  refine (body_apply (iblk m c 0 t) (iblk m c 1 t) (iblk m c 2 t) (iblk m c 3 t) (iblk m c 4 t) (iblk m c 5 t) (iblk m c 6 t)
    (iblk m c 7 t) (iblk m c 8 t)
    (fun a j bl w => xN (m ((c.tc : Thread nD τ).loc main_arg0) : S8192x1x28x28.Idx → EReal) (256 * t.val + bl) (4 * j + a) w) (T1 (rd2 (m ((c.tc : Thread nD τ).loc main_arg1) : S25x32.Idx → EReal)))
    (fun q => rowN (m ((c.tc : Thread nD τ).loc main_arg2) : S1x32.Idx → EReal) (q % 32)) (T2 (rd2 (m ((c.tc : Thread nD τ).loc main_arg3) : S800x64.Idx → EReal))) (fun q => rowN (m ((c.tc : Thread nD τ).loc main_arg4) : S1x64.Idx → EReal) (q % 64))
    (rd2 (m ((c.tc : Thread nD τ).loc main_arg5) : S1024x512.Idx → EReal)) (rowN (m ((c.tc : Thread nD τ).loc main_arg6) : S1x512.Idx → EReal)) (rd2 (m ((c.tc : Thread nD τ).loc main_arg7) : S512x128.Idx → EReal)) (rowN (m ((c.tc : Thread nD τ).loc main_arg8) : S1x128.Idx → EReal)) (hx0 m c t) (hx1 m c t) (hx2 m c t) (hx3 m c t) (hx4 m c t) (hx5 m c t) (hx6 m c t)
    (hx7 m c t) (hx8 m c t) b n).trans ?_
  -- the banded spelling on the block is the network of image 256 t + b
  refine (AlgR.K_out_eq (xN (m ((c.tc : Thread nD τ).loc main_arg0) : S8192x1x28x28.Idx → EReal)) (rd2 (m ((c.tc : Thread nD τ).loc main_arg1) : S25x32.Idx → EReal)) (rowN (m ((c.tc : Thread nD τ).loc main_arg2) : S1x32.Idx → EReal)) (rd2 (m ((c.tc : Thread nD τ).loc main_arg3) : S800x64.Idx → EReal)) (rowN (m ((c.tc : Thread nD τ).loc main_arg4) : S1x64.Idx → EReal))
    (rd2 (m ((c.tc : Thread nD τ).loc main_arg5) : S1024x512.Idx → EReal)) (rowN (m ((c.tc : Thread nD τ).loc main_arg6) : S1x512.Idx → EReal)) (rd2 (m ((c.tc : Thread nD τ).loc main_arg7) : S512x128.Idx → EReal)) (rowN (m ((c.tc : Thread nD τ).loc main_arg8) : S1x128.Idx → EReal)) t.val _
    (fun r q hr hq => AlgK2.K_q2_eq _ _ _ _ _ t.val _
      (fun e r q he hr hq => AlgK1.K_q1_eq _ _ _ t.val e r q he hr hq) r q hr hq) b.val n.val b.isLt).trans ?_
  -- which is G at the block's embedded index
  refine Eq.trans ?_ (b := G m c (((cfg0.win 9).blk t).view.emb (ix3 b 0 n))) rfl
  have he9 : ((cfg0.win 9).blk t).view.emb (ix3 b 0 n) = ix3 ⟨256 * t.val + b.val, by have := b.isLt; omega⟩ 0 n := by
    funext d; apply Fin.ext
    match d with
    | ⟨0, _⟩ => show win0_9.index t (0 : Fin 3) * 256 + 1 * b.val = 256 * t.val + b.val; omega
    | ⟨1, _⟩ => show win0_9.index t (1 : Fin 3) * 1 + 1 * 0 = 0; omega
    | ⟨2, _⟩ => show win0_9.index t (2 : Fin 3) * 128 + 1 * n.val = n.val; omega
  rw [he9]
  rfl

/-- Every block of rows is some grid point's. -/
theorem idx_onto : ∀ q : Fin 32, ∃ t : Fin cfg0.N, win0_9.index t = ![q.val, 0, 0] :=
  (by decide +kernel : ∀ q : Fin 32, ∃ t : Fin grid0.N, win0_9.index t = ![q.val, 0, 0])

/-- An index of the output array is in grid point t's block iff each coordinate is in the block's range on its axis. -/
theorem mem_blk9 (t : Fin cfg0.N) (i : S8192x1x128.Idx) :
    i ∈ ((cfg0.win 9).blk t).view.set ↔ ∀ a : Fin 3, win0_9.index t a * S256x1x128.size a ≤ (i a).val ∧ (i a).val < win0_9.index t a * S256x1x128.size a + S256x1x128.size a := by
  show i ∈ ((View.whole main_call0_v69).slice (win0_9.rect t)).set ↔ _
  rw [View.set_slice_whole, Rect.mem_set_unit]
  exact Iff.rfl

/-- The 32 row blocks tile the output array. -/
theorem cover9 (i : S8192x1x128.Idx) : ∃ t : Fin cfg0.N, (cfg0.win 9).flush t = true ∧ i ∈ ((cfg0.win 9).blk t).view.set := by
  have hi0 : (i 0).val < 8192 := (i 0).isLt
  have hi1 : (i 1).val < 1 := (i 1).isLt
  have hi2 : (i 2).val < 128 := (i 2).isLt
  obtain ⟨t, ht⟩ := idx_onto ⟨(i 0).val / 256, by omega⟩
  have q0 : win0_9.index t (0 : Fin 3) = (i 0).val / 256 := congrFun ht 0
  have q1 : win0_9.index t (1 : Fin 3) = 0 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 256 ≤ (i 0).val ∧ (i 0).val < win0_9.index t (0 : Fin 3) * 256 + 256; omega
  | ⟨1, _⟩ => show win0_9.index t (1 : Fin 3) * 1 ≤ (i 1).val ∧ (i 1).val < win0_9.index t (1 : Fin 3) * 1 + 1; omega
  | ⟨2, _⟩ => show win0_9.index t (2 : Fin 3) * 128 ≤ (i 2).val ∧ (i 2).val < win0_9.index t (2 : Fin 3) * 128 + 128; omega

/-- THE OUTPUT ARRAY after the run is `G`. -/
theorem final9 (c : Dev nD) : (dats m 0 c).arrAt 9 cfg0.N = G m c :=
  (dats m 0 c).arrAt_eq_of_cover 9 (G m c) (fun t _ => flushed9_eq m c t) cover9

/-- THE RUN: every weakly fair execution terminates with the result at the network of the arguments, first ten columns,
    and the arguments unchanged. -/
theorem run : θ_run (Cert.KernelIdeal.defs (F := Ideal)) (onTc (τ := τ) (main (F := Ideal))) ⟨m, fun _ => 0, ρ⟩ fun r => ∀ c : Dev nD,
      r.2.mem ((c.tc : Thread nD τ).loc main_v0) = (fun i : S8192x10.Idx => net (m ((c.tc : Thread nD τ).loc main_arg0) : S8192x1x28x28.Idx → EReal) (m ((c.tc : Thread nD τ).loc main_arg1) : S25x32.Idx → EReal) (m ((c.tc : Thread nD τ).loc main_arg2) : S1x32.Idx → EReal) (m ((c.tc : Thread nD τ).loc main_arg3) : S800x64.Idx → EReal) (m ((c.tc : Thread nD τ).loc main_arg4) : S1x64.Idx → EReal) (m ((c.tc : Thread nD τ).loc main_arg5) : S1024x512.Idx → EReal) (m ((c.tc : Thread nD τ).loc main_arg6) : S1x512.Idx → EReal) (m ((c.tc : Thread nD τ).loc main_arg7) : S512x128.Idx → EReal) (m ((c.tc : Thread nD τ).loc main_arg8) : S1x128.Idx → EReal) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨?_, ?_⟩) (run_main m ρ)
  · refine ((h c).2 main_v0 (Pipeline.mem_restRefs_of main_v0 (by decide) (by decide))).trans ?_
    funext i
    obtain ⟨b, n, rfl⟩ : ∃ (b : Fin 8192) (n : Fin 10), i = ix2 b n := ⟨i 0, i 1, eq_ix2 i⟩
    refine (KHostX.result_apply m c b n).trans ?_
    rw [final9]
    rfl
  · exact ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c)))⟩

end Cert.LeNet.KValue

end
-- ==== Proof.RBody1.lean ====
import proofs.«175274_g2000709357908425_pallasbulk_852_30_alg».proof.Proof.Gen.ReferenceIdeal.Frame
import proofs.«175274_g2000709357908425_pallasbulk_852_30_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.RBody1

open Idealize.ShloMosaic Idealize.ShloMosaic.ValueIdx Cert.ReferenceIdeal Cert.ReferenceIdeal.Gen Cert.LeNet

/-! The reference body's values as named stages: the im2col taps, the first convolution with bias and
    rectification, the two pairwise maxima of the pool, the second im2col's windows. -/

theorem slices1 (n : Fin 25) : S8x28x28.Slices ![0, n.val / 5, n.val % 5] S8x24x24 := by
  have := n.isLt
  exact ⟨rfl, fun a => match a with
    | ⟨0, _⟩ => by show 0 + 8 ≤ 8; omega
    | ⟨1, _⟩ => by show n.val / 5 + 24 ≤ 28; omega
    | ⟨2, _⟩ => by show n.val % 5 + 24 ≤ 28; omega⟩

theorem slices2 (n : Fin 25) : S8x12x12x32.Slices ![0, n.val / 5, n.val % 5, 0] S8x8x8x32 := by
  have := n.isLt
  exact ⟨rfl, fun a => match a with
    | ⟨0, _⟩ => by show 0 + 8 ≤ 8; omega
    | ⟨1, _⟩ => by show n.val / 5 + 8 ≤ 12; omega
    | ⟨2, _⟩ => by show n.val % 5 + 8 ≤ 12; omega
    | ⟨3, _⟩ => by show 0 + 32 ≤ 32; omega⟩

/-- tap n = (kh, kw) of the image block: x0[:, kh:kh+24, kw:kw+24] with a unit last axis -/
def tap (v0 : Vec Ideal S8x28x28 .f32) (n : Fin 25) : S8x24x24x1.Idx → EReal :=
  shapeCast S8x24x24x1 (extractStridedSlice S8x24x24 ![0, n.val / 5, n.val % 5]
    (shapeCast S8x28x28 v0 shapeCasts_S8x28x28_S8x28x28) (slices1 n)) shapeCasts_S8x24x24_S8x24x24x1

/-- first convolution as a product with the im2col matrix, plus bias row, max 0 -/
def act (v53 : FVec Ideal S4608x25 .f32) (v54 : Vec Ideal S25x32 .f32) (v56 : Vec Ideal S1x32 .f32) : FVec Ideal S4608x32 .f32 :=
  maximumf (addf (matmul (φ₂ := .f32) dot_S4608x25_S25x32_S4608x32_1_0_0_1_n_n none v53 v54 (constant S4608x32 .f32 0x00000000#32))
    (broadcastTo S4608x32 v56 broadcasts_S1x32_S4608x32)) (broadcast S4608x32 (Scalar.ofBits .f32 0x00000000#32))

/-- maximum over row pairs -/
def rowmax (v61 : FVec Ideal S8x24x24x32 .f32) : FVec Ideal S8x12x24x32 .f32 :=
  maximumf
    (shapeCast S8x12x24x32 (extractStridedSlice S8x12x1x24x32 ![0, 0, 0, 0, 0]
      (shapeCast S8x12x2x24x32 v61 shapeCasts_S8x24x24x32_S8x12x2x24x32) slices_S8x12x2x24x32_o0_0_0_0_0_S8x12x1x24x32)
      shapeCasts_S8x12x1x24x32_S8x12x24x32)
    (shapeCast S8x12x24x32 (extractStridedSlice S8x12x1x24x32 ![0, 0, 1, 0, 0]
      (shapeCast S8x12x2x24x32 v61 shapeCasts_S8x24x24x32_S8x12x2x24x32) slices_S8x12x2x24x32_o0_0_1_0_0_S8x12x1x24x32)
      shapeCasts_S8x12x1x24x32_S8x12x24x32)

/-- maximum over column pairs -/
def colmax (v67 : FVec Ideal S8x12x24x32 .f32) : FVec Ideal S8x12x12x32 .f32 :=
  maximumf
    (shapeCast S8x12x12x32 (extractStridedSlice S8x12x12x1x32 ![0, 0, 0, 0, 0]
      (shapeCast S8x12x12x2x32 v67 shapeCasts_S8x12x24x32_S8x12x12x2x32) slices_S8x12x12x2x32_o0_0_0_0_0_S8x12x12x1x32)
      shapeCasts_S8x12x12x1x32_S8x12x12x32)
    (shapeCast S8x12x12x32 (extractStridedSlice S8x12x12x1x32 ![0, 0, 0, 1, 0]
      (shapeCast S8x12x12x2x32 v67 shapeCasts_S8x12x24x32_S8x12x12x2x32) slices_S8x12x12x2x32_o0_0_0_1_0_S8x12x12x1x32)
      shapeCasts_S8x12x12x1x32_S8x12x12x32)

/-- the pooled first layer, [8,12,12,32] -/
def pooled (v60 : FVec Ideal S4608x32 .f32) : FVec Ideal S8x12x12x32 .f32 :=
  colmax (rowmax (shapeCast S8x24x24x32 v60 shapeCasts_S4608x32_S8x24x24x32))

/-- window n = (kh, kw) of the pooled array: P[:, kh:kh+8, kw:kw+8, :] -/
def win (P : FVec Ideal S8x12x12x32 .f32) (n : Fin 25) : S8x8x8x32.Idx → EReal :=
  extractStridedSlice S8x8x8x32 ![0, n.val / 5, n.val % 5, 0] P (slices2 n)

/-- the im2col matrix [4608, 25] of the image block -/
def im2col (v0 : Vec Ideal S8x28x28 .f32) : FVec Ideal S4608x25 .f32 :=
  shapeCast S4608x25 (concatenate S8x24x24x25 3
      (List.ofFn fun n : Fin 25 => (⟨S8x24x24x1, tap v0 n⟩ : (s : Shape) × (s.Idx → EReal)))
      concatenates_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x1_S8x24x24x25_d3)
      shapeCasts_S8x24x24x25_S4608x25

/-- the second im2col matrix [512, 800] of the pooled array -/
def cols (P : FVec Ideal S8x12x12x32 .f32) : FVec Ideal S512x800 .f32 :=
  shapeCast S512x800 (concatenate S8x8x8x800 3
      (List.ofFn fun n : Fin 25 => (⟨S8x8x8x32, win P n⟩ : (s : Shape) × (s.Idx → EReal)))
      concatenates_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x32_S8x8x8x800_d3)
      shapeCasts_S8x8x8x800_S512x800

theorem pay2_eq (v0 : Vec Ideal S8x28x28 .f32) : k0_pay2 (F := Ideal) v0 = im2col v0 := rfl

theorem pay3_eq (v53 : FVec Ideal S4608x25 .f32) (v54 : Vec Ideal S25x32 .f32) (v56 : Vec Ideal S1x32 .f32) (v101 : Vec Ideal S800x64 .f32) :
    k0_pay3 (F := Ideal) v53 v54 v56 v101
      = matmul (φ₁ := .f32) (φ₂ := .f32) dot_S512x800_S800x64_S512x64_1_0_0_1_n_n none
          (cols (pooled (act v53 v54 v56))) v101 (constant S512x64 .f32 0x00000000#32) := rfl

/-! The two products read at an index: sums over the contracted coordinate. -/

theorem mm1_apply (A : FVec Ideal S4608x25 .f32) (B : Vec Ideal S25x32 .f32) (r : Fin 4608) (c : Fin 32) :
    matmul (φ₂ := .f32) dot_S4608x25_S25x32_S4608x32_1_0_0_1_n_n none A B (constant S4608x32 .f32 0x00000000#32) (ix2 r c)
      = ∑ k : Fin 25, A (ix2 r k) * B (ix2 k c) := by
  show FloatOps.matmul _ none A B _ (ix2 r c) = _
  rw [Ideal.matmul_constant_zero_apply,
    ← Equiv.sum_comp (contrEquiv1 dot_S4608x25_S25x32_S4608x32_1_0_0_1_n_n 25 rfl rfl).symm]
  refine Finset.sum_congr rfl fun k _ => ?_
  have c2 := contrEquiv1_symm_val dot_S4608x25_S25x32_S4608x32_1_0_0_1_n_n 25 rfl rfl k
  have l2 : dot_S4608x25_S25x32_S4608x32_1_0_0_1_n_n.lhsIdx (ix2 r c) ((contrEquiv1 _ 25 rfl rfl).symm k) = ix2 r k := by
    funext ax; apply Fin.ext
    match ax with
    | ⟨0, _⟩ => simp [DotDims.lhsIdx, dot_S4608x25_S25x32_S4608x32_1_0_0_1_n_n]; rfl
    | ⟨1, _⟩ => simp [DotDims.lhsIdx, dot_S4608x25_S25x32_S4608x32_1_0_0_1_n_n]; exact c2
  have r2 : dot_S4608x25_S25x32_S4608x32_1_0_0_1_n_n.rhsIdx (ix2 r c) ((contrEquiv1 _ 25 rfl rfl).symm k) = ix2 k c := by
    funext ax; apply Fin.ext
    match ax with
    | ⟨0, _⟩ => simp [DotDims.rhsIdx, dot_S4608x25_S25x32_S4608x32_1_0_0_1_n_n]; exact c2
    | ⟨1, _⟩ => simp [DotDims.rhsIdx, dot_S4608x25_S25x32_S4608x32_1_0_0_1_n_n]; rfl
  rw [l2, r2]

theorem mm2_apply (A : FVec Ideal S512x800 .f32) (B : Vec Ideal S800x64 .f32) (r : Fin 512) (c : Fin 64) :
    matmul (φ₁ := .f32) (φ₂ := .f32) dot_S512x800_S800x64_S512x64_1_0_0_1_n_n none A B (constant S512x64 .f32 0x00000000#32) (ix2 r c)
      = ∑ k : Fin 800, A (ix2 r k) * B (ix2 k c) := by
  show FloatOps.matmul _ none A B _ (ix2 r c) = _
  rw [Ideal.matmul_constant_zero_apply,
    ← Equiv.sum_comp (contrEquiv1 dot_S512x800_S800x64_S512x64_1_0_0_1_n_n 800 rfl rfl).symm]
  refine Finset.sum_congr rfl fun k _ => ?_
  have c2 := contrEquiv1_symm_val dot_S512x800_S800x64_S512x64_1_0_0_1_n_n 800 rfl rfl k
  have l2 : dot_S512x800_S800x64_S512x64_1_0_0_1_n_n.lhsIdx (ix2 r c) ((contrEquiv1 _ 800 rfl rfl).symm k) = ix2 r k := by
    funext ax; apply Fin.ext
    match ax with
    | ⟨0, _⟩ => simp [DotDims.lhsIdx, dot_S512x800_S800x64_S512x64_1_0_0_1_n_n]; rfl
    | ⟨1, _⟩ => simp [DotDims.lhsIdx, dot_S512x800_S800x64_S512x64_1_0_0_1_n_n]; exact c2
  have r2 : dot_S512x800_S800x64_S512x64_1_0_0_1_n_n.rhsIdx (ix2 r c) ((contrEquiv1 _ 800 rfl rfl).symm k) = ix2 k c := by
    funext ax; apply Fin.ext
    match ax with
    | ⟨0, _⟩ => simp [DotDims.rhsIdx, dot_S512x800_S800x64_S512x64_1_0_0_1_n_n]; exact c2
    | ⟨1, _⟩ => simp [DotDims.rhsIdx, dot_S512x800_S800x64_S512x64_1_0_0_1_n_n]; rfl
  rw [l2, r2]

/-- the first layer before the pool, at (row, channel): the rectified biased sum -/
theorem act_apply (v53 : FVec Ideal S4608x25 .f32) (v54 : Vec Ideal S25x32 .f32) (v56 : Vec Ideal S1x32 .f32)
    (r : Fin 4608) (c : Fin 32) :
    act v53 v54 v56 (ix2 r c) = relu ((∑ k : Fin 25, v53 (ix2 r k) * v54 (ix2 k c)) + v56 (ix2 0 c)) := by
  unfold act relu
  rw [maximumf_apply, addf_apply, broadcast_apply, mm1_apply]
  rw [show broadcastTo S4608x32 v56 broadcasts_S1x32_S4608x32 (ix2 r c) = v56 (ix2 (0 : Fin 1) c) from
    broadcastTo_1b_ab_apply v56 broadcasts_S1x32_S4608x32 r c]
  show max _ (Ideal.ofBits .f32 0x00000000#32) = _
  rw [Ideal.ofBits_zero_f32]

/-! The pool's stages and the two im2col matrices read at an index. -/

theorem rowmax_apply (X : FVec Ideal S8x24x24x32 .f32) (b : Fin 8) (i : Fin 12) (w : Fin 24) (c : Fin 32) :
    rowmax X (ix4 b i w c)
      = max (X (ix4 b (⟨2 * i.val, by have := i.isLt; omega⟩ : Fin 24) w c))
            (X (ix4 b (⟨2 * i.val + 1, by have := i.isLt; omega⟩ : Fin 24) w c)) := by
  have hb := b.isLt; have hi := i.isLt; have hw := w.isLt; have hc := c.isLt
  unfold rowmax
  rw [maximumf_apply]
  congr 1
  · refine (shapeCast_apply _ _ (ix4 b i w c) (ix5 b i (0 : Fin 1) w c) ?_).trans ?_
    · rw [Shape.rowMajor_val_five, Shape.rowMajor_val_four]
      show ((((b.val * 12 + i.val) * 1 + 0) * 24 + w.val) * 32 + c.val) = (((b.val * 12 + i.val) * 24 + w.val) * 32 + c.val)
      omega
    refine (extractStridedSlice_apply _ _ _ (ix5 b i (0 : Fin 1) w c) (ix5 b i (0 : Fin 2) w c) ?_).trans ?_
    · intro a
      match a with
      | ⟨0, _⟩ => show b.val = 0 + b.val; omega
      | ⟨1, _⟩ => show i.val = 0 + i.val; omega
      | ⟨2, _⟩ => show 0 = 0 + 0; omega
      | ⟨3, _⟩ => show w.val = 0 + w.val; omega
      | ⟨4, _⟩ => show c.val = 0 + c.val; omega
    refine shapeCast_apply _ _ (ix5 b i (0 : Fin 2) w c) (ix4 b (⟨2 * i.val, by omega⟩ : Fin 24) w c) ?_
    rw [Shape.rowMajor_val_five, Shape.rowMajor_val_four]
    show (((b.val * 24 + 2 * i.val) * 24 + w.val) * 32 + c.val) = ((((b.val * 12 + i.val) * 2 + 0) * 24 + w.val) * 32 + c.val)
    omega
  · refine (shapeCast_apply _ _ (ix4 b i w c) (ix5 b i (0 : Fin 1) w c) ?_).trans ?_
    · rw [Shape.rowMajor_val_five, Shape.rowMajor_val_four]
      show ((((b.val * 12 + i.val) * 1 + 0) * 24 + w.val) * 32 + c.val) = (((b.val * 12 + i.val) * 24 + w.val) * 32 + c.val)
      omega
    refine (extractStridedSlice_apply _ _ _ (ix5 b i (0 : Fin 1) w c) (ix5 b i (1 : Fin 2) w c) ?_).trans ?_
    · intro a
      match a with
      | ⟨0, _⟩ => show b.val = 0 + b.val; omega
      | ⟨1, _⟩ => show i.val = 0 + i.val; omega
      | ⟨2, _⟩ => show 1 = 1 + 0; omega
      | ⟨3, _⟩ => show w.val = 0 + w.val; omega
      | ⟨4, _⟩ => show c.val = 0 + c.val; omega
    refine shapeCast_apply _ _ (ix5 b i (1 : Fin 2) w c) (ix4 b (⟨2 * i.val + 1, by omega⟩ : Fin 24) w c) ?_
    rw [Shape.rowMajor_val_five, Shape.rowMajor_val_four]
    show (((b.val * 24 + (2 * i.val + 1)) * 24 + w.val) * 32 + c.val) = ((((b.val * 12 + i.val) * 2 + 1) * 24 + w.val) * 32 + c.val)
    omega

theorem colmax_apply (X : FVec Ideal S8x12x24x32 .f32) (b : Fin 8) (i j : Fin 12) (c : Fin 32) :
    colmax X (ix4 b i j c)
      = max (X (ix4 b i (⟨2 * j.val, by have := j.isLt; omega⟩ : Fin 24) c))
            (X (ix4 b i (⟨2 * j.val + 1, by have := j.isLt; omega⟩ : Fin 24) c)) := by
  have hb := b.isLt; have hi := i.isLt; have hj := j.isLt; have hc := c.isLt
  unfold colmax
  rw [maximumf_apply]
  congr 1
  · refine (shapeCast_apply _ _ (ix4 b i j c) (ix5 b i j (0 : Fin 1) c) ?_).trans ?_
    · rw [Shape.rowMajor_val_five, Shape.rowMajor_val_four]
      show ((((b.val * 12 + i.val) * 12 + j.val) * 1 + 0) * 32 + c.val) = (((b.val * 12 + i.val) * 12 + j.val) * 32 + c.val)
      omega
    refine (extractStridedSlice_apply _ _ _ (ix5 b i j (0 : Fin 1) c) (ix5 b i j (0 : Fin 2) c) ?_).trans ?_
    · intro a
      match a with
      | ⟨0, _⟩ => show b.val = 0 + b.val; omega
      | ⟨1, _⟩ => show i.val = 0 + i.val; omega
      | ⟨2, _⟩ => show j.val = 0 + j.val; omega
      | ⟨3, _⟩ => show 0 = 0 + 0; omega
      | ⟨4, _⟩ => show c.val = 0 + c.val; omega
    refine shapeCast_apply _ _ (ix5 b i j (0 : Fin 2) c) (ix4 b i (⟨2 * j.val, by omega⟩ : Fin 24) c) ?_
    rw [Shape.rowMajor_val_five, Shape.rowMajor_val_four]
    show (((b.val * 12 + i.val) * 24 + 2 * j.val) * 32 + c.val) = ((((b.val * 12 + i.val) * 12 + j.val) * 2 + 0) * 32 + c.val)
    omega
  · refine (shapeCast_apply _ _ (ix4 b i j c) (ix5 b i j (0 : Fin 1) c) ?_).trans ?_
    · rw [Shape.rowMajor_val_five, Shape.rowMajor_val_four]
      show ((((b.val * 12 + i.val) * 12 + j.val) * 1 + 0) * 32 + c.val) = (((b.val * 12 + i.val) * 12 + j.val) * 32 + c.val)
      omega
    refine (extractStridedSlice_apply _ _ _ (ix5 b i j (0 : Fin 1) c) (ix5 b i j (1 : Fin 2) c) ?_).trans ?_
    · intro a
      match a with
      | ⟨0, _⟩ => show b.val = 0 + b.val; omega
      | ⟨1, _⟩ => show i.val = 0 + i.val; omega
      | ⟨2, _⟩ => show j.val = 0 + j.val; omega
      | ⟨3, _⟩ => show 1 = 1 + 0; omega
      | ⟨4, _⟩ => show c.val = 0 + c.val; omega
    refine shapeCast_apply _ _ (ix5 b i j (1 : Fin 2) c) (ix4 b i (⟨2 * j.val + 1, by omega⟩ : Fin 24) c) ?_
    rw [Shape.rowMajor_val_five, Shape.rowMajor_val_four]
    show (((b.val * 12 + i.val) * 24 + (2 * j.val + 1)) * 32 + c.val) = ((((b.val * 12 + i.val) * 12 + j.val) * 2 + 1) * 32 + c.val)
    omega

/-- the rows-(b, y, x) matrix viewed [8,24,24,32] -/
theorem cast61_apply (X : FVec Ideal S4608x32 .f32) (b : Fin 8) (y x : Fin 24) (c : Fin 32) :
    shapeCast S8x24x24x32 X shapeCasts_S4608x32_S8x24x24x32 (ix4 b y x c)
      = X (ix2 (⟨(24 * b.val + y.val) * 24 + x.val, by have := b.isLt; have := y.isLt; have := x.isLt; omega⟩ : Fin 4608) c) := by
  have hb := b.isLt; have hy := y.isLt; have hx := x.isLt; have hc := c.isLt
  refine shapeCast_apply _ _ (ix4 b y x c) (ix2 (⟨(24 * b.val + y.val) * 24 + x.val, by omega⟩ : Fin 4608) c) ?_
  rw [Shape.rowMajor_val_two, Shape.rowMajor_val_four]
  show ((24 * b.val + y.val) * 24 + x.val) * 32 + c.val = (((b.val * 24 + y.val) * 24 + x.val) * 32 + c.val)
  omega

theorem win_apply (P : FVec Ideal S8x12x12x32 .f32) (n : Fin 25) (b : Fin 8) (oh ow : Fin 8) (c : Fin 32) :
    win P n (ix4 b oh ow c)
      = P (ix4 b (⟨oh.val + n.val / 5, by have := oh.isLt; have := n.isLt; omega⟩ : Fin 12)
                 (⟨ow.val + n.val % 5, by have := ow.isLt; have := n.isLt; omega⟩ : Fin 12) c) := by
  have hn := n.isLt; have hoh := oh.isLt; have how := ow.isLt
  unfold win
  refine extractStridedSlice_apply _ _ _ (ix4 b oh ow c) _ ?_
  intro a
  match a with
  | ⟨0, _⟩ => show b.val = 0 + b.val; omega
  | ⟨1, _⟩ => show oh.val + n.val / 5 = n.val / 5 + oh.val; omega
  | ⟨2, _⟩ => show ow.val + n.val % 5 = n.val % 5 + ow.val; omega
  | ⟨3, _⟩ => show c.val = 0 + c.val; omega

theorem tap_apply (v0 : Vec Ideal S8x28x28 .f32) (n : Fin 25) (b : Fin 8) (oh ow : Fin 24) :
    tap v0 n (ix4 b oh ow (0 : Fin 1))
      = v0 (ix3 b (⟨oh.val + n.val / 5, by have := oh.isLt; have := n.isLt; omega⟩ : Fin 28)
                  (⟨ow.val + n.val % 5, by have := ow.isLt; have := n.isLt; omega⟩ : Fin 28)) := by
  have hn := n.isLt; have hoh := oh.isLt; have how := ow.isLt; have hb := b.isLt
  unfold tap
  rw [shapeCast_self]
  refine (shapeCast_apply _ _ (ix4 b oh ow (0 : Fin 1)) (ix3 b oh ow) ?_).trans ?_
  · rw [Shape.rowMajor_val_three, Shape.rowMajor_val_four]
    show ((b.val * 24 + oh.val) * 24 + ow.val) = (((b.val * 24 + oh.val) * 24 + ow.val) * 1 + 0)
    omega
  refine extractStridedSlice_apply _ _ _ (ix3 b oh ow) _ ?_
  intro a
  match a with
  | ⟨0, _⟩ => show b.val = 0 + b.val; omega
  | ⟨1, _⟩ => show oh.val + n.val / 5 = n.val / 5 + oh.val; omega
  | ⟨2, _⟩ => show ow.val + n.val % 5 = n.val % 5 + ow.val; omega

theorem im2col_apply (v0 : Vec Ideal S8x28x28 .f32) (b : Fin 8) (oh ow : Fin 24) (k : Fin 25) (row : Fin 4608)
    (hrow : row.val = (24 * b.val + oh.val) * 24 + ow.val) :
    im2col v0 (ix2 row k)
      = v0 (ix3 b (⟨oh.val + k.val / 5, by have := oh.isLt; have := k.isLt; omega⟩ : Fin 28)
                  (⟨ow.val + k.val % 5, by have := ow.isLt; have := k.isLt; omega⟩ : Fin 28)) := by
  have hb := b.isLt; have hoh := oh.isLt; have how := ow.isLt; have hk := k.isLt
  unfold im2col
  refine (shapeCast_apply _ _ (ix2 row k) (ix4 b oh ow k) ?_).trans ?_
  · rw [Shape.rowMajor_val_four, Shape.rowMajor_val_two]
    show (((b.val * 24 + oh.val) * 24 + ow.val) * 25 + k.val) = row.val * 25 + k.val
    rw [hrow]; omega
  refine (concatenate_ofFn_unit_apply (t := S8x24x24x25) (s₁ := S8x24x24x1) 3 (tap v0) _ rfl rfl (ix4 b oh ow k) k rfl (ix4 b oh ow (0 : Fin 1)) ?_).trans ?_
  · intro a ha
    match a with
    | ⟨0, _⟩ => rfl
    | ⟨1, _⟩ => rfl
    | ⟨2, _⟩ => rfl
    | ⟨3, _⟩ => exact absurd rfl ha
  exact tap_apply v0 k b oh ow

theorem cols_apply (P : FVec Ideal S8x12x12x32 .f32) (r : Fin 512) (k : Fin 800) :
    cols P (ix2 r k)
      = P (ix4 (⟨r.val / 64, by have := r.isLt; omega⟩ : Fin 8)
               (⟨r.val / 8 % 8 + k.val / 32 / 5, by have := r.isLt; have := k.isLt; omega⟩ : Fin 12)
               (⟨r.val % 8 + k.val / 32 % 5, by have := r.isLt; have := k.isLt; omega⟩ : Fin 12)
               (⟨k.val % 32, by omega⟩ : Fin 32)) := by
  have hr := r.isLt; have hk := k.isLt
  unfold cols
  refine (shapeCast_apply _ _ (ix2 r k)
    (ix4 (⟨r.val / 64, by omega⟩ : Fin 8) (⟨r.val / 8 % 8, by omega⟩ : Fin 8) (⟨r.val % 8, by omega⟩ : Fin 8) k) ?_).trans ?_
  · rw [Shape.rowMajor_val_four, Shape.rowMajor_val_two]
    show (((r.val / 64 * 8 + r.val / 8 % 8) * 8 + r.val % 8) * 800 + k.val) = r.val * 800 + k.val
    omega
  refine (concatenate_ofFn_apply (t := S8x8x8x800) (s₁ := S8x8x8x32) 3 (win P) _ rfl 32 rfl
    (ix4 (⟨r.val / 64, by omega⟩ : Fin 8) (⟨r.val / 8 % 8, by omega⟩ : Fin 8) (⟨r.val % 8, by omega⟩ : Fin 8) k)
    (⟨k.val / 32, by omega⟩ : Fin 25) rfl
    (ix4 (⟨r.val / 64, by omega⟩ : Fin 8) (⟨r.val / 8 % 8, by omega⟩ : Fin 8) (⟨r.val % 8, by omega⟩ : Fin 8) (⟨k.val % 32, by omega⟩ : Fin 32))
    rfl ?_).trans ?_
  · intro a ha
    match a with
    | ⟨0, _⟩ => rfl
    | ⟨1, _⟩ => rfl
    | ⟨2, _⟩ => rfl
    | ⟨3, _⟩ => exact absurd rfl ha
  exact win_apply P _ _ _ _ _

/-! The stages against the im2col spelling of the network. -/

section
variable (x0 : Vec Ideal S8x28x28 .f32) (x1 : Vec Ideal S25x32 .f32) (x2 : Vec Ideal S1x32 .f32)
    (xb : ℕ → ℕ → ℕ → EReal) (w1 : ℕ → ℕ → EReal) (b1 : ℕ → EReal)
    (hx0 : ∀ (b : Fin 8) (h : Fin 28) (w : Fin 28), x0 (ix3 b h w) = xb b h w)
    (hx1 : ∀ (k : Fin 25) (c : Fin 32), x1 (ix2 k c) = w1 k c)
    (hx2 : ∀ c : Fin 32, x2 (ix2 0 c) = b1 c)
include hx0 hx1 hx2

theorem act_eq (b : Fin 8) (y x : Fin 24) (c : Fin 32) (row : Fin 4608)
    (hrow : row.val = (24 * b.val + y.val) * 24 + x.val) :
    act (im2col x0) x1 x2 (ix2 row c) = relu (R.conv1 xb w1 b y x c + b1 c) := by
  rw [act_apply, hx2]
  unfold R.conv1
  rw [← Fin.sum_univ_eq_sum_range (fun k => xb b (y + k / 5) (x + k % 5) * w1 k c) 25]
  refine congrArg (fun s => relu (s + b1 c)) (Finset.sum_congr rfl fun k _ => ?_)
  rw [im2col_apply x0 b y x k row hrow, hx0, hx1]

theorem q1_eq (b : Fin 8) (i j : Fin 12) (c : Fin 32) :
    pooled (act (im2col x0) x1 x2) (ix4 b i j c) = R.q1 xb w1 b1 b i j c := by
  have hb := b.isLt; have hi := i.isLt; have hj := j.isLt
  unfold pooled R.q1 pool
  rw [colmax_apply, rowmax_apply, rowmax_apply, cast61_apply, cast61_apply, cast61_apply, cast61_apply]
  rw [act_eq x0 x1 x2 xb w1 b1 hx0 hx1 hx2 b ⟨2 * i.val, by omega⟩ ⟨2 * j.val, by omega⟩ c _ rfl,
    act_eq x0 x1 x2 xb w1 b1 hx0 hx1 hx2 b ⟨2 * i.val + 1, by omega⟩ ⟨2 * j.val, by omega⟩ c _ rfl,
    act_eq x0 x1 x2 xb w1 b1 hx0 hx1 hx2 b ⟨2 * i.val, by omega⟩ ⟨2 * j.val + 1, by omega⟩ c _ rfl,
    act_eq x0 x1 x2 xb w1 b1 hx0 hx1 hx2 b ⟨2 * i.val + 1, by omega⟩ ⟨2 * j.val + 1, by omega⟩ c _ rfl]

end

theorem rconv2 (x0 : Vec Ideal S8x28x28 .f32) (x1 : Vec Ideal S25x32 .f32) (x2 : Vec Ideal S1x32 .f32) (x3 : Vec Ideal S800x64 .f32)
    (xb : ℕ → ℕ → ℕ → EReal) (w1 : ℕ → ℕ → EReal) (b1 : ℕ → EReal) (w2 : ℕ → ℕ → EReal)
    (hx0 : ∀ (b : Fin 8) (h : Fin 28) (w : Fin 28), x0 (ix3 b h w) = xb b h w)
    (hx1 : ∀ (k : Fin 25) (c : Fin 32), x1 (ix2 k c) = w1 k c)
    (hx2 : ∀ c : Fin 32, x2 (ix2 0 c) = b1 c)
    (hx3 : ∀ (k : Fin 800) (co : Fin 64), x3 (ix2 k co) = w2 k co)
    (r : Fin 512) (co : Fin 64) :
    k0_pay3 (F := Ideal) (k0_pay2 (View.ld x0 r0_0)) (View.ld x1 r0_1) (View.ld x2 r0_2) (View.ld x3 r0_3) (ix2 r co)
      = R.conv2 (R.q1 xb w1 b1) w2 (r / 64) (r / 8 % 8) (r % 8) co := by
  have hr := r.isLt
  rw [View.ld_unit_zero (S := S8x28x28) (by funext a; fin_cases a <;> rfl) _ x0,
    View.ld_unit_zero (S := S25x32) (by funext a; fin_cases a <;> rfl) _ x1,
    View.ld_unit_zero (S := S1x32) (by funext a; fin_cases a <;> rfl) _ x2,
    View.ld_unit_zero (S := S800x64) (by funext a; fin_cases a <;> rfl) _ x3]
  rw [pay2_eq, pay3_eq, mm2_apply]
  unfold R.conv2
  rw [← Fin.sum_univ_eq_sum_range
    (fun k => R.q1 xb w1 b1 (r / 64) (r / 8 % 8 + k / 32 / 5) (r % 8 + k / 32 % 5) (k % 32) * w2 k co) 800]
  refine Finset.sum_congr rfl fun k _ => ?_
  have hk := k.isLt
  rw [cols_apply, hx3,
    q1_eq x0 x1 x2 xb w1 b1 hx0 hx1 hx2 ⟨r.val / 64, by omega⟩ ⟨r.val / 8 % 8 + k.val / 32 / 5, by omega⟩
      ⟨r.val % 8 + k.val / 32 % 5, by omega⟩ ⟨k.val % 32, by omega⟩]

end Cert.LeNet.RBody1

end
-- ==== Proof.RBody2.lean ====
import proofs.«175274_g2000709357908425_pallasbulk_852_30_alg».proof.Proof.Gen.ReferenceIdeal.Frame
import proofs.«175274_g2000709357908425_pallasbulk_852_30_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LeNet.RBody2

open Idealize.ShloMosaic Idealize.ShloMosaic.ValueIdx Cert.ReferenceIdeal Cert.ReferenceIdeal.Gen Cert.LeNet

section Layout
variable {α : Type}

/-- [512,64] read as [8,8,8,64]: row (8 b + oh) 8 + ow. -/
theorem cast_a (x : S512x64.Idx → α) (h : S512x64.ShapeCasts S8x8x8x64) (b oh ow : Fin 8) (co : Fin 64) :
    shapeCast S8x8x8x64 x h (ix4 b oh ow co)
      = x (ix2 (⟨(b.val * 8 + oh.val) * 8 + ow.val, by have := b.isLt; have := oh.isLt; have := ow.isLt; omega⟩ : Fin 512) co) := by
  refine shapeCast_apply x h _ _ ?_
  rw [Shape.rowMajor_val_four, Shape.rowMajor_val_two]
  show ((b.val * 8 + oh.val) * 8 + ow.val) * 64 + co.val = ((b.val * 8 + oh.val) * 8 + ow.val) * 64 + co.val
  rfl

/-- [8,8,8,64] read as [8,4,2,8,64]: second coordinate 2 i + e. -/
theorem cast_b (x : S8x8x8x64.Idx → α) (h : S8x8x8x64.ShapeCasts S8x4x2x8x64) (b : Fin 8) (i : Fin 4) (e : ℕ) (he : e < 2)
    (ow : Fin 8) (co : Fin 64) :
    shapeCast S8x4x2x8x64 x h (ix5 b i (⟨e, he⟩ : Fin 2) ow co)
      = x (ix4 b (⟨2 * i.val + e, by have := i.isLt; omega⟩ : Fin 8) ow co) := by
  refine shapeCast_apply x h _ _ ?_
  rw [Shape.rowMajor_val_five, Shape.rowMajor_val_four]
  show ((b.val * 8 + (2 * i.val + e)) * 8 + ow.val) * 64 + co.val = (((b.val * 4 + i.val) * 2 + e) * 8 + ow.val) * 64 + co.val
  omega

/-- the slice of [8,4,2,8,64] at offset e on the third axis -/
theorem slice_c (e : ℕ) (he : e < 2) (x : S8x4x2x8x64.Idx → α) (h : S8x4x2x8x64.Slices ![0, 0, e, 0, 0] S8x4x1x8x64)
    (b : Fin 8) (i : Fin 4) (ow : Fin 8) (co : Fin 64) :
    extractStridedSlice S8x4x1x8x64 ![0, 0, e, 0, 0] x h (ix5 b i (0 : Fin 1) ow co) = x (ix5 b i (⟨e, he⟩ : Fin 2) ow co) := by
  refine extractStridedSlice_apply _ x h _ _ fun a => ?_
  match a with
  | ⟨0, _⟩ => show b.val = 0 + b.val; omega
  | ⟨1, _⟩ => show i.val = 0 + i.val; omega
  | ⟨2, _⟩ => show e = e + 0; omega
  | ⟨3, _⟩ => show ow.val = 0 + ow.val; omega
  | ⟨4, _⟩ => show co.val = 0 + co.val; omega

/-- [8,4,1,8,64] read as [8,4,8,64] -/
theorem cast_d (x : S8x4x1x8x64.Idx → α) (h : S8x4x1x8x64.ShapeCasts S8x4x8x64) (b : Fin 8) (i : Fin 4) (ow : Fin 8) (co : Fin 64) :
    shapeCast S8x4x8x64 x h (ix4 b i ow co) = x (ix5 b i (0 : Fin 1) ow co) := by
  refine shapeCast_apply x h _ _ ?_
  rw [Shape.rowMajor_val_five, Shape.rowMajor_val_four]
  show (((b.val * 4 + i.val) * 1 + 0) * 8 + ow.val) * 64 + co.val = ((b.val * 4 + i.val) * 8 + ow.val) * 64 + co.val
  omega

/-- [8,4,8,64] read as [8,4,4,2,64]: third coordinate 2 j + e. -/
theorem cast_e (x : S8x4x8x64.Idx → α) (h : S8x4x8x64.ShapeCasts S8x4x4x2x64) (b : Fin 8) (i j : Fin 4) (e : ℕ) (he : e < 2)
    (co : Fin 64) :
    shapeCast S8x4x4x2x64 x h (ix5 b i j (⟨e, he⟩ : Fin 2) co)
      = x (ix4 b i (⟨2 * j.val + e, by have := j.isLt; omega⟩ : Fin 8) co) := by
  refine shapeCast_apply x h _ _ ?_
  rw [Shape.rowMajor_val_five, Shape.rowMajor_val_four]
  show ((b.val * 4 + i.val) * 8 + (2 * j.val + e)) * 64 + co.val = (((b.val * 4 + i.val) * 4 + j.val) * 2 + e) * 64 + co.val
  omega

/-- the slice of [8,4,4,2,64] at offset e on the fourth axis -/
theorem slice_f (e : ℕ) (he : e < 2) (x : S8x4x4x2x64.Idx → α) (h : S8x4x4x2x64.Slices ![0, 0, 0, e, 0] S8x4x4x1x64)
    (b : Fin 8) (i j : Fin 4) (co : Fin 64) :
    extractStridedSlice S8x4x4x1x64 ![0, 0, 0, e, 0] x h (ix5 b i j (0 : Fin 1) co) = x (ix5 b i j (⟨e, he⟩ : Fin 2) co) := by
  refine extractStridedSlice_apply _ x h _ _ fun a => ?_
  match a with
  | ⟨0, _⟩ => show b.val = 0 + b.val; omega
  | ⟨1, _⟩ => show i.val = 0 + i.val; omega
  | ⟨2, _⟩ => show j.val = 0 + j.val; omega
  | ⟨3, _⟩ => show e = e + 0; omega
  | ⟨4, _⟩ => show co.val = 0 + co.val; omega

/-- [8,4,4,1,64] read as [8,4,4,64] -/
theorem cast_g (x : S8x4x4x1x64.Idx → α) (h : S8x4x4x1x64.ShapeCasts S8x4x4x64) (b : Fin 8) (i j : Fin 4) (co : Fin 64) :
    shapeCast S8x4x4x64 x h (ix4 b i j co) = x (ix5 b i j (0 : Fin 1) co) := by
  refine shapeCast_apply x h _ _ ?_
  rw [Shape.rowMajor_val_five, Shape.rowMajor_val_four]
  show ((((b.val * 4 + i.val) * 4 + j.val) * 1 + 0) * 64 + co.val) = ((b.val * 4 + i.val) * 4 + j.val) * 64 + co.val
  omega

/-- [8,4,4,64] read as [8,1024]: column 64 (4 i + j) + co. -/
theorem cast_h (x : S8x4x4x64.Idx → α) (h : S8x4x4x64.ShapeCasts S8x1024) (b : Fin 8) (k : Fin 1024) :
    shapeCast S8x1024 x h (ix2 b k)
      = x (ix4 b (⟨k.val / 64 / 4, by have := k.isLt; omega⟩ : Fin 4) (⟨k.val / 64 % 4, by omega⟩ : Fin 4)
            (⟨k.val % 64, by omega⟩ : Fin 64)) := by
  refine shapeCast_apply x h _ _ ?_
  rw [Shape.rowMajor_val_four, Shape.rowMajor_val_two]
  show ((b.val * 4 + k.val / 64 / 4) * 4 + k.val / 64 % 4) * 64 + k.val % 64 = b.val * 1024 + k.val
  omega

/-- [8,128] read as [8,1,128] -/
theorem cast_i (x : S8x128.Idx → α) (h : S8x128.ShapeCasts S8x1x128) (b : Fin 8) (n : Fin 128) :
    shapeCast S8x1x128 x h (ix3 b (0 : Fin 1) n) = x (ix2 b n) := by
  refine shapeCast_apply x h _ _ ?_
  rw [Shape.rowMajor_val_three, Shape.rowMajor_val_two]
  show b.val * 128 + n.val = (b.val * 1 + 0) * 128 + n.val
  omega
end Layout

section Products

/-- the [8,1024] by [1024,512] product into zero, at (b, h): the sum over the 1024 columns -/
theorem mm1 (A : FVec Ideal S8x1024 .f32) (B : FVec Ideal S1024x512 .f32) (b : Fin 8) (h : Fin 512) :
    matmul (F := Ideal) dot_S8x1024_S1024x512_S8x512_1_0_0_1_n_n none A B (constant (F := Ideal) S8x512 .f32 0x00000000#32) (ix2 b h)
      = ∑ k : Fin 1024, A (ix2 b k) * B (ix2 k h) := by
  show FloatOps.matmul dot_S8x1024_S1024x512_S8x512_1_0_0_1_n_n none A B _ (ix2 b h) = _
  rw [Ideal.matmul_constant_zero_apply,
    ← Equiv.sum_comp (contrEquiv1 dot_S8x1024_S1024x512_S8x512_1_0_0_1_n_n 1024 rfl rfl).symm]
  refine Finset.sum_congr rfl fun c _ => ?_
  have c2 := contrEquiv1_symm_val dot_S8x1024_S1024x512_S8x512_1_0_0_1_n_n 1024 rfl rfl c
  have l2 : dot_S8x1024_S1024x512_S8x512_1_0_0_1_n_n.lhsIdx (ix2 b h) ((contrEquiv1 _ 1024 rfl rfl).symm c) = ix2 b c := by
    funext ax; apply Fin.ext
    match ax with
    | ⟨0, _⟩ => simp [DotDims.lhsIdx, dot_S8x1024_S1024x512_S8x512_1_0_0_1_n_n]; rfl
    | ⟨1, _⟩ => simp [DotDims.lhsIdx, dot_S8x1024_S1024x512_S8x512_1_0_0_1_n_n]; exact c2
  have r2 : dot_S8x1024_S1024x512_S8x512_1_0_0_1_n_n.rhsIdx (ix2 b h) ((contrEquiv1 _ 1024 rfl rfl).symm c) = ix2 c h := by
    funext ax; apply Fin.ext
    match ax with
    | ⟨0, _⟩ => simp [DotDims.rhsIdx, dot_S8x1024_S1024x512_S8x512_1_0_0_1_n_n]; exact c2
    | ⟨1, _⟩ => simp [DotDims.rhsIdx, dot_S8x1024_S1024x512_S8x512_1_0_0_1_n_n]; rfl
  rw [l2, r2]

/-- the [8,512] by [512,128] product into zero, at (b, n): the sum over the 512 columns -/
theorem mm2 (A : FVec Ideal S8x512 .f32) (B : FVec Ideal S512x128 .f32) (b : Fin 8) (n : Fin 128) :
    matmul (F := Ideal) dot_S8x512_S512x128_S8x128_1_0_0_1_n_n none A B (constant (F := Ideal) S8x128 .f32 0x00000000#32) (ix2 b n)
      = ∑ k : Fin 512, A (ix2 b k) * B (ix2 k n) := by
  show FloatOps.matmul dot_S8x512_S512x128_S8x128_1_0_0_1_n_n none A B _ (ix2 b n) = _
  rw [Ideal.matmul_constant_zero_apply,
    ← Equiv.sum_comp (contrEquiv1 dot_S8x512_S512x128_S8x128_1_0_0_1_n_n 512 rfl rfl).symm]
  refine Finset.sum_congr rfl fun c _ => ?_
  have c2 := contrEquiv1_symm_val dot_S8x512_S512x128_S8x128_1_0_0_1_n_n 512 rfl rfl c
  have l2 : dot_S8x512_S512x128_S8x128_1_0_0_1_n_n.lhsIdx (ix2 b n) ((contrEquiv1 _ 512 rfl rfl).symm c) = ix2 b c := by
    funext ax; apply Fin.ext
    match ax with
    | ⟨0, _⟩ => simp [DotDims.lhsIdx, dot_S8x512_S512x128_S8x128_1_0_0_1_n_n]; rfl
    | ⟨1, _⟩ => simp [DotDims.lhsIdx, dot_S8x512_S512x128_S8x128_1_0_0_1_n_n]; exact c2
  have r2 : dot_S8x512_S512x128_S8x128_1_0_0_1_n_n.rhsIdx (ix2 b n) ((contrEquiv1 _ 512 rfl rfl).symm c) = ix2 c n := by
    funext ax; apply Fin.ext
    match ax with
    | ⟨0, _⟩ => simp [DotDims.rhsIdx, dot_S8x512_S512x128_S8x128_1_0_0_1_n_n]; exact c2
    | ⟨1, _⟩ => simp [DotDims.rhsIdx, dot_S8x512_S512x128_S8x128_1_0_0_1_n_n]; rfl
  rw [l2, r2]

end Products

section Stages

/-- bias and max with zero -/
def act (v102 v104 : FVec Ideal S512x64 .f32) : FVec Ideal S512x64 .f32 :=
  maximumf (addf v102 v104) (broadcast S512x64 (Scalar.ofBits (F := Ideal) .f32 0x00000000#32))

/-- the maximum over the two rows 2 i, 2 i + 1 -/
def poolA (v107 : FVec Ideal S512x64 .f32) : FVec Ideal S8x4x8x64 .f32 :=
  have v108 : FVec Ideal S8x8x8x64 .f32 := shapeCast S8x8x8x64 v107 shapeCasts_S512x64_S8x8x8x64
  have v109 : FVec Ideal S8x4x2x8x64 .f32 := shapeCast S8x4x2x8x64 v108 shapeCasts_S8x8x8x64_S8x4x2x8x64
  have v110 : FVec Ideal S8x4x1x8x64 .f32 := extractStridedSlice S8x4x1x8x64 ![0, 0, 0, 0, 0] v109 slices_S8x4x2x8x64_o0_0_0_0_0_S8x4x1x8x64
  have v111 : FVec Ideal S8x4x8x64 .f32 := shapeCast S8x4x8x64 v110 shapeCasts_S8x4x1x8x64_S8x4x8x64
  have v112 : FVec Ideal S8x4x1x8x64 .f32 := extractStridedSlice S8x4x1x8x64 ![0, 0, 1, 0, 0] v109 slices_S8x4x2x8x64_o0_0_1_0_0_S8x4x1x8x64
  have v113 : FVec Ideal S8x4x8x64 .f32 := shapeCast S8x4x8x64 v112 shapeCasts_S8x4x1x8x64_S8x4x8x64
  maximumf v111 v113

/-- the maximum over the two columns 2 j, 2 j + 1 -/
def poolB (v114 : FVec Ideal S8x4x8x64 .f32) : FVec Ideal S8x4x4x64 .f32 :=
  have v115 : FVec Ideal S8x4x4x2x64 .f32 := shapeCast S8x4x4x2x64 v114 shapeCasts_S8x4x8x64_S8x4x4x2x64
  have v116 : FVec Ideal S8x4x4x1x64 .f32 := extractStridedSlice S8x4x4x1x64 ![0, 0, 0, 0, 0] v115 slices_S8x4x4x2x64_o0_0_0_0_0_S8x4x4x1x64
  have v117 : FVec Ideal S8x4x4x64 .f32 := shapeCast S8x4x4x64 v116 shapeCasts_S8x4x4x1x64_S8x4x4x64
  have v118 : FVec Ideal S8x4x4x1x64 .f32 := extractStridedSlice S8x4x4x1x64 ![0, 0, 0, 1, 0] v115 slices_S8x4x4x2x64_o0_0_0_1_0_S8x4x4x1x64
  have v119 : FVec Ideal S8x4x4x64 .f32 := shapeCast S8x4x4x64 v118 shapeCasts_S8x4x4x1x64_S8x4x4x64
  maximumf v117 v119

/-- the two dense layers on the pooled array -/
def dense (v120 : FVec Ideal S8x4x4x64 .f32) (v122 : FVec Ideal S1024x512 .f32) (v124 : FVec Ideal S1x512 .f32)
    (v129 : FVec Ideal S512x128 .f32) (v131 : FVec Ideal S1x128 .f32) : FVec Ideal S8x1x128 .f32 :=
  have v121 : FVec Ideal S8x1024 .f32 := shapeCast S8x1024 v120 shapeCasts_S8x4x4x64_S8x1024
  have cst_15 : FVec Ideal S8x512 .f32 := constant (F := Ideal) S8x512 .f32 0x00000000#32
  have v123 : FVec Ideal S8x512 .f32 := matmul (F := Ideal) dot_S8x1024_S1024x512_S8x512_1_0_0_1_n_n none v121 v122 cst_15
  have v125 : FVec Ideal S8x512 .f32 := broadcastTo S8x512 v124 broadcasts_S1x512_S8x512
  have v126 : FVec Ideal S8x512 .f32 := addf v123 v125
  have v127 : FVec Ideal S8x512 .f32 := broadcast S8x512 (Scalar.ofBits (F := Ideal) .f32 0x00000000#32)
  have v128 : FVec Ideal S8x512 .f32 := maximumf v126 v127
  have cst_21 : FVec Ideal S8x128 .f32 := constant (F := Ideal) S8x128 .f32 0x00000000#32
  have v130 : FVec Ideal S8x128 .f32 := matmul (F := Ideal) dot_S8x512_S512x128_S8x128_1_0_0_1_n_n none v128 v129 cst_21
  have v132 : FVec Ideal S8x128 .f32 := broadcastTo S8x128 v131 broadcasts_S1x128_S8x128
  have v133 : FVec Ideal S8x128 .f32 := addf v130 v132
  shapeCast S8x1x128 v133 shapeCasts_S8x128_S8x1x128

theorem pay1_eq (v102 v104 : FVec Ideal S512x64 .f32) (v122 : Vec Ideal S1024x512 .f32) (v124 : Vec Ideal S1x512 .f32)
    (v129 : Vec Ideal S512x128 .f32) (v131 : Vec Ideal S1x128 .f32) :
    k0_pay1 (F := Ideal) v102 v104 v122 v124 v129 v131 = dense (poolB (poolA (act v102 v104))) v122 v124 v129 v131 := rfl

theorem act_apply (v102 v104 : FVec Ideal S512x64 .f32) (r : Fin 512) (co : Fin 64) :
    act v102 v104 (ix2 r co) = relu (v102 (ix2 r co) + v104 (ix2 r co)) := by
  unfold act relu
  rw [maximumf_apply, addf_apply, broadcast_apply]
  exact congrArg (max _) Ideal.ofBits_zero_f32

theorem poolA_apply (x : FVec Ideal S512x64 .f32) (b : Fin 8) (i : Fin 4) (ow : Fin 8) (co : Fin 64) :
    poolA x (ix4 b i ow co)
      = max (x (ix2 (⟨(b.val * 8 + (2 * i.val + 0)) * 8 + ow.val, by have := b.isLt; have := i.isLt; have := ow.isLt; omega⟩ : Fin 512) co))
            (x (ix2 (⟨(b.val * 8 + (2 * i.val + 1)) * 8 + ow.val, by have := b.isLt; have := i.isLt; have := ow.isLt; omega⟩ : Fin 512) co)) := by
  unfold poolA
  rw [maximumf_apply]
  refine congrArg₂ max ?_ ?_
  · refine (cast_d _ _ b i ow co).trans ?_
    refine (slice_c 0 (by omega) _ _ b i ow co).trans ?_
    refine (cast_b _ _ b i 0 (by omega) ow co).trans ?_
    exact cast_a _ _ b _ ow co
  · refine (cast_d _ _ b i ow co).trans ?_
    refine (slice_c 1 (by omega) _ _ b i ow co).trans ?_
    refine (cast_b _ _ b i 1 (by omega) ow co).trans ?_
    exact cast_a _ _ b _ ow co

theorem poolB_apply (y : FVec Ideal S8x4x8x64 .f32) (b : Fin 8) (i j : Fin 4) (co : Fin 64) :
    poolB y (ix4 b i j co)
      = max (y (ix4 b i (⟨2 * j.val + 0, by have := j.isLt; omega⟩ : Fin 8) co))
            (y (ix4 b i (⟨2 * j.val + 1, by have := j.isLt; omega⟩ : Fin 8) co)) := by
  unfold poolB
  rw [maximumf_apply]
  refine congrArg₂ max ?_ ?_
  · refine (cast_g _ _ b i j co).trans ?_
    refine (slice_f 0 (by omega) _ _ b i j co).trans ?_
    exact cast_e _ _ b i j 0 (by omega) co
  · refine (cast_g _ _ b i j co).trans ?_
    refine (slice_f 1 (by omega) _ _ b i j co).trans ?_
    exact cast_e _ _ b i j 1 (by omega) co

end Stages

section Final

theorem dense_apply (p : FVec Ideal S8x4x4x64 .f32) (v122 : FVec Ideal S1024x512 .f32) (v124 : FVec Ideal S1x512 .f32)
    (v129 : FVec Ideal S512x128 .f32) (v131 : FVec Ideal S1x128 .f32) (b : Fin 8) (n : Fin 128) :
    dense p v122 v124 v129 v131 (ix3 b (0 : Fin 1) n)
      = (∑ k : Fin 512, relu ((∑ j : Fin 1024,
            p (ix4 b (⟨j.val / 64 / 4, by have := j.isLt; omega⟩ : Fin 4) (⟨j.val / 64 % 4, by omega⟩ : Fin 4) (⟨j.val % 64, by omega⟩ : Fin 64))
              * v122 (ix2 j k)) + v124 (ix2 (0 : Fin 1) k)) * v129 (ix2 k n)) + v131 (ix2 (0 : Fin 1) n) := by
  unfold dense
  refine (cast_i _ _ b n).trans ?_
  rw [addf_apply]
  refine congrArg₂ (· + ·) ?_ (broadcastTo_1b_ab_apply _ _ b n)
  refine (mm2 _ _ b n).trans ?_
  refine Finset.sum_congr rfl fun k _ => ?_
  refine congrArg (· * v129 (ix2 k n)) ?_
  rw [maximumf_apply, addf_apply, broadcast_apply]
  unfold relu
  refine congrArg₂ max ?_ Ideal.ofBits_zero_f32
  refine congrArg₂ (· + ·) ?_ (broadcastTo_1b_ab_apply _ _ b k)
  refine (mm1 _ _ b k).trans ?_
  refine Finset.sum_congr rfl fun j _ => ?_
  exact congrArg (· * v122 (ix2 j k)) (cast_h _ _ b j)

/-- the rectified biased convolution at row (8 b + oh) 8 + ow -/
theorem act_at (v102 v104 : FVec Ideal S512x64 .f32) (c2 : ℕ → ℕ → ℕ → ℕ → EReal) (b2 : ℕ → EReal)
    (h102 : ∀ (r : Fin 512) (co : Fin 64), v102 (ix2 r co) = c2 (r / 64) (r / 8 % 8) (r % 8) co)
    (h104 : ∀ (r : Fin 512) (co : Fin 64), v104 (ix2 r co) = b2 co)
    (b oh ow : ℕ) (hb : b < 8) (hoh : oh < 8) (how : ow < 8) (co : Fin 64) (hr : (b * 8 + oh) * 8 + ow < 512) :
    act v102 v104 (ix2 (⟨(b * 8 + oh) * 8 + ow, hr⟩ : Fin 512) co) = relu (c2 b oh ow co + b2 co) := by
  rw [act_apply, h102, h104]
  show relu (c2 (((b * 8 + oh) * 8 + ow) / 64) (((b * 8 + oh) * 8 + ow) / 8 % 8) (((b * 8 + oh) * 8 + ow) % 8) co + b2 co) = _
  have h1 : ((b * 8 + oh) * 8 + ow) / 64 = b := by omega
  have h2 : ((b * 8 + oh) * 8 + ow) / 8 % 8 = oh := by omega
  have h3 : ((b * 8 + oh) * 8 + ow) % 8 = ow := by omega
  rw [h1, h2, h3]

/-- the pooled array is the 2x2 maximum of the rectified biased convolution -/
theorem pooled_apply (v102 v104 : FVec Ideal S512x64 .f32) (c2 : ℕ → ℕ → ℕ → ℕ → EReal) (b2 : ℕ → EReal)
    (h102 : ∀ (r : Fin 512) (co : Fin 64), v102 (ix2 r co) = c2 (r / 64) (r / 8 % 8) (r % 8) co)
    (h104 : ∀ (r : Fin 512) (co : Fin 64), v104 (ix2 r co) = b2 co)
    (b : Fin 8) (i j : Fin 4) (co : Fin 64) :
    poolB (poolA (act v102 v104)) (ix4 b i j co) = R.q2 c2 b2 b i j co := by
  have hb := b.isLt
  have hi := i.isLt
  have hj := j.isLt
  rw [poolB_apply, poolA_apply, poolA_apply]
  unfold R.q2 pool
  exact congrArg₂ max
    (congrArg₂ max
      (act_at v102 v104 c2 b2 h102 h104 b (2 * i + 0) (2 * j + 0) hb (by omega) (by omega) co _)
      (act_at v102 v104 c2 b2 h102 h104 b (2 * i + 1) (2 * j + 0) hb (by omega) (by omega) co _))
    (congrArg₂ max
      (act_at v102 v104 c2 b2 h102 h104 b (2 * i + 0) (2 * j + 1) hb (by omega) (by omega) co _)
      (act_at v102 v104 c2 b2 h102 h104 b (2 * i + 1) (2 * j + 1) hb (by omega) (by omega) co _))

end Final

theorem rbias (x4 : Vec Ideal S1x64 .f32) (r : Fin 512) (co : Fin 64) :
    k0_pay4 (F := Ideal) (View.ld x4 r0_4) (ix2 r co) = x4 (ix2 0 co) := by
  have hz : (![0, 0] : Fin S1x64.rank → ℕ) = fun _ => 0 := by
    funext a; match a with | ⟨0, _⟩ => rfl | ⟨1, _⟩ => rfl
  have e : View.ld x4 r0_4 = x4 := View.ld_unit_zero (S := S1x64) hz _ x4
  rw [e]
  unfold k0_pay4
  exact broadcastTo_1b_ab_apply _ _ r co

theorem rtail (v102 v104 : FVec Ideal S512x64 .f32) (x5 : Vec Ideal S1024x512 .f32) (x6 : Vec Ideal S1x512 .f32)
    (x7 : Vec Ideal S512x128 .f32) (x8 : Vec Ideal S1x128 .f32)
    (c2 : ℕ → ℕ → ℕ → ℕ → EReal) (b2 : ℕ → EReal) (f1w : ℕ → ℕ → EReal) (f1b : ℕ → EReal) (f2w : ℕ → ℕ → EReal) (f2b : ℕ → EReal)
    (h102 : ∀ (r : Fin 512) (co : Fin 64), v102 (ix2 r co) = c2 (r / 64) (r / 8 % 8) (r % 8) co)
    (h104 : ∀ (r : Fin 512) (co : Fin 64), v104 (ix2 r co) = b2 co)
    (hx5 : ∀ (k : Fin 1024) (h : Fin 512), x5 (ix2 k h) = f1w k h)
    (hx6 : ∀ h : Fin 512, x6 (ix2 0 h) = f1b h)
    (hx7 : ∀ (k : Fin 512) (n : Fin 128), x7 (ix2 k n) = f2w k n)
    (hx8 : ∀ n : Fin 128, x8 (ix2 0 n) = f2b n)
    (b : Fin 8) (n : Fin 128) :
    k0_pay1 (F := Ideal) v102 v104 (View.ld x5 r0_5) (View.ld x6 r0_6) (View.ld x7 r0_7) (View.ld x8 r0_8) (ix3 b 0 n)
      = R.out (R.hid (R.q2 c2 b2) f1w f1b) f2w f2b b n := by
  have e5 : View.ld x5 r0_5 = x5 :=
    View.ld_unit_zero (S := S1024x512) (by funext a; match a with | ⟨0, _⟩ => rfl | ⟨1, _⟩ => rfl) _ x5
  have e6 : View.ld x6 r0_6 = x6 :=
    View.ld_unit_zero (S := S1x512) (by funext a; match a with | ⟨0, _⟩ => rfl | ⟨1, _⟩ => rfl) _ x6
  have e7 : View.ld x7 r0_7 = x7 :=
    View.ld_unit_zero (S := S512x128) (by funext a; match a with | ⟨0, _⟩ => rfl | ⟨1, _⟩ => rfl) _ x7
  have e8 : View.ld x8 r0_8 = x8 :=
    View.ld_unit_zero (S := S1x128) (by funext a; match a with | ⟨0, _⟩ => rfl | ⟨1, _⟩ => rfl) _ x8
  rw [e5, e6, e7, e8, pay1_eq]
  refine (dense_apply _ x5 x6 x7 x8 b n).trans ?_
  unfold R.out R.hid
  rw [hx8 n]
  refine congrArg (· + f2b n) ?_
  rw [← Fin.sum_univ_eq_sum_range (fun k => relu ((∑ j ∈ Finset.range 1024,
        R.q2 c2 b2 b (j / 64 / 4) (j / 64 % 4) (j % 64) * f1w j k) + f1b k) * f2w k n) 512]
  refine Finset.sum_congr rfl fun k _ => ?_
  rw [hx7 k n, hx6 k]
  refine congrArg (fun t => relu (t + f1b k) * f2w k n) ?_
  rw [← Fin.sum_univ_eq_sum_range (fun j => R.q2 c2 b2 b (j / 64 / 4) (j / 64 % 4) (j % 64) * f1w j k) 1024]
  refine Finset.sum_congr rfl fun j _ => ?_
  rw [hx5 j k]
  exact congrArg (· * f1w j k) (pooled_apply v102 v104 c2 b2 h102 h104 b _ _ _)

end Cert.LeNet.RBody2

end
-- ==== Proof.RHost.lean ====
import proofs.«175274_g2000709357908425_pallasbulk_852_30_alg».proof.Proof.Gen.ReferenceIdeal.Frame
import proofs.«175274_g2000709357908425_pallasbulk_852_30_alg».proof.Proof.Spec
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option maxRecDepth 16384

noncomputable section

namespace Cert.LeNet.RHost

open Idealize.ShloMosaic Idealize.ShloMosaic.ValueIdx Idealize.SL.Sem Cert.ReferenceIdeal Cert.ReferenceIdeal.Gen Cert.LeNet

variable (m : (ℓ : Loc nD τ sig) → Buf (Elt Ideal) ℓ) (c : Dev nD)

/-- The image array as the region finds it: the unit channel axis dropped. -/
theorem V_x (b : Fin 8192) (h : Fin 28) (w : Fin 28) :
    (V (F := Ideal) m c main_call0_v0 : S8192x28x28.Idx → EReal) (ix3 b h w)
      = (m ((c.tc : Thread nD τ).loc main_arg0) : S8192x1x28x28.Idx → EReal) (ix4 b 0 h w) := by
  have e : (V (F := Ideal) m c main_call0_v0 : S8192x28x28.Idx → EReal)
      = shapeCast S8192x28x28 (m ((c.tc : Thread nD τ).loc main_arg0) : S8192x1x28x28.Idx → EReal)
          shapeCasts_S8192x1x28x28_S8192x28x28 := by
    show StableHlo.after hostOps0 (fun b => m (c, b)) (Proc.devRef .tc main_call0_v0) = _
    after_results
    rfl
  rw [e]
  refine shapeCast_apply _ _ _ _ ?_
  have h4 := Shape.rowMajor_val_four (d := ![8192, 1, 28, 28]) (ix4 b 0 h w)
  have h3 := Shape.rowMajor_val_three (d := ![8192, 28, 28]) (ix3 b h w)
  refine h4.trans (Eq.trans ?_ h3.symm)
  show ((b.val * 1 + 0) * 28 + h.val) * 28 + w.val = (b.val * 28 + h.val) * 28 + w.val
  omega

/-- After the region the result is the first ten columns of the stored array with its unit axis dropped. -/
theorem result_apply (b : Fin 8192) (n : Fin 10) :
    (Pipeline.afterTail₀ cfgs (dats (F := Ideal) m) 0 (V0 m) [hostOps1] c main_v0 : S8192x10.Idx → EReal) (ix2 b n)
      = ((dats (F := Ideal) m 0 c).arrAt 9 cfg0.N : S8192x1x128.Idx → EReal) (ix3 b 0 ⟨n.val, by omega⟩) := by
  have hA : Pipeline.withArrays spec0 c (V0 m c) (fun w => (dats (F := Ideal) m 0 c).arrAt w cfg0.N)
      (Proc.devRef .tc main_call0_v1) = (dats (F := Ideal) m 0 c).arrAt 9 cfg0.N :=
    Pipeline.withArrays_arr spec0 launch0.win.arr_inj c _ _ 9
  unfold Pipeline.afterTail₀
  show StableHlo.after hostOps1 _ (Proc.devRef .tc main_v0) (ix2 b n) = _
  after_results
  show shapeCast S8192x10 (extractStridedSlice S8192x1x10 ![0, 0, 0]
      (Pipeline.withArrays spec0 c (V0 m c) (fun w => (dats (F := Ideal) m 0 c).arrAt w cfg0.N)
        (Proc.devRef .tc main_call0_v1) : S8192x1x128.Idx → EReal)
      slices_S8192x1x128_S8192x1x10_0_0_0) shapeCasts_S8192x1x10_S8192x10 (ix2 b n) = _
  rw [hA]
  refine (shapeCast_apply _ _ _ (ix3 b 0 n) ?_).trans ?_
  · have h3 := Shape.rowMajor_val_three (d := ![8192, 1, 10]) (ix3 b 0 n)
    have h2 := Shape.rowMajor_val_two (d := ![8192, 10]) (ix2 b n)
    refine h3.trans (Eq.trans ?_ h2.symm)
    show (b.val * 1 + 0) * 10 + n.val = b.val * 10 + n.val
    omega
  · refine extractStridedSlice_apply _ _ _ _ (ix3 b 0 ⟨n.val, by omega⟩) ?_
    intro a
    match a with
    | ⟨0, _⟩ => show b.val = 0 + b.val; omega
    | ⟨1, _⟩ => show 0 = 0 + 0; omega
    | ⟨2, _⟩ => show n.val = 0 + n.val; omega

end Cert.LeNet.RHost

end
-- ==== Proof.RValue.lean ====
import proofs.«175274_g2000709357908425_pallasbulk_852_30_alg».proof.Proof.Gen.ReferenceIdeal.Frame
import proofs.«175274_g2000709357908425_pallasbulk_852_30_alg».proof.Proof.Spec
import proofs.«175274_g2000709357908425_pallasbulk_852_30_alg».proof.Proof.Net
import proofs.«175274_g2000709357908425_pallasbulk_852_30_alg».proof.Proof.RBody1
import proofs.«175274_g2000709357908425_pallasbulk_852_30_alg».proof.Proof.RBody2
import proofs.«175274_g2000709357908425_pallasbulk_852_30_alg».proof.Proof.RHost
import proofs.«175274_g2000709357908425_pallasbulk_852_30_alg».proof.Proof.AlgR
import Idealize.ShloMosaic.Lib.ValueIdx
import Idealize.ShloMosaic.Lib.Pipeline.Value

set_option maxRecDepth 16384

noncomputable section

namespace Cert.LeNet.RValue

open Idealize.ShloMosaic Idealize.ShloMosaic.ValueIdx Idealize.ShloMosaic.TcCoe Idealize.SL.Sem
open Cert.ReferenceIdeal Cert.ReferenceIdeal.Gen Cert.LeNet
open Idealize.ShloMosaic.Pipeline (Dat)

variable (m : (ℓ : Loc nD τ sig) → Buf (Elt Ideal) ℓ) (ρ : Dev nD → PrngReg)

/-- The block indices over the grid: the image window and the result window move with the point along the batch axis,
    every weight and bias window stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

theorem hz3 : (![0, 0, 0] : Fin 3 → Nat) = fun _ => 0 := funext fun a => by fin_cases a <;> rfl

/-- What the body leaves in the result block, entry by entry, over blocks given by coordinate functions: the im2col
    spelling of the network on the eight images of the block. -/
theorem out_eq (x0 : Vec Ideal S8x28x28 .f32) (x1 : Vec Ideal S25x32 .f32) (x2 : Vec Ideal S1x32 .f32)
    (x3 : Vec Ideal S800x64 .f32) (x4 : Vec Ideal S1x64 .f32) (x5 : Vec Ideal S1024x512 .f32) (x6 : Vec Ideal S1x512 .f32)
    (x7 : Vec Ideal S512x128 .f32) (x8 : Vec Ideal S1x128 .f32)
    (xb : ℕ → ℕ → ℕ → EReal) (w1 : ℕ → ℕ → EReal) (b1 : ℕ → EReal) (w2 : ℕ → ℕ → EReal) (b2 : ℕ → EReal)
    (f1w : ℕ → ℕ → EReal) (f1b : ℕ → EReal) (f2w : ℕ → ℕ → EReal) (f2b : ℕ → EReal)
    (hx0 : ∀ (b : Fin 8) (h : Fin 28) (w : Fin 28), x0 (ix3 b h w) = xb b h w)
    (hx1 : ∀ (k : Fin 25) (c : Fin 32), x1 (ix2 k c) = w1 k c)
    (hx2 : ∀ c : Fin 32, x2 (ix2 0 c) = b1 c)
    (hx3 : ∀ (k : Fin 800) (co : Fin 64), x3 (ix2 k co) = w2 k co)
    (hx4 : ∀ co : Fin 64, x4 (ix2 0 co) = b2 co)
    (hx5 : ∀ (k : Fin 1024) (h : Fin 512), x5 (ix2 k h) = f1w k h)
    (hx6 : ∀ h : Fin 512, x6 (ix2 0 h) = f1b h)
    (hx7 : ∀ (k : Fin 512) (n : Fin 128), x7 (ix2 k n) = f2w k n)
    (hx8 : ∀ n : Fin 128, x8 (ix2 0 n) = f2b n)
    (b : Fin 8) (n : Fin 128) :
    out0_9 (F := Ideal) x0 x1 x2 x3 x4 x5 x6 x7 x8 (ix3 b 0 n)
      = R.out (R.hid (R.q2 (R.conv2 (R.q1 xb w1 b1) w2) b2) f1w f1b) f2w f2b b n := by
  unfold out0_9
  rw [View.canon_unit_zero hz3]
  exact RBody2.rtail
    (k0_pay3 (F := Ideal) (k0_pay2 (View.ld x0 r0_0)) (View.ld x1 r0_1) (View.ld x2 r0_2) (View.ld x3 r0_3))
    (k0_pay4 (F := Ideal) (View.ld x4 r0_4)) x5 x6 x7 x8
    (R.conv2 (R.q1 xb w1 b1) w2) b2 f1w f1b f2w f2b
    (fun r co => RBody1.rconv2 x0 x1 x2 x3 xb w1 b1 w2 hx0 hx1 hx2 hx3 r co)
    (fun r co => (RBody2.rbias x4 r co).trans (hx4 co))
    hx5 hx6 hx7 hx8 b n

theorem t_lt (t : Fin cfg0.N) : t.val < 1024 := lt_of_lt_of_eq t.isLt N_0

/-- The image window's block at point `t` holds images `8 t` to `8 t + 7` of the batch. -/
theorem blk0 (c : Dev nD) (t : Fin cfg0.N) (b : Fin 8) (h w : Fin 28) :
    iblk m c 0 t (ix3 b h w)
      = xN (m ((c.tc : Thread nD τ).loc main_arg0) : S8192x1x28x28.Idx → EReal) (8 * t.val + b.val) h w := by
  obtain ⟨f00, f01, f02, f10, f11, f20, f21, f30, f31, f40, f41, f50, f51, f60, f61, f70, f71, f80, f81, f90, f91, f92⟩ := idx_facts t
  have ht := t_lt t
  have hb := b.isLt
  show V m c (Pipeline.arrRef spec0 0) (((cfg0.win 0).blk t).view.emb (ix3 b h w)) = _
  have he : ((cfg0.win 0).blk t).view.emb (ix3 b h w) = ix3 (⟨8 * t.val + b.val, by omega⟩ : Fin 8192) h w := by
    funext a; apply Fin.ext
    match a with
    | ⟨0, _⟩ => show win0_0.index t (0 : Fin 3) * 8 + 1 * b.val = 8 * t.val + b.val; omega
    | ⟨1, _⟩ => show win0_0.index t (1 : Fin 3) * 28 + 1 * h.val = h.val; omega
    | ⟨2, _⟩ => show win0_0.index t (2 : Fin 3) * 28 + 1 * w.val = w.val; omega
  refine (congrArg (V m c (Pipeline.arrRef spec0 0)) he).trans ?_
  refine (RHost.V_x m c (⟨8 * t.val + b.val, by omega⟩ : Fin 8192) h w).trans ?_
  exact (xN_ix _ (⟨8 * t.val + b.val, by omega⟩ : Fin 8192) h w).symm

/-- Window 1's one block is its whole array, as launched. -/
theorem blk1 (c : Dev nD) (t : Fin cfg0.N) (p : Fin 25) (q : Fin 32) :
    iblk m c 1 t (ix2 p q) = (m ((c.tc : Thread nD τ).loc main_arg1) : S25x32.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 1) (((cfg0.win 1).blk t).view.emb (ix2 p q)) = _
  have he : ((cfg0.win 1).blk t).view.emb (ix2 p q) = ix2 p q := by
    funext a; apply Fin.ext
    match a with
    | ⟨0, _⟩ => show win0_1.index t (0 : Fin 2) * 25 + 1 * p.val = p.val; omega
    | ⟨1, _⟩ => show win0_1.index t (1 : Fin 2) * 32 + 1 * q.val = q.val; omega
  exact (congrArg (V m c (Pipeline.arrRef spec0 1)) he).trans (congrFun (V_main_arg1 m c) (ix2 p q))

/-- Window 2's one block is its whole array, as launched. -/
theorem blk2 (c : Dev nD) (t : Fin cfg0.N) (p : Fin 1) (q : Fin 32) :
    iblk m c 2 t (ix2 p q) = (m ((c.tc : Thread nD τ).loc main_arg2) : S1x32.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 2) (((cfg0.win 2).blk t).view.emb (ix2 p q)) = _
  have he : ((cfg0.win 2).blk t).view.emb (ix2 p q) = ix2 p q := by
    funext a; apply Fin.ext
    match a with
    | ⟨0, _⟩ => show win0_2.index t (0 : Fin 2) * 1 + 1 * p.val = p.val; omega
    | ⟨1, _⟩ => show win0_2.index t (1 : Fin 2) * 32 + 1 * q.val = q.val; omega
  exact (congrArg (V m c (Pipeline.arrRef spec0 2)) he).trans (congrFun (V_main_arg2 m c) (ix2 p q))

/-- Window 3's one block is its whole array, as launched. -/
theorem blk3 (c : Dev nD) (t : Fin cfg0.N) (p : Fin 800) (q : Fin 64) :
    iblk m c 3 t (ix2 p q) = (m ((c.tc : Thread nD τ).loc main_arg3) : S800x64.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 3) (((cfg0.win 3).blk t).view.emb (ix2 p q)) = _
  have he : ((cfg0.win 3).blk t).view.emb (ix2 p q) = ix2 p q := by
    funext a; apply Fin.ext
    match a with
    | ⟨0, _⟩ => show win0_3.index t (0 : Fin 2) * 800 + 1 * p.val = p.val; omega
    | ⟨1, _⟩ => show win0_3.index t (1 : Fin 2) * 64 + 1 * q.val = q.val; omega
  exact (congrArg (V m c (Pipeline.arrRef spec0 3)) he).trans (congrFun (V_main_arg3 m c) (ix2 p q))

/-- Window 4's one block is its whole array, as launched. -/
theorem blk4 (c : Dev nD) (t : Fin cfg0.N) (p : Fin 1) (q : Fin 64) :
    iblk m c 4 t (ix2 p q) = (m ((c.tc : Thread nD τ).loc main_arg4) : S1x64.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 4) (((cfg0.win 4).blk t).view.emb (ix2 p q)) = _
  have he : ((cfg0.win 4).blk t).view.emb (ix2 p q) = ix2 p q := by
    funext a; apply Fin.ext
    match a with
    | ⟨0, _⟩ => show win0_4.index t (0 : Fin 2) * 1 + 1 * p.val = p.val; omega
    | ⟨1, _⟩ => show win0_4.index t (1 : Fin 2) * 64 + 1 * q.val = q.val; omega
  exact (congrArg (V m c (Pipeline.arrRef spec0 4)) he).trans (congrFun (V_main_arg4 m c) (ix2 p q))

/-- Window 5's one block is its whole array, as launched. -/
theorem blk5 (c : Dev nD) (t : Fin cfg0.N) (p : Fin 1024) (q : Fin 512) :
    iblk m c 5 t (ix2 p q) = (m ((c.tc : Thread nD τ).loc main_arg5) : S1024x512.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 5) (((cfg0.win 5).blk t).view.emb (ix2 p q)) = _
  have he : ((cfg0.win 5).blk t).view.emb (ix2 p q) = ix2 p q := by
    funext a; apply Fin.ext
    match a with
    | ⟨0, _⟩ => show win0_5.index t (0 : Fin 2) * 1024 + 1 * p.val = p.val; omega
    | ⟨1, _⟩ => show win0_5.index t (1 : Fin 2) * 512 + 1 * q.val = q.val; omega
  exact (congrArg (V m c (Pipeline.arrRef spec0 5)) he).trans (congrFun (V_main_arg5 m c) (ix2 p q))

/-- Window 6's one block is its whole array, as launched. -/
theorem blk6 (c : Dev nD) (t : Fin cfg0.N) (p : Fin 1) (q : Fin 512) :
    iblk m c 6 t (ix2 p q) = (m ((c.tc : Thread nD τ).loc main_arg6) : S1x512.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 6) (((cfg0.win 6).blk t).view.emb (ix2 p q)) = _
  have he : ((cfg0.win 6).blk t).view.emb (ix2 p q) = ix2 p q := by
    funext a; apply Fin.ext
    match a with
    | ⟨0, _⟩ => show win0_6.index t (0 : Fin 2) * 1 + 1 * p.val = p.val; omega
    | ⟨1, _⟩ => show win0_6.index t (1 : Fin 2) * 512 + 1 * q.val = q.val; omega
  exact (congrArg (V m c (Pipeline.arrRef spec0 6)) he).trans (congrFun (V_main_arg6 m c) (ix2 p q))

/-- Window 7's one block is its whole array, as launched. -/
theorem blk7 (c : Dev nD) (t : Fin cfg0.N) (p : Fin 512) (q : Fin 128) :
    iblk m c 7 t (ix2 p q) = (m ((c.tc : Thread nD τ).loc main_arg7) : S512x128.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 7) (((cfg0.win 7).blk t).view.emb (ix2 p q)) = _
  have he : ((cfg0.win 7).blk t).view.emb (ix2 p q) = ix2 p q := by
    funext a; apply Fin.ext
    match a with
    | ⟨0, _⟩ => show win0_7.index t (0 : Fin 2) * 512 + 1 * p.val = p.val; omega
    | ⟨1, _⟩ => show win0_7.index t (1 : Fin 2) * 128 + 1 * q.val = q.val; omega
  exact (congrArg (V m c (Pipeline.arrRef spec0 7)) he).trans (congrFun (V_main_arg7 m c) (ix2 p q))

/-- Window 8's one block is its whole array, as launched. -/
theorem blk8 (c : Dev nD) (t : Fin cfg0.N) (p : Fin 1) (q : Fin 128) :
    iblk m c 8 t (ix2 p q) = (m ((c.tc : Thread nD τ).loc main_arg8) : S1x128.Idx → EReal) (ix2 p q) := by
  obtain ⟨f00, f01, f02, f10, f11, f20, f21, f30, f31, f40, f41, f50, f51, f60, f61, f70, f71, f80, f81, f90, f91, f92⟩ := idx_facts t
  show V m c (Pipeline.arrRef spec0 8) (((cfg0.win 8).blk t).view.emb (ix2 p q)) = _
  have he : ((cfg0.win 8).blk t).view.emb (ix2 p q) = ix2 p q := by
    funext a; apply Fin.ext
    match a with
    | ⟨0, _⟩ => show win0_8.index t (0 : Fin 2) * 1 + 1 * p.val = p.val; omega
    | ⟨1, _⟩ => show win0_8.index t (1 : Fin 2) * 128 + 1 * q.val = q.val; omega
  exact (congrArg (V m c (Pipeline.arrRef spec0 8)) he).trans (congrFun (V_main_arg8 m c) (ix2 p q))

/-- The array the result window ends holding: the network of the nine arguments at (image, class column), the unit
    middle axis ignored. -/
def G (c : Dev nD) : S8192x1x128.Idx → EReal := fun i =>
  net (m ((c.tc : Thread nD τ).loc main_arg0) : S8192x1x28x28.Idx → EReal)
    (m ((c.tc : Thread nD τ).loc main_arg1) : S25x32.Idx → EReal)
    (m ((c.tc : Thread nD τ).loc main_arg2) : S1x32.Idx → EReal)
    (m ((c.tc : Thread nD τ).loc main_arg3) : S800x64.Idx → EReal)
    (m ((c.tc : Thread nD τ).loc main_arg4) : S1x64.Idx → EReal)
    (m ((c.tc : Thread nD τ).loc main_arg5) : S1024x512.Idx → EReal)
    (m ((c.tc : Thread nD τ).loc main_arg6) : S1x512.Idx → EReal)
    (m ((c.tc : Thread nD τ).loc main_arg7) : S512x128.Idx → EReal)
    (m ((c.tc : Thread nD τ).loc main_arg8) : S1x128.Idx → EReal)
    (i 0).val (i 2).val

/-- What point `t` writes back is block `t` of `G`. -/
theorem flushed9_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  obtain ⟨f00, f01, f02, f10, f11, f20, f21, f30, f31, f40, f41, f50, f51, f60, f61, f70, f71, f80, f81, f90, f91, f92⟩ := idx_facts t
  have ht := t_lt t
  funext y
  have hb : (y 0).val < 8 := (y 0).isLt
  have hu : (y 1).val < 1 := (y 1).isLt
  have hn : (y 2).val < 128 := (y 2).isLt
  show out0_9 (iblk m c 0 t) (iblk m c 1 t) (iblk m c 2 t) (iblk m c 3 t) (iblk m c 4 t) (iblk m c 5 t) (iblk m c 6 t)
      (iblk m c 7 t) (iblk m c 8 t) ((cfg0.win 9).xinj (grid0.coords t) y)
    = G m c (((cfg0.win 9).blk t).view.emb y)
  have e1 : (cfg0.win 9).xinj (grid0.coords t) y
      = ix3 (⟨(y 0).val, hb⟩ : Fin 8) (0 : Fin 1) (⟨(y 2).val, hn⟩ : Fin 128) := by
    funext a; apply Fin.ext
    match a with
    | ⟨0, _⟩ => rfl
    | ⟨1, _⟩ => show (y 1).val = 0; omega
    | ⟨2, _⟩ => rfl
  have e2 : ((((cfg0.win 9).blk t).view.emb y) 0).val = 8 * t.val + (y 0).val := by
    show win0_9.index t (0 : Fin 3) * 8 + 1 * (y 0).val = _; omega
  have e3 : ((((cfg0.win 9).blk t).view.emb y) 2).val = (y 2).val := by
    show win0_9.index t (2 : Fin 3) * 128 + 1 * (y 2).val = _; omega
  refine ((congrArg (out0_9 (F := Ideal) (iblk m c 0 t) (iblk m c 1 t) (iblk m c 2 t) (iblk m c 3 t) (iblk m c 4 t)
      (iblk m c 5 t) (iblk m c 6 t) (iblk m c 7 t) (iblk m c 8 t)) e1).trans
    (out_eq (iblk m c 0 t) (iblk m c 1 t) (iblk m c 2 t) (iblk m c 3 t) (iblk m c 4 t)
      (iblk m c 5 t) (iblk m c 6 t) (iblk m c 7 t) (iblk m c 8 t)
      (fun b h w => xN (m ((c.tc : Thread nD τ).loc main_arg0) : S8192x1x28x28.Idx → EReal) (8 * t.val + b) h w)
      (rd2 (m ((c.tc : Thread nD τ).loc main_arg1) : S25x32.Idx → EReal)) (rowN (m ((c.tc : Thread nD τ).loc main_arg2) : S1x32.Idx → EReal)) (rd2 (m ((c.tc : Thread nD τ).loc main_arg3) : S800x64.Idx → EReal)) (rowN (m ((c.tc : Thread nD τ).loc main_arg4) : S1x64.Idx → EReal))
      (rd2 (m ((c.tc : Thread nD τ).loc main_arg5) : S1024x512.Idx → EReal)) (rowN (m ((c.tc : Thread nD τ).loc main_arg6) : S1x512.Idx → EReal)) (rd2 (m ((c.tc : Thread nD τ).loc main_arg7) : S512x128.Idx → EReal)) (rowN (m ((c.tc : Thread nD τ).loc main_arg8) : S1x128.Idx → EReal))
      (fun b h w => blk0 m c t b h w)
      (fun k c' => (blk1 m c t k c').trans (rd2_ix _ k c').symm)
      (fun c' => (blk2 m c t 0 c').trans (rowN_ix _ c').symm)
      (fun k co => (blk3 m c t k co).trans (rd2_ix _ k co).symm)
      (fun co => (blk4 m c t 0 co).trans (rowN_ix _ co).symm)
      (fun k h => (blk5 m c t k h).trans (rd2_ix _ k h).symm)
      (fun h => (blk6 m c t 0 h).trans (rowN_ix _ h).symm)
      (fun k n => (blk7 m c t k n).trans (rd2_ix _ k n).symm)
      (fun n => (blk8 m c t 0 n).trans (rowN_ix _ n).symm)
      (⟨(y 0).val, hb⟩ : Fin 8) (⟨(y 2).val, hn⟩ : Fin 128))).trans ?_
  rw [AlgR.R_out_eq]
  refine (AlgR.out_shift (xN (m ((c.tc : Thread nD τ).loc main_arg0) : S8192x1x28x28.Idx → EReal)) _ _ _ _ _ _ _ _ (8 * t.val) (y 0).val (y 2).val).trans ?_
  unfold G net
  rw [e2, e3]

/-- An index of the result array is in point `t`'s block iff each coordinate is in the block's range on its axis. -/
theorem mem_blk9 (t : Fin cfg0.N) (i : S8192x1x128.Idx) :
    i ∈ ((cfg0.win 9).blk t).view.set ↔ ∀ a : Fin 3, win0_9.index t a * S8x1x128.size a ≤ (i a).val
      ∧ (i a).val < win0_9.index t a * S8x1x128.size a + S8x1x128.size a := by
  show i ∈ ((View.whole main_call0_v1).slice (win0_9.rect t)).set ↔ _
  rw [View.set_slice_whole, Rect.mem_set_unit]
  exact Iff.rfl

/-- Every index of the result array lies in the block of the point that holds its image: row `r` in block `r / 8`. -/
theorem cover9 (i : S8192x1x128.Idx) :
    ∃ t : Fin cfg0.N, (cfg0.win 9).flush t = true ∧ i ∈ ((cfg0.win 9).blk t).view.set := by
  have hi0 : (i 0).val < 8192 := (i 0).isLt
  have hi1 : (i 1).val < 1 := (i 1).isLt
  have hi2 : (i 2).val < 128 := (i 2).isLt
  obtain ⟨t, htv⟩ : ∃ t : Fin cfg0.N, t.val = (i 0).val / 8 :=
    ⟨⟨(i 0).val / 8, lt_of_lt_of_eq (by omega : (i 0).val / 8 < 1024) N_0.symm⟩, rfl⟩
  obtain ⟨f00, f01, f02, f10, f11, f20, f21, f30, f31, f40, f41, f50, f51, f60, f61, f70, f71, f80, f81, f90, f91, f92⟩ := idx_facts t
  refine ⟨t, flush0_9 t, ?_⟩
  rw [mem_blk9]
  intro a
  match a with
  | ⟨0, _⟩ => show win0_9.index t (0 : Fin 3) * 8 ≤ (i 0).val ∧ (i 0).val < win0_9.index t (0 : Fin 3) * 8 + 8; omega
  | ⟨1, _⟩ => show win0_9.index t (1 : Fin 3) * 1 ≤ (i 1).val ∧ (i 1).val < win0_9.index t (1 : Fin 3) * 1 + 1; omega
  | ⟨2, _⟩ => show win0_9.index t (2 : Fin 3) * 128 ≤ (i 2).val ∧ (i 2).val < win0_9.index t (2 : Fin 3) * 128 + 128; omega

/-- The result window's array after the run is `G`. -/
theorem final9 (c : Dev nD) : (dats m 0 c).arrAt 9 cfg0.N = G m c :=
  (dats m 0 c).arrAt_eq_of_cover 9 (G m c) (fun t _ => flushed9_eq m c t) cover9

/-- The program's result after the host operations that follow the region: the first ten class columns of `G`. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v0)
      = (fun i : S8192x10.Idx => net (m ((c.tc : Thread nD τ).loc main_arg0) : S8192x1x28x28.Idx → EReal)
          (m ((c.tc : Thread nD τ).loc main_arg1) : S25x32.Idx → EReal)
          (m ((c.tc : Thread nD τ).loc main_arg2) : S1x32.Idx → EReal)
          (m ((c.tc : Thread nD τ).loc main_arg3) : S800x64.Idx → EReal)
          (m ((c.tc : Thread nD τ).loc main_arg4) : S1x64.Idx → EReal)
          (m ((c.tc : Thread nD τ).loc main_arg5) : S1024x512.Idx → EReal)
          (m ((c.tc : Thread nD τ).loc main_arg6) : S1x512.Idx → EReal)
          (m ((c.tc : Thread nD τ).loc main_arg7) : S512x128.Idx → EReal)
          (m ((c.tc : Thread nD τ).loc main_arg8) : S1x128.Idx → EReal)
          (i 0).val (i 1).val) := by
  refine ((h c).2 main_v0 (Pipeline.mem_restRefs_of main_v0 (by decide) (by decide))).trans ?_
  funext i
  obtain ⟨b, n, rfl⟩ : ∃ (b : Fin 8192) (n : Fin 10), i = ix2 b n := ⟨i 0, i 1, eq_ix2 i⟩
  refine (RHost.result_apply m c b n).trans ?_
  rw [final9]
  rfl

/-- Every weakly fair execution of the reference program terminates with the result array holding the network of the
    nine arguments at (image, class), and the arguments unchanged. -/
theorem run : θ_run (Cert.ReferenceIdeal.defs (F := Ideal)) (onTc (τ := τ) (main (F := Ideal))) ⟨m, fun _ => 0, ρ⟩ fun r => ∀ c : Dev nD,
      r.2.mem ((c.tc : Thread nD τ).loc main_v0)
        = (fun i : S8192x10.Idx => net (m ((c.tc : Thread nD τ).loc main_arg0) : S8192x1x28x28.Idx → EReal)
          (m ((c.tc : Thread nD τ).loc main_arg1) : S25x32.Idx → EReal)
          (m ((c.tc : Thread nD τ).loc main_arg2) : S1x32.Idx → EReal)
          (m ((c.tc : Thread nD τ).loc main_arg3) : S800x64.Idx → EReal)
          (m ((c.tc : Thread nD τ).loc main_arg4) : S1x64.Idx → EReal)
          (m ((c.tc : Thread nD τ).loc main_arg5) : S1024x512.Idx → EReal)
          (m ((c.tc : Thread nD τ).loc main_arg6) : S1x512.Idx → EReal)
          (m ((c.tc : Thread nD τ).loc main_arg7) : S512x128.Idx → EReal)
          (m ((c.tc : Thread nD τ).loc main_arg8) : S1x128.Idx → EReal)
          (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨result m r h c,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.LeNet.RValue

end
-- ==== Proof.lean ====
/-
  Both programs compute the same small convolutional network on the extended reals: a 5x5 convolution to 32 channels, bias,
  relu and a 2x2 max pool; a 5x5 convolution to 64 channels, bias, relu and a 2x2 max pool; a dense layer to 512 with relu;
  a dense layer to 128 columns of which the first ten are returned.

  The reference forms each convolution as one product of the matrix of image patches with the tap matrix, adds the bias,
  rectifies and pools. The kernel forms each convolution as products with banded matrices whose rows are the image columns of
  a whole image row (or of a width-8 window), one product per residue of the output row modulo 4 (resp. 2), with the output
  columns ordered evens first; the pools are then maxima of aligned blocks, taken BEFORE the bias and the relu, and the first
  dense layer is four partial sums over the pooled rows. Equality needs only: re-indexing of finite sums, products with the
  zero taps of the banded matrices vanishing, and that adding a constant and max-with-zero are monotone, hence commute with
  max. None of this needs finiteness of the inputs.

  Spec.lean states the network three ways; AlgK1 / AlgK2 / AlgR prove the three equal; KBody1 / KBody2 and RBody1 / RBody2
  read the two kernel bodies at an index; KHost* and RHost read the host operations around the regions; KValue and RValue
  pass from the blocks each grid point writes to the whole output array and the run.
-/
import proofs.«175274_g2000709357908425_pallasbulk_852_30_alg».proof.Defs
import proofs.«175274_g2000709357908425_pallasbulk_852_30_alg».proof.Proof.Gen.Kernel
import proofs.«175274_g2000709357908425_pallasbulk_852_30_alg».proof.Proof.Gen.Kernel.Skeleton
import proofs.«175274_g2000709357908425_pallasbulk_852_30_alg».proof.Proof.Gen.Kernel.Launch
import proofs.«175274_g2000709357908425_pallasbulk_852_30_alg».proof.Proof.Gen.Kernel.Points
import proofs.«175274_g2000709357908425_pallasbulk_852_30_alg».proof.Proof.Gen.Kernel.Frame
import proofs.«175274_g2000709357908425_pallasbulk_852_30_alg».proof.Proof.Gen.KernelIdeal
import proofs.«175274_g2000709357908425_pallasbulk_852_30_alg».proof.Proof.Gen.KernelIdeal.Skeleton
import proofs.«175274_g2000709357908425_pallasbulk_852_30_alg».proof.Proof.Gen.KernelIdeal.Launch
import proofs.«175274_g2000709357908425_pallasbulk_852_30_alg».proof.Proof.Gen.KernelIdeal.Points
import proofs.«175274_g2000709357908425_pallasbulk_852_30_alg».proof.Proof.Gen.KernelIdeal.Frame
import proofs.«175274_g2000709357908425_pallasbulk_852_30_alg».proof.Proof.Gen.ReferenceIdeal
import proofs.«175274_g2000709357908425_pallasbulk_852_30_alg».proof.Proof.Gen.ReferenceIdeal.Skeleton
import proofs.«175274_g2000709357908425_pallasbulk_852_30_alg».proof.Proof.Gen.ReferenceIdeal.Launch
import proofs.«175274_g2000709357908425_pallasbulk_852_30_alg».proof.Proof.Gen.ReferenceIdeal.Points
import proofs.«175274_g2000709357908425_pallasbulk_852_30_alg».proof.Proof.Gen.ReferenceIdeal.Frame
import proofs.«175274_g2000709357908425_pallasbulk_852_30_alg».proof.Proof.Gen.Pre_finite_inputs
import proofs.«175274_g2000709357908425_pallasbulk_852_30_alg».proof.Proof.KValue
import proofs.«175274_g2000709357908425_pallasbulk_852_30_alg».proof.Proof.RValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories that agree on the nine arguments both runs end with the result at the network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.LeNet.KValue.run m ρ, ?_⟩
  refine (θ_run (Cert.ReferenceIdeal.defs (F := Ideal)) _ _).mono (fun r h c => ⟨(h c).1.trans ?_, (h c).2⟩)
    (Cert.LeNet.RValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
